-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32000 : Shape := ⟨3, ![4, 1024, 32000]⟩
abbrev S4x1024 : Shape := ⟨2, ![4, 1024]⟩
abbrev S_ : Shape := ⟨0, ![]⟩

class Facts : Prop where
  bcast_S_S4x1024x32000 : S_.BroadcastsInDim S4x1024x32000 (![] : Fin 0 → Fin S4x1024x32000.rank)
  reducesTo_S4x1024x32000_S_d0_1_2 : S4x1024x32000.ReducesTo [0, 1, 2] S_
  h_S_ : 0 < S_.numel

variable [Facts]

def fn {F : FTy → Type} [FloatOps F] (main_arg0 : FVec F S4x1024x32000 .f32) (main_arg1 : FVec F S4x1024x32000 .f32) (main_arg2 : IVec S4x1024 32) : IVec S_ 1 :=
  let main_v0 : FVec F S4x1024x32000 .f32 := Host.absf main_arg0
  let main_cst : FVec F S_ .f32 := constant S_ .f32 0x7F800000#32
  let main_v1 : FVec F S4x1024x32000 .f32 := broadcastInDim S4x1024x32000 ![] bcast_S_S4x1024x32000 main_cst
  let main_v2 : IVec S4x1024x32000 1 := cmpf .olt main_v0 main_v1
  let main_c : IVec S_ 1 := constantI S_ 1 1#1
  let main_v3 : IVec S_ 1 := (fun x v => Host.reduce IntOp.andi x v reducesTo_S4x1024x32000_S_d0_1_2 h_S_) main_v2 main_c
  let main_v4 : FVec F S4x1024x32000 .f32 := Host.absf main_arg1
  let main_cst_0 : FVec F S_ .f32 := constant S_ .f32 0x7F800000#32
  let main_v5 : FVec F S4x1024x32000 .f32 := broadcastInDim S4x1024x32000 ![] bcast_S_S4x1024x32000 main_cst_0
  let main_v6 : IVec S4x1024x32000 1 := cmpf .olt main_v4 main_v5
  let main_c_1 : IVec S_ 1 := constantI S_ 1 1#1
  let main_v7 : IVec S_ 1 := (fun x v => Host.reduce IntOp.andi x v reducesTo_S4x1024x32000_S_d0_1_2 h_S_) main_v6 main_c_1
  let main_v8 : IVec S_ 1 := andi main_v3 main_v7
  main_v8
-- ==== Kernel.lean ====
abbrev S4x1024x32000 : Shape := ⟨3, ![4, 1024, 32000]⟩
abbrev S4x1024 : Shape := ⟨2, ![4, 1024]⟩
abbrev S4096x32000 : Shape := ⟨2, ![4096, 32000]⟩
abbrev S4096 : Shape := ⟨1, ![4096]⟩
abbrev S4096x1 : Shape := ⟨2, ![4096, 1]⟩
abbrev S256x3200 : Shape := ⟨2, ![256, 3200]⟩
abbrev S256x1 : Shape := ⟨2, ![256, 1]⟩
abbrev S256 : Shape := ⟨1, ![256]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 56
  | .vmem => 15
  | .smem => 0
  | _ => 0

abbrev bufTy : (tb : Table) → Fin (tcTables nBuf tb) → BufTy
  | .hbm, ⟨0, _⟩ => ⟨S4x1024x32000, .f32⟩
  | .hbm, ⟨1, _⟩ => ⟨S4x1024x32000, .f32⟩
  | .hbm, ⟨2, _⟩ => ⟨S4x1024, .i32⟩
  | .hbm, ⟨3, _⟩ => ⟨S4096x32000, .f32⟩
  | .hbm, ⟨4, _⟩ => ⟨S4096x32000, .f32⟩
  | .hbm, ⟨5, _⟩ => ⟨S4096, .i32⟩
  | .hbm, ⟨6, _⟩ => ⟨S4096x1, .f32⟩
  | .hbm, ⟨7, _⟩ => ⟨S4096x1, .f32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S4096x1x1, .i32⟩
  | .hbm, ⟨17, _⟩ => ⟨S1, .i32⟩
  | .hbm, ⟨18, _⟩ => ⟨S_, .i32⟩
  | .hbm, ⟨19, _⟩ => ⟨S4096x1x1, .i32⟩
  | .hbm, ⟨20, _⟩ => ⟨S4096x1x1, .i1⟩
  | .hbm, ⟨21, _⟩ => ⟨S1x1x1, .i32⟩
  | .hbm, ⟨22, _⟩ => ⟨S4096x1x1, .i32⟩
  | .hbm, ⟨23, _⟩ => ⟨S4096x1x1, .i1⟩
  | .hbm, ⟨24, _⟩ => ⟨S4096x1x1, .i1⟩
  | .hbm, ⟨25, _⟩ => ⟨S_, .i1⟩
  | .hbm, ⟨26, _⟩ => ⟨S4096x1, .i1⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S256x3200, .f32⟩
  | .local _ .vmem, ⟨1, _⟩ => ⟨S256x3200, .f32⟩
  | .local _ .vmem, ⟨2, _⟩ => ⟨S256x3200, .f32⟩
  | .local _ .vmem, ⟨3, _⟩ => ⟨S256x3200, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | _, _ => ⟨S4x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_cst_0 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_cst_5 : Ref sig .tc := ⟨.hbm, 51, rfl⟩
abbrev main_v19 : Ref sig .tc := ⟨.hbm, 52, rfl⟩
abbrev main_cst_6 : Ref sig .tc := ⟨.hbm, 53, rfl⟩
abbrev main_v20 : Ref sig .tc := ⟨.hbm, 54, rfl⟩
abbrev main_v21 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v86 : BitVec 1 := Scalar.cmpi .eq arg1 c9_i32
  let v87 : BitVec 32 := Scalar.extui v86
  let c0_i32_42 : BitVec 32 := 0#32
  let v88 : BitVec 1 := Scalar.cmpi .ne v87 c0_i32_42
  v88

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x1024x32000_S4096x32000 : S4x1024x32000.ShapeCasts S4096x32000
  shapeCasts_S4x1024_S4096 : S4x1024.ShapeCasts S4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  reduces_S256x3200_S256 : S256x3200.Reduces [1] S256
  shapeCasts_S256_S256x1 : S256.ShapeCasts S256x1
  broadcasts_S256x1_S256x3200 : S256x1.Broadcasts S256x3200
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S_S4096 : S_.BroadcastsInDim S4096 (![] : Fin 0 → Fin S4096.rank)
  reducesTo_S4096x1_S_d0_1 : S4096x1.ReducesTo [0, 1] S_
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3200.size a ≤ S4096x32000.size a
  hwx0_0 : ∀ i : grid0.Coords, EltTy.bits .f32 = 32 ∨ (Rect.block (s := S4096x32000) S256x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3200.size a ≤ S4096x32000.size a
  hwx0_1 : ∀ i : grid0.Coords, EltTy.bits .f32 = 32 ∨ (Rect.block (s := S4096x32000) S256x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_v0) S256x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1024x32000 : Shape := ⟨3, ![4, 1024, 32000]⟩
abbrev S4x1024 : Shape := ⟨2, ![4, 1024]⟩
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S4x1024x32000, .f32⟩
  | .hbm, ⟨1, _⟩ => ⟨S4x1024x32000, .f32⟩
  | .hbm, ⟨2, _⟩ => ⟨S4x1024, .i32⟩
  | .hbm, ⟨3, _⟩ => ⟨S4096x32000, .f32⟩
  | .hbm, ⟨4, _⟩ => ⟨S4096x32000, .f32⟩
  | .hbm, ⟨5, _⟩ => ⟨S4096, .i32⟩
  | .hbm, ⟨6, _⟩ => ⟨S_, .f32⟩
  | .hbm, ⟨7, _⟩ => ⟨S4096x32000, .f32⟩
  | .hbm, ⟨8, _⟩ => ⟨S4096x32000, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x32000, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x32000, .f32⟩
  | .hbm, ⟨23, _⟩ => ⟨S4096x32000, .f32⟩
  | .hbm, ⟨24, _⟩ => ⟨S_, .f32⟩
  | .hbm, ⟨25, _⟩ => ⟨S4096x32000, .f32⟩
  | .hbm, ⟨26, _⟩ => ⟨S4096x32000, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x32000, .f32⟩
  | .hbm, ⟨34, _⟩ => ⟨S4096x32000, .f32⟩
  | .hbm, ⟨35, _⟩ => ⟨S4096x32000, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1, .f32⟩
  | .hbm, ⟨40, _⟩ => ⟨S4096x32000, .f32⟩
  | .hbm, ⟨41, _⟩ => ⟨S4096x32000, .f32⟩
  | .hbm, ⟨42, _⟩ => ⟨S4096x32000, .f32⟩
  | .hbm, ⟨43, _⟩ => ⟨S4096x32000, .f32⟩
  | .hbm, ⟨44, _⟩ => ⟨S4096x32000, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1, .f32⟩
  | .hbm, ⟨57, _⟩ => ⟨S4096x32000, .f32⟩
  | .hbm, ⟨58, _⟩ => ⟨S4096x32000, .f32⟩
  | .hbm, ⟨59, _⟩ => ⟨S4096x32000, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1, .f32⟩
  | .hbm, ⟨64, _⟩ => ⟨S4096x32000, .f32⟩
  | .hbm, ⟨65, _⟩ => ⟨S4096x32000, .f32⟩
  | .hbm, ⟨66, _⟩ => ⟨S4096x1, .i32⟩
  | .hbm, ⟨67, _⟩ => ⟨S_, .i32⟩
  | .hbm, ⟨68, _⟩ => ⟨S4096x1, .i32⟩
  | .hbm, ⟨69, _⟩ => ⟨S4096x1, .i1⟩
  | .hbm, ⟨70, _⟩ => ⟨S_, .i32⟩
  | .hbm, ⟨71, _⟩ => ⟨S4096x1, .i32⟩
  | .hbm, ⟨72, _⟩ => ⟨S4096x1, .i32⟩
  | .hbm, ⟨73, _⟩ => ⟨S4096x1, .i32⟩
  | .hbm, ⟨74, _⟩ => ⟨S4096x1x1, .i32⟩
  | .hbm, ⟨75, _⟩ => ⟨S1, .i32⟩
  | .hbm, ⟨76, _⟩ => ⟨S_, .i32⟩
  | .hbm, ⟨77, _⟩ => ⟨S4096x1x1, .i32⟩
  | .hbm, ⟨78, _⟩ => ⟨S4096x1x1, .i1⟩
  | .hbm, ⟨79, _⟩ => ⟨S1x1x1, .i32⟩
  | .hbm, ⟨80, _⟩ => ⟨S4096x1x1, .i32⟩
  | .hbm, ⟨81, _⟩ => ⟨S4096x1x1, .i1⟩
  | .hbm, ⟨82, _⟩ => ⟨S4096x1x1, .i1⟩
  | .hbm, ⟨83, _⟩ => ⟨S_, .i1⟩
  | .hbm, ⟨84, _⟩ => ⟨S4096x1, .i1⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096, .f32⟩
  | .hbm, ⟨90, _⟩ => ⟨S4096, .f32⟩
  | .hbm, ⟨91, _⟩ => ⟨S_, .i32⟩
  | .hbm, ⟨92, _⟩ => ⟨S4096, .i32⟩
  | .hbm, ⟨93, _⟩ => ⟨S4096, .i1⟩
  | .hbm, ⟨94, _⟩ => ⟨S4096, .f32⟩
  | .hbm, ⟨95, _⟩ => ⟨S4096, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S4x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_call2_cst : Ref sig .tc := ⟨.hbm, 51, rfl⟩
abbrev main_call2_v0 : Ref sig .tc := ⟨.hbm, 52, rfl⟩
abbrev main_call2_cst_0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_cst_1 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_v15 : Ref sig .tc := ⟨.hbm, 65, rfl⟩
abbrev main_v16 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_cst : Ref sig .tc := ⟨.hbm, 86, rfl⟩
abbrev main_call3_v14 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_c : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_cst_4 : Ref sig .tc := ⟨.hbm, 96, rfl⟩
abbrev main_v24 : Ref sig .tc := ⟨.hbm, 97, rfl⟩
abbrev main_cst_5 : Ref sig .tc := ⟨.hbm, 98, rfl⟩
abbrev main_v25 : Ref sig .tc := ⟨.hbm, 99, rfl⟩
abbrev main_cst_6 : Ref sig .tc := ⟨.hbm, 100, rfl⟩
abbrev main_v26 : Ref sig .tc := ⟨.hbm, 101, rfl⟩
abbrev main_v27 : Ref sig .tc := ⟨.hbm, 102, rfl⟩
abbrev main_cst_7 : Ref sig .tc := ⟨.hbm, 103, rfl⟩
abbrev main_v28 : Ref sig .tc := ⟨.hbm, 104, rfl⟩
abbrev main_cst_8 : Ref sig .tc := ⟨.hbm, 105, rfl⟩
abbrev main_v29 : Ref sig .tc := ⟨.hbm, 106, rfl⟩
abbrev main_v30 : Ref sig .tc := ⟨.hbm, 107, rfl⟩

abbrev nD : Nat := 1
abbrev τ : Topo := Topo.v7x

variable {F : FTy → Type} [FloatOps F]

class Facts₀ : Prop where
  shapeCasts_S4x1024x32000_S4096x32000 : S4x1024x32000.ShapeCasts S4096x32000
  shapeCasts_S4x1024_S4096 : S4x1024.ShapeCasts S4096
  bcast_S_S4096x32000 : S_.BroadcastsInDim S4096x32000 (![] : Fin 0 → Fin S4096x32000.rank)
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  reducesTo_S4096x32000_S_d0_1 : S4096x32000.ReducesTo [0, 1] S_
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.LibOnlineSoftmax.lean ====
/-
  The online softmax. A row of scores is met block by block; a running shift `m`, a running denominator `l` and a
  running weighted sum `a` are kept, each rescaled by `exp (m_old - m_new)` when the shift moves. After the last
  block `a / l` is the softmax-weighted sum of the whole row, whatever finite shifts were used on the way and
  whatever finite shift the one-pass softmax uses. Stated on the extended reals with the ideal `exp` and `div`,
  the start being shift `⊥`, denominator `0`, sum `0` (so the first rescaling factor is `exp ⊥ = 0`).
-/
import Idealize.ShloMosaic.PureOps.Ideal

noncomputable section

namespace OnlineSoftmax

open Idealize.ShloMosaic

variable {w : ℕ}

/-- The running shift after `j` blocks: `⊥`, then the maximum with each block's own shift `bm j`. -/
def m (bm : ℕ → ℝ) : ℕ → EReal
  | 0 => ⊥
  | j + 1 => max (m bm j) ((bm j : ℝ) : EReal)

/-- The running denominator after `j` blocks. -/
def l (s : ℕ → Fin w → ℝ) (bm : ℕ → ℝ) : ℕ → EReal
  | 0 => 0
  | j + 1 => Ideal.exp (m bm j - m bm (j + 1)) * l s bm j + ∑ k : Fin w, Ideal.exp (((s j k : ℝ) : EReal) - m bm (j + 1))

/-- The running weighted sum after `j` blocks. -/
def a (s v : ℕ → Fin w → ℝ) (bm : ℕ → ℝ) : ℕ → EReal
  | 0 => 0
  | j + 1 => Ideal.exp (m bm j - m bm (j + 1)) * a s v bm j
      + ∑ k : Fin w, Ideal.exp (((s j k : ℝ) : EReal) - m bm (j + 1)) * ((v j k : ℝ) : EReal)

/-! ### Coercions of finite real sums -/

/-- The coercion of a finite real sum is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-- One block's sum of ideal exponentials at a real shift, weighted by reals, is the coercion of the real sum. -/
theorem block_coe (x c : Fin w → ℝ) (μ : ℝ) :
    ∑ k : Fin w, Ideal.exp (((x k : ℝ) : EReal) - (μ : EReal)) * ((c k : ℝ) : EReal)
      = ((∑ k : Fin w, Real.exp (x k - μ) * c k : ℝ) : EReal) := by
  rw [coe_sum]
  refine Finset.sum_congr rfl fun k _ => ?_
  rw [← EReal.coe_sub, Ideal.exp_coe, EReal.coe_mul]

/-! ### The running shift is real after the first block -/

theorem m_real (bm : ℕ → ℝ) (j : ℕ) : ∃ μ : ℝ, m bm (j + 1) = (μ : EReal) := by
  induction j with
  | zero => exact ⟨bm 0, by simp [m]⟩
  | succ j ih =>
    obtain ⟨μ, hμ⟩ := ih
    refine ⟨max μ (bm (j + 1)), ?_⟩
    show max (m bm (j + 1)) ((bm (j + 1) : ℝ) : EReal) = _
    rw [hμ]
    exact (EReal.coe_strictMono.monotone.map_max).symm

/-! ### Moving the shift of a real exponential sum: `e^(μ-μ') · Σ e^(s-μ) c = Σ e^(s-μ') c` -/

theorem rescale (s c : ℕ → Fin w → ℝ) (t : Finset ℕ) (μ μ' : ℝ) :
    Real.exp (μ - μ') * ∑ i ∈ t, ∑ k : Fin w, Real.exp (s i k - μ) * c i k
      = ∑ i ∈ t, ∑ k : Fin w, Real.exp (s i k - μ') * c i k := by
  rw [Finset.mul_sum]
  refine Finset.sum_congr rfl fun i _ => ?_
  rw [Finset.mul_sum]
  refine Finset.sum_congr rfl fun k _ => ?_
  rw [← mul_assoc, ← Real.exp_add]
  have h : μ - μ' + (s i k - μ) = s i k - μ' := by ring
  rw [h]

/-! ### Closed forms -/

/-- The denominator is the weighted sum with every weight one. -/
theorem l_eq_a (s : ℕ → Fin w → ℝ) (bm : ℕ → ℝ) (j : ℕ) :
    l s bm j = a s (fun _ _ => 1) bm j := by
  induction j with
  | zero => rfl
  | succ j ih => simp only [l, a, ih, EReal.coe_one, mul_one]

/-- After `j + 1` blocks, the running shift being the real `μ`, the weighted sum is the real
    `Σ e^(s-μ) v` over the blocks met. -/
theorem a_closed (s v : ℕ → Fin w → ℝ) (bm : ℕ → ℝ) (j : ℕ) :
    ∀ μ : ℝ, m bm (j + 1) = (μ : EReal) →
      a s v bm (j + 1)
        = ((∑ i ∈ Finset.range (j + 1), ∑ k : Fin w, Real.exp (s i k - μ) * v i k : ℝ) : EReal) := by
  induction j with
  | zero =>
    intro μ hμ
    show Ideal.exp (m bm 0 - m bm 1) * (0 : EReal)
        + ∑ k : Fin w, Ideal.exp (((s 0 k : ℝ) : EReal) - m bm 1) * ((v 0 k : ℝ) : EReal) = _
    rw [hμ, mul_zero, zero_add, Finset.sum_range_one, block_coe]
  | succ j ih =>
    intro μ' hμ'
    obtain ⟨μ, hμ⟩ := m_real bm j
    show Ideal.exp (m bm (j + 1) - m bm (j + 1 + 1)) * a s v bm (j + 1)
        + ∑ k : Fin w, Ideal.exp (((s (j + 1) k : ℝ) : EReal) - m bm (j + 1 + 1)) * ((v (j + 1) k : ℝ) : EReal) = _
    rw [ih μ hμ, hμ, hμ', ← EReal.coe_sub, Ideal.exp_coe, ← EReal.coe_mul, block_coe, ← EReal.coe_add,
      rescale, Finset.sum_range_succ _ (j + 1)]

/-! ### Positivity of the denominators -/

theorem sum_exp_pos [NeZero w] (s : ℕ → Fin w → ℝ) (j : ℕ) (μ : ℝ) :
    0 < ∑ i ∈ Finset.range (j + 1), ∑ k : Fin w, Real.exp (s i k - μ) := by
  apply Finset.sum_pos
  · intro i _
    apply Finset.sum_pos
    · intro k _
      exact Real.exp_pos _
    · exact Finset.univ_nonempty
  · exact ⟨0, Finset.mem_range.mpr (Nat.succ_pos j)⟩

/-! ### The quotient over the reals does not depend on the shift -/

theorem real_quot [NeZero w] (s v : ℕ → Fin w → ℝ) (j : ℕ) (μ M : ℝ) :
    (∑ i ∈ Finset.range (j + 1), ∑ k : Fin w, Real.exp (s i k - μ) * v i k)
        * (1 / ∑ i ∈ Finset.range (j + 1), ∑ k : Fin w, Real.exp (s i k - μ))
      = ∑ i ∈ Finset.range (j + 1), ∑ k : Fin w,
          Real.exp (s i k - M) * (1 / ∑ i' ∈ Finset.range (j + 1), ∑ k' : Fin w, Real.exp (s i' k' - M)) * v i k := by
  have hZ : 0 < ∑ i' ∈ Finset.range (j + 1), ∑ k' : Fin w, Real.exp (s i' k' - M) := sum_exp_pos s j M
  have hE : 0 < Real.exp (M - μ) := Real.exp_pos _
  have hA := rescale s v (Finset.range (j + 1)) M μ
  have hL := rescale s (fun _ _ => 1) (Finset.range (j + 1)) M μ
  simp only [mul_one] at hL
  rw [← hA, ← hL]
  generalize (∑ i' ∈ Finset.range (j + 1), ∑ k' : Fin w, Real.exp (s i' k' - M)) = Z at hZ ⊢
  have hR : ∑ i ∈ Finset.range (j + 1), ∑ k : Fin w, Real.exp (s i k - M) * (1 / Z) * v i k
      = (∑ i ∈ Finset.range (j + 1), ∑ k : Fin w, Real.exp (s i k - M) * v i k) * (1 / Z) := by
    rw [Finset.sum_mul]
    refine Finset.sum_congr rfl fun i _ => ?_
    rw [Finset.sum_mul]
    refine Finset.sum_congr rfl fun k _ => ?_
    ring
  rw [hR]
  field_simp

/-- After `n ≥ 1` blocks of positive width the quotient is the one-pass softmax-weighted sum at any finite shift `M`. -/
theorem final [NeZero w] (n : ℕ) (hn : 0 < n) (s v : ℕ → Fin w → ℝ) (bm : ℕ → ℝ) (M : ℝ) :
    Ideal.div (a s v bm n) (l s bm n)
      = ∑ j ∈ Finset.range n, ∑ k : Fin w,
          Ideal.div (Ideal.exp (((s j k : ℝ) : EReal) - (M : EReal)))
              (∑ j' ∈ Finset.range n, ∑ k' : Fin w, Ideal.exp (((s j' k' : ℝ) : EReal) - (M : EReal)))
            * ((v j k : ℝ) : EReal) := by
  obtain ⟨j, rfl⟩ : ∃ j, n = j + 1 := ⟨n - 1, by omega⟩
  obtain ⟨μ, hμ⟩ := m_real bm j
  have hL : 0 < ∑ i ∈ Finset.range (j + 1), ∑ k : Fin w, Real.exp (s i k - μ) := sum_exp_pos s j μ
  have hZ : 0 < ∑ i ∈ Finset.range (j + 1), ∑ k : Fin w, Real.exp (s i k - M) := sum_exp_pos s j M
  have hden : (∑ j' ∈ Finset.range (j + 1), ∑ k' : Fin w, Ideal.exp (((s j' k' : ℝ) : EReal) - (M : EReal)))
      = ((∑ i ∈ Finset.range (j + 1), ∑ k : Fin w, Real.exp (s i k - M) : ℝ) : EReal) := by
    rw [coe_sum]
    refine Finset.sum_congr rfl fun i _ => ?_
    rw [coe_sum]
    refine Finset.sum_congr rfl fun k _ => ?_
    rw [← EReal.coe_sub, Ideal.exp_coe]
  have hl := a_closed s (fun _ _ => 1) bm j μ hμ
  simp only [mul_one] at hl
  rw [l_eq_a, hl, a_closed s v bm j μ hμ, hden, Ideal.div_coe hL.ne', ← EReal.coe_mul, real_quot s v j μ M, coe_sum]
  refine Finset.sum_congr rfl fun i _ => ?_
  rw [coe_sum]
  refine Finset.sum_congr rfl fun k _ => ?_
  rw [Ideal.div_coe hZ.ne', ← EReal.coe_sub, Ideal.exp_coe, EReal.coe_mul, EReal.coe_mul]

end OnlineSoftmax

end
-- ==== Proof.LibOnlineE.lean ====
/-
  The online softmax recurrence with extended-real data: the running shift, denominator and weighted sum of
  LibOnlineSoftmax, the blocks' scores, values and shifts being extended reals. Where the data are coercions of real
  data, the three running quantities are those of the real recurrence.
-/
import proofs.«163586_j52982716564146_2_alg».proof.Proof.LibOnlineSoftmax

noncomputable section

namespace OnlineE

open Idealize.ShloMosaic

variable {w : ℕ}

/-- The running shift after `j` blocks: minus infinity, then the maximum with each block's own shift. -/
def mE (bmE : ℕ → EReal) : ℕ → EReal
  | 0 => ⊥
  | j + 1 => max (mE bmE j) (bmE j)

/-- The running denominator after `j` blocks. -/
def lE (sE : ℕ → Fin w → EReal) (bmE : ℕ → EReal) : ℕ → EReal
  | 0 => 0
  | j + 1 => Ideal.exp (mE bmE j - mE bmE (j + 1)) * lE sE bmE j + ∑ k : Fin w, Ideal.exp (sE j k - mE bmE (j + 1))

/-- The running weighted sum after `j` blocks. -/
def aE (sE vE : ℕ → Fin w → EReal) (bmE : ℕ → EReal) : ℕ → EReal
  | 0 => 0
  | j + 1 => Ideal.exp (mE bmE j - mE bmE (j + 1)) * aE sE vE bmE j
      + ∑ k : Fin w, Ideal.exp (sE j k - mE bmE (j + 1)) * vE j k

theorem mE_zero (bmE : ℕ → EReal) : mE bmE 0 = ⊥ := rfl
theorem mE_succ (bmE : ℕ → EReal) (j : ℕ) : mE bmE (j + 1) = max (mE bmE j) (bmE j) := rfl
theorem lE_zero (sE : ℕ → Fin w → EReal) (bmE : ℕ → EReal) : lE sE bmE 0 = 0 := rfl
theorem lE_succ (sE : ℕ → Fin w → EReal) (bmE : ℕ → EReal) (j : ℕ) :
    lE sE bmE (j + 1)
      = Ideal.exp (mE bmE j - mE bmE (j + 1)) * lE sE bmE j + ∑ k : Fin w, Ideal.exp (sE j k - mE bmE (j + 1)) := rfl
theorem aE_zero (sE vE : ℕ → Fin w → EReal) (bmE : ℕ → EReal) : aE sE vE bmE 0 = 0 := rfl
theorem aE_succ (sE vE : ℕ → Fin w → EReal) (bmE : ℕ → EReal) (j : ℕ) :
    aE sE vE bmE (j + 1)
      = Ideal.exp (mE bmE j - mE bmE (j + 1)) * aE sE vE bmE j
        + ∑ k : Fin w, Ideal.exp (sE j k - mE bmE (j + 1)) * vE j k := rfl

/-- With real block shifts the running shift is the real recurrence's. -/
theorem mE_eq (bm : ℕ → ℝ) (bmE : ℕ → EReal) (n : ℕ) (hb : ∀ j, j < n → bmE j = ((bm j : ℝ) : EReal)) :
    mE bmE n = OnlineSoftmax.m bm n := by
  induction n with
  | zero => rfl
  | succ n ih =>
    show max (mE bmE n) (bmE n) = max (OnlineSoftmax.m bm n) ((bm n : ℝ) : EReal)
    rw [ih fun j hj => hb j (Nat.lt_succ_of_lt hj), hb n (Nat.lt_succ_self n)]

/-- With real scores and block shifts the running denominator is the real recurrence's. -/
theorem lE_eq (s : ℕ → Fin w → ℝ) (bm : ℕ → ℝ) (sE : ℕ → Fin w → EReal) (bmE : ℕ → EReal) (n : ℕ)
    (hs : ∀ j, j < n → ∀ k, sE j k = ((s j k : ℝ) : EReal)) (hb : ∀ j, j < n → bmE j = ((bm j : ℝ) : EReal)) :
    lE sE bmE n = OnlineSoftmax.l s bm n := by
  induction n with
  | zero => rfl
  | succ n ih =>
    show Ideal.exp (mE bmE n - mE bmE (n + 1)) * lE sE bmE n + ∑ k : Fin w, Ideal.exp (sE n k - mE bmE (n + 1))
      = Ideal.exp (OnlineSoftmax.m bm n - OnlineSoftmax.m bm (n + 1)) * OnlineSoftmax.l s bm n
        + ∑ k : Fin w, Ideal.exp (((s n k : ℝ) : EReal) - OnlineSoftmax.m bm (n + 1))
    rw [ih (fun j hj => hs j (Nat.lt_succ_of_lt hj)) (fun j hj => hb j (Nat.lt_succ_of_lt hj)),
      mE_eq bm bmE n (fun j hj => hb j (Nat.lt_succ_of_lt hj)), mE_eq bm bmE (n + 1) hb]
    refine congrArg (_ + ·) (Finset.sum_congr rfl fun k _ => ?_)
    rw [hs n (Nat.lt_succ_self n) k]

/-- With real scores, values and block shifts the running weighted sum is the real recurrence's. -/
theorem aE_eq (s v : ℕ → Fin w → ℝ) (bm : ℕ → ℝ) (sE vE : ℕ → Fin w → EReal) (bmE : ℕ → EReal) (n : ℕ)
    (hs : ∀ j, j < n → ∀ k, sE j k = ((s j k : ℝ) : EReal)) (hv : ∀ j, j < n → ∀ k, vE j k = ((v j k : ℝ) : EReal))
    (hb : ∀ j, j < n → bmE j = ((bm j : ℝ) : EReal)) :
    aE sE vE bmE n = OnlineSoftmax.a s v bm n := by
  induction n with
  | zero => rfl
  | succ n ih =>
    show Ideal.exp (mE bmE n - mE bmE (n + 1)) * aE sE vE bmE n
        + ∑ k : Fin w, Ideal.exp (sE n k - mE bmE (n + 1)) * vE n k
      = Ideal.exp (OnlineSoftmax.m bm n - OnlineSoftmax.m bm (n + 1)) * OnlineSoftmax.a s v bm n
        + ∑ k : Fin w, Ideal.exp (((s n k : ℝ) : EReal) - OnlineSoftmax.m bm (n + 1)) * ((v n k : ℝ) : EReal)
    rw [ih (fun j hj => hs j (Nat.lt_succ_of_lt hj)) (fun j hj => hv j (Nat.lt_succ_of_lt hj))
        (fun j hj => hb j (Nat.lt_succ_of_lt hj)),
      mE_eq bm bmE n (fun j hj => hb j (Nat.lt_succ_of_lt hj)), mE_eq bm bmE (n + 1) hb]
    refine congrArg (_ + ·) (Finset.sum_congr rfl fun k _ => ?_)
    rw [hs n (Nat.lt_succ_self n) k, hv n (Nat.lt_succ_self n) k]

end OnlineE

end
-- ==== Proof.LibAlongAxis.lean ====
/-
  `take_along_axis(x, idx, axis = 1)` of a matrix `x : [a, b]` at one index per row (`idx : [a, 1]`, reshaped to
  `[a, 1, 1]`), as StableHLO's gather with a batching axis: operand axis 0 is paired with the indices' axis 0, the
  index selects along operand axis 1, the slice is one element. Result entry `(p, 0)` reads `x` in ROW `p`, at a
  column computed from the index word alone (read signed and clamped into the row).
-/
import Idealize.ShloMosaic.Lib.ValueIdx

noncomputable section

namespace Cert.LibAlongAxis

open Idealize.ShloMosaic Idealize.ShloMosaic.ValueIdx

variable {α : Type} {a b : ℕ}

/-- The dimension numbers: no offset axis, operand axis 1 collapsed, operand axis 0 batching with indices' axis 0,
    the start index naming operand axis 1, the index vector on the indices' axis 2, slices of one element. -/
abbrev alongDims (a b : ℕ)
    (wf : GatherDims.WF ⟨2, ![a, b]⟩ ⟨3, ![a, 1, 1]⟩ ⟨2, ![a, 1]⟩ [] [1] [0] [1] [0] 2 ![1, 1]) :
    GatherDims ⟨2, ![a, b]⟩ ⟨3, ![a, 1, 1]⟩ ⟨2, ![a, 1]⟩ where
  offsetDims := []
  collapsedSliceDims := [1]
  operandBatchingDims := [0]
  startIndicesBatchingDims := [0]
  startIndexMap := [1]
  indexVectorDim := 2
  sliceSizes := ![1, 1]
  wf := wf

/-- The operand's row read by result entry `j` is `j`'s row. -/
theorem along_row (wf : GatherDims.WF ⟨2, ![a, b]⟩ ⟨3, ![a, 1, 1]⟩ ⟨2, ![a, 1]⟩ [] [1] [0] [1] [0] 2 ![1, 1]) {w : ℕ}
    (j : (⟨2, ![a, 1]⟩ : Shape).Idx) (idx : IVec ⟨3, ![a, 1, 1]⟩ w) :
    ((alongDims a b wf).operandIdx j idx 0).val = (j 0).val := by
  show (alongDims a b wf).start j idx 0 + (alongDims a b wf).batchCoord j 0 + (alongDims a b wf).offCoord j 0 = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (List.mem_singleton.mpr rfl)]
  rfl

/-- The column read by result entry `j`: a function of the index array alone. -/
def alongCol (wf : GatherDims.WF ⟨2, ![a, b]⟩ ⟨3, ![a, 1, 1]⟩ ⟨2, ![a, 1]⟩ [] [1] [0] [1] [0] 2 ![1, 1]) {w : ℕ}
    (idx : IVec ⟨3, ![a, 1, 1]⟩ w) (j : (⟨2, ![a, 1]⟩ : Shape).Idx) : Fin b :=
  ⟨((alongDims a b wf).operandIdx j idx 1).val, idx2_lt1 _⟩

/-- THE GATHER READ AT `j`: the operand in `j`'s row, at the column the index word gives. -/
theorem along_apply (wf : GatherDims.WF ⟨2, ![a, b]⟩ ⟨3, ![a, 1, 1]⟩ ⟨2, ![a, 1]⟩ [] [1] [0] [1] [0] 2 ![1, 1]) {w : ℕ}
    (x : (⟨2, ![a, b]⟩ : Shape).Idx → α) (idx : IVec ⟨3, ![a, 1, 1]⟩ w) (j : (⟨2, ![a, 1]⟩ : Shape).Idx) :
    Host.gather (alongDims a b wf) x idx j = x (ix2 ⟨(j 0).val, idx2_lt0 j⟩ (alongCol wf idx j)) := by
  show x ((alongDims a b wf).operandIdx j idx) = _
  refine congrArg x (funext fun ax => Fin.ext ?_)
  match ax with
  | ⟨0, _⟩ => exact along_row wf j idx
  | ⟨1, _⟩ => rfl

end Cert.LibAlongAxis

end
-- ==== Proof.Spec.lean ====
/-
  The two programs as functions of the same three arrays: the student and teacher logits as [4096, 32000] matrices
  and the labels as a vector of 4096 words.

  The kernel meets each row of 32000 logits in ten tiles of 3200 lanes and keeps, per row, a running maximum, running
  denominators and running weighted sums, each rescaled when the maximum moves (the online softmax); after the tenth
  tile it writes, per row, the log-sum-exp of the student row and the Kullback-Leibler term between the two rows at
  temperature four. The host lines after it gather the label's logit, form the per-row loss, and reduce.
  The reference computes log-softmax rows directly and reduces the same way.

  Every host stage is written here with the operations the programs spell, over literal shapes, so that each
  program's result is one of these terms.
-/
import Idealize.ShloMosaic.PureOps.Ideal
import Idealize.ShloMosaic.PureOps
import Idealize.ShloMosaic.Lib.ValueIdx
import proofs.«163586_j52982716564146_2_alg».proof.Proof.LibOnlineE
import proofs.«163586_j52982716564146_2_alg».proof.Proof.LibAlongAxis

noncomputable section

namespace Cert.Spec

open Idealize.ShloMosaic Idealize.ShloMosaic.ValueIdx

abbrev SNV : Shape := ⟨2, ![4096, 32000]⟩
abbrev SN1 : Shape := ⟨2, ![4096, 1]⟩
abbrev SN : Shape := ⟨1, ![4096]⟩
abbrev S0 : Shape := ⟨0, ![]⟩
abbrev SN11 : Shape := ⟨3, ![4096, 1, 1]⟩
abbrev S1 : Shape := ⟨1, ![1]⟩
abbrev S111 : Shape := ⟨3, ![1, 1, 1]⟩

/-- The shape relations the host operations below take. -/
structure Facts : Prop where
  b0_N1 : S0.BroadcastsInDim SN1 (![] : Fin 0 → Fin SN1.rank)
  b0_N : S0.BroadcastsInDim SN (![] : Fin 0 → Fin SN.rank)
  b0_NV : S0.BroadcastsInDim SNV (![] : Fin 0 → Fin SNV.rank)
  bN_N1 : SN.BroadcastsInDim SN1 (![0] : Fin 1 → Fin SN1.rank)
  bN1_NV : SN1.BroadcastsInDim SNV (![0, 1] : Fin 2 → Fin SNV.rank)
  c_N1_N11 : SN1.ShapeCasts SN11
  c_N1_N : SN1.ShapeCasts SN
  b0_N11 : S0.BroadcastsInDim SN11 (![] : Fin 0 → Fin SN11.rank)
  b1_111 : S1.BroadcastsInDim S111 (![2] : Fin 1 → Fin S111.rank)
  b111_N11 : S111.BroadcastsInDim SN11 (![0, 1, 2] : Fin 3 → Fin SN11.rank)
  r_N11_N1 : SN11.ReducesTo [2] SN1
  r_N1_0 : SN1.ReducesTo [0, 1] S0
  r_N_0 : SN.ReducesTo [0] S0
  r_NV_0 : SNV.ReducesTo [0, 1] S0
  r_NV_N : SNV.ReducesTo [1] SN
  h0 : 0 < S0.numel
  wf : GatherDims.WF SNV SN11 SN1 [] [1] [0] [1] [0] 2 ![1, 1]

variable (h : Facts)

/-! ## One entry per row taken at the label's column -/

/-- The labels as a column. -/
def labCol (lab : IVec SN 32) : IVec SN1 32 := broadcastInDim SN1 ![0] h.bN_N1 lab

/-- The column index the gather reads: a negative index is moved up by the row length. -/
def taIdx (idx : IVec SN1 32) : IVec SN11 32 :=
  shapeCast SN11 (select (cmpi .slt idx (broadcastInDim SN1 ![] h.b0_N1 (constantI S0 32 0#32)))
    (addi idx (broadcastInDim SN1 ![] h.b0_N1 (constantI S0 32 32000#32))) idx) h.c_N1_N11

/-- Whether that index lies inside the row. -/
def taMask (idx : IVec SN1 32) : IVec SN1 1 :=
  Host.reduce IntOp.andi
    (andi (cmpi .sge (taIdx h idx) (broadcastInDim SN11 ![] h.b0_N11 (constantI S0 32 0#32)))
      (cmpi .sle (taIdx h idx)
        (broadcastInDim SN11 ![0, 1, 2] h.b111_N11 (broadcastInDim S111 ![2] h.b1_111 (constantI S1 32 31999#32)))))
    (constantI S0 1 1#1) h.r_N11_N1 h.h0

/-- The matrix entry of each row at that row's index; where the index lies outside the row, the fill pattern. -/
def takeAlong (Y : FVec Ideal SNV .f32) (idx : IVec SN1 32) : FVec Ideal SN1 .f32 :=
  select (taMask h idx) (Host.gather (Cert.LibAlongAxis.alongDims 4096 32000 h.wf) Y (taIdx h idx))
    (broadcastInDim SN1 ![] h.b0_N1 (constant (F := Ideal) S0 .f32 0x7FC00000#32))

/-- One for a row whose label is not the ignored one, zero otherwise. -/
def valid (lab : IVec SN 32) : FVec Ideal SN .f32 :=
  uitofp (F := Ideal) .f32 (cmpi .ne lab (broadcastInDim SN ![] h.b0_N (constantI S0 32 0#32)))

def validCol (lab : IVec SN 32) : FVec Ideal SN1 .f32 := broadcastInDim SN1 ![0] h.bN_N1 (valid h lab)

/-! ## The kernel's rows -/

/-- Lane `k` of tile `j` of row `r`. -/
def tile (X : FVec Ideal SNV .f32) (r : Fin 4096) (j : ℕ) (k : Fin 3200) : EReal :=
  X (ix2 r ⟨(3200 * j + k.val) % 32000, Nat.mod_lt _ (by norm_num)⟩)

/-- The scale one quarter, as the kernel spells it. -/
abbrev qE : EReal := Ideal.ofBits .f32 0x3E800000#32

/-- A tile's own maximum: the fold of `max` over its lanes from minus infinity. -/
def tmax (x : ℕ → Fin 3200 → EReal) (j : ℕ) : EReal :=
  (Finset.univ : Finset (Fin 3200)).fold max (Ideal.ofBits .f32 0xFF800000#32) fun k => x j k

/-- The scaled tiles. -/
def scl (x : ℕ → Fin 3200 → EReal) : ℕ → Fin 3200 → EReal := fun j k => x j k * qE

/-- The running denominator of the SCALED scores whose shift is the scaled running maximum of the unscaled ones. -/
def lQ (x : ℕ → Fin 3200 → EReal) (bm : ℕ → EReal) : ℕ → EReal
  | 0 => 0
  | j + 1 => Ideal.exp ((OnlineE.mE bm j - OnlineE.mE bm (j + 1)) * qE) * lQ x bm j
      + ∑ k : Fin 3200, Ideal.exp (x j k * qE - OnlineE.mE bm (j + 1) * qE)

/-- The seven running quantities of a row after `n` tiles. -/
def mS (xs : ℕ → Fin 3200 → EReal) (n : ℕ) : EReal := OnlineE.mE (tmax xs) n
def lS (xs : ℕ → Fin 3200 → EReal) (n : ℕ) : EReal := OnlineE.lE xs (tmax xs) n
def lSq (xs : ℕ → Fin 3200 → EReal) (n : ℕ) : EReal := lQ xs (tmax xs) n
def mT (xt : ℕ → Fin 3200 → EReal) (n : ℕ) : EReal := OnlineE.mE (tmax (scl xt)) n
def lT (xt : ℕ → Fin 3200 → EReal) (n : ℕ) : EReal := OnlineE.lE (scl xt) (tmax (scl xt)) n
def aTT (xt : ℕ → Fin 3200 → EReal) (n : ℕ) : EReal := OnlineE.aE (scl xt) (scl xt) (tmax (scl xt)) n
def aTS (xs xt : ℕ → Fin 3200 → EReal) (n : ℕ) : EReal := OnlineE.aE (scl xt) (scl xs) (tmax (scl xt)) n

/-- What the kernel writes for a row after its last tile: the log-sum-exp of the student row, -/
def lseRow (xs : ℕ → Fin 3200 → EReal) : EReal := mS xs 10 + Ideal.log (lS xs 10)

/-- and the row's Kullback-Leibler term. -/
def klRow (xs xt : ℕ → Fin 3200 → EReal) : EReal :=
  (Ideal.div (aTT xt 10) (lT xt 10) - (mT xt 10 + Ideal.log (lT xt 10)))
    - (Ideal.div (aTS xs xt 10) (lT xt 10) - (mS xs 10 * qE + Ideal.log (lSq xs 10)))

/-- The two [4096, 1] arrays the kernel leaves. -/
def KL (S T : FVec Ideal SNV .f32) : FVec Ideal SN1 .f32 :=
  fun i => klRow (tile S ⟨(i 0).val, idx2_lt0 i⟩) (tile T ⟨(i 0).val, idx2_lt0 i⟩)

def LSE (S : FVec Ideal SNV .f32) : FVec Ideal SN1 .f32 := fun i => lseRow (tile S ⟨(i 0).val, idx2_lt0 i⟩)

/-! ## The host lines after the kernel -/

/-- The mean of the rows' Kullback-Leibler terms times the squared temperature. -/
def kDistill (kl : FVec Ideal SN1 .f32) : FVec Ideal S0 .f32 :=
  mulf (Host.divf (Host.reduceAdd kl (constant (F := Ideal) S0 .f32 0x00000000#32) h.r_N1_0 h.h0)
    (constant (F := Ideal) S0 .f32 0x45800000#32)) (constant (F := Ideal) S0 .f32 0x41800000#32)

/-- The mean over the valid rows of log-sum-exp minus the label's logit. -/
def kTask (lse : FVec Ideal SN1 .f32) (Y : FVec Ideal SNV .f32) (lab : IVec SN 32) : FVec Ideal S0 .f32 :=
  Host.divf
    (Host.reduceAdd (mulf (subf lse (takeAlong h Y (labCol h lab))) (validCol h lab))
      (constant (F := Ideal) S0 .f32 0x00000000#32) h.r_N1_0 h.h0)
    (maximumf (Host.reduceAdd (validCol h lab) (constant (F := Ideal) S0 .f32 0x00000000#32) h.r_N1_0 h.h0)
      (constant (F := Ideal) S0 .f32 0x3F800000#32))

/-- The weighted total of the two losses. -/
def total (d t : FVec Ideal S0 .f32) : FVec Ideal S0 .f32 :=
  addf (mulf (constant (F := Ideal) S0 .f32 0x3F333333#32) d) (mulf (constant (F := Ideal) S0 .f32 0x3E99999A#32) t)

/-! ## The reference -/

/-- A matrix divided by the temperature four. -/
def byFour (X : FVec Ideal SNV .f32) : FVec Ideal SNV .f32 :=
  Host.divf X (broadcastInDim SNV ![] h.b0_NV (constant (F := Ideal) S0 .f32 0x40800000#32))

/-- The row maxima as the host forms them, spread back over the lanes. -/
def rowMaxB (X : FVec Ideal SNV .f32) : FVec Ideal SNV .f32 :=
  broadcastInDim SNV ![0, 1] h.bN1_NV (broadcastInDim SN1 ![0] h.bN_N1
    (maximumf (broadcastInDim SN ![] h.b0_N (constant (F := Ideal) S0 .f32 0xFF800000#32))
      (Host.reduce FloatOps.maximumf X (constant (F := Ideal) S0 .f32 0xFF800000#32) h.r_NV_N h.h0)))

/-- The host's row-wise log-softmax. -/
def logSoftmax (X : FVec Ideal SNV .f32) : FVec Ideal SNV .f32 :=
  subf (subf X (rowMaxB h X))
    (broadcastInDim SNV ![0, 1] h.bN1_NV (Host.log (broadcastInDim SN1 ![0] h.bN_N1
      (Host.reduceAdd (Host.exp (subf X (rowMaxB h X))) (constant (F := Ideal) S0 .f32 0x00000000#32) h.r_NV_N h.h0))))

/-- The reference's distillation loss. -/
def rDistill (S T : FVec Ideal SNV .f32) : FVec Ideal S0 .f32 :=
  mulf (Host.divf
    (Host.reduceAdd
      (mulf (Host.exp (logSoftmax h (byFour h T))) (subf (logSoftmax h (byFour h T)) (logSoftmax h (byFour h S))))
      (constant (F := Ideal) S0 .f32 0x00000000#32) h.r_NV_0 h.h0)
    (constant (F := Ideal) S0 .f32 0x45800000#32)) (constant (F := Ideal) S0 .f32 0x41800000#32)

/-- The reference's cross-entropy over the valid rows. -/
def rTask (S : FVec Ideal SNV .f32) (lab : IVec SN 32) : FVec Ideal S0 .f32 :=
  Host.divf
    (Host.reduceAdd
      (mulf (Host.negf (shapeCast SN (takeAlong h (logSoftmax h S) (labCol h lab)) h.c_N1_N)) (valid h lab))
      (constant (F := Ideal) S0 .f32 0x00000000#32) h.r_N_0 h.h0)
    (maximumf (Host.reduceAdd (valid h lab) (constant (F := Ideal) S0 .f32 0x00000000#32) h.r_N_0 h.h0)
      (constant (F := Ideal) S0 .f32 0x3F800000#32))

end Cert.Spec

end
-- ==== Proof.RefSide.lean ====
/-
  The reference's three results, printed as nested host operations of the arguments' launch contents, are the
  reference stages of the specification applied to the reshaped arguments: the distillation loss of the student and
  teacher matrices, the cross-entropy of the student matrix and the labels, and their weighted total. The two sides
  are the same operations in the same order over the same shapes.
-/
import proofs.«163586_j52982716564146_2_alg».proof.Proof.RefRunP1
import proofs.«163586_j52982716564146_2_alg».proof.Proof.Spec

noncomputable section

namespace Cert.ReferenceIdeal.Side

open Cert.ReferenceIdeal Cert.ReferenceIdeal.Gen Idealize.ShloMosaic Idealize.ShloMosaic.TcCoe Idealize.SL.Sem
  Idealize.ShloMosaic.StableHlo

variable (m : (ℓ : Loc nD τ sig) → Buf (Elt Ideal) ℓ) (c : Dev nD) (h : Cert.Spec.Facts)

/-- The student logits as a matrix: the first argument reshaped. -/
abbrev S2 : FVec Ideal Cert.Spec.SNV .f32 :=
  shapeCast _ (m ((c.tc : Thread nD τ).loc main_arg0)) shapeCasts_S4x1024x32000_S4096x32000

/-- The teacher logits as a matrix: the second argument reshaped. -/
abbrev T2 : FVec Ideal Cert.Spec.SNV .f32 :=
  shapeCast _ (m ((c.tc : Thread nD τ).loc main_arg1)) shapeCasts_S4x1024x32000_S4096x32000

/-- The labels as a vector: the third argument reshaped. -/
abbrev L1 : IVec Cert.Spec.SN 32 :=
  shapeCast _ (m ((c.tc : Thread nD τ).loc main_arg2)) shapeCasts_S4x1024_S4096

set_option maxRecDepth 16384 in
/-- The reference's distillation result is the specification's distillation stage. -/
theorem ref_distill :
    Cert.ReferenceIdeal.ValueP.res_main_v14 m c = Cert.Spec.rDistill h (S2 m c) (T2 m c) := by
  unfold Cert.ReferenceIdeal.ValueP.res_main_v14 Cert.Spec.rDistill Cert.Spec.logSoftmax Cert.Spec.rowMaxB
    Cert.Spec.byFour
  rfl

set_option maxRecDepth 16384 in
/-- The reference's cross-entropy result is the specification's task stage. -/
theorem ref_task :
    Cert.ReferenceIdeal.ValueP.res_main_v27 m c = Cert.Spec.rTask h (S2 m c) (L1 m c) := by
  unfold Cert.ReferenceIdeal.ValueP.res_main_v27 Cert.Spec.rTask Cert.Spec.takeAlong Cert.Spec.taMask Cert.Spec.taIdx
    Cert.Spec.labCol Cert.Spec.valid Cert.Spec.logSoftmax Cert.Spec.rowMaxB
  rfl

set_option maxRecDepth 16384 in
/-- The reference's total is the specification's weighted total of the two stages. -/
theorem ref_total :
    Cert.ReferenceIdeal.ValueP.res_main_v30 m c
      = Cert.Spec.total (Cert.Spec.rDistill h (S2 m c) (T2 m c)) (Cert.Spec.rTask h (S2 m c) (L1 m c)) := by
  unfold Cert.ReferenceIdeal.ValueP.res_main_v30 Cert.Spec.total Cert.Spec.rDistill Cert.Spec.rTask
    Cert.Spec.takeAlong Cert.Spec.taMask Cert.Spec.taIdx Cert.Spec.labCol Cert.Spec.valid Cert.Spec.logSoftmax
    Cert.Spec.rowMaxB Cert.Spec.byFour
  rfl

end Cert.ReferenceIdeal.Side

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefRunH.lean ====
/-
  The reference program's run read back by hand: every weakly fair execution of its straight line of host
  operations terminates with the three results at the specification's reference stages of the reshaped arguments,
  and the arguments unchanged.
-/
import proofs.«163586_j52982716564146_2_alg».proof.Proof.RefRunP1
import proofs.«163586_j52982716564146_2_alg».proof.Proof.RefSide
import proofs.«163586_j52982716564146_2_alg».proof.Proof.Spec
import proofs.«163586_j52982716564146_2_alg».proof.Proof.LibStretch
import Idealize.ShloMosaic.Lib.StableHlo.Run

noncomputable section

namespace Cert.ReferenceIdeal.ValueH

open Cert.ReferenceIdeal Cert.ReferenceIdeal.Gen Cert.ReferenceIdeal.ValueP Idealize.ShloMosaic Idealize.ShloMosaic.TcCoe Idealize.SL.Sem
  Idealize.ShloMosaic.StableHlo

variable (V : Valuation τ sig (Elt Ideal)) (h : Cert.Spec.Facts)

/-! ## The line read back at its results, from any contents

  Each result buffer holds the composed term of the operations that feed it. A value passed between two operations of
  an inlined call goes to its buffer's type and back, which is the identity; with those pairs removed the composed
  term computes to the specification's stage of the reshaped arguments. -/

set_option maxRecDepth 16384 in
set_option maxHeartbeats 8000000 in
/-- The distillation result. -/
theorem after_v14 :
    after (ops (F := Ideal)) V (Proc.devRef .tc main_v14)
      = Cert.Spec.rDistill h (shapeCast _ (V (Proc.devRef .tc main_arg0)) shapeCasts_S4x1024x32000_S4096x32000)
          (shapeCast _ (V (Proc.devRef .tc main_arg1)) shapeCasts_S4x1024x32000_S4096x32000) := by
  dsimp only [ops]
  after_results_simp
  simp only [Cert.LibStretch.ofBuf_toBuf]
  rfl

set_option maxRecDepth 16384 in
set_option maxHeartbeats 8000000 in
/-- The cross-entropy result. -/
theorem after_v27 :
    after (ops (F := Ideal)) V (Proc.devRef .tc main_v27)
      = Cert.Spec.rTask h (shapeCast _ (V (Proc.devRef .tc main_arg0)) shapeCasts_S4x1024x32000_S4096x32000)
          (shapeCast _ (V (Proc.devRef .tc main_arg2)) shapeCasts_S4x1024_S4096) := by
  dsimp only [ops]
  after_results_simp
  simp only [Cert.LibStretch.ofBuf_toBuf]
  rfl

set_option maxRecDepth 16384 in
set_option maxHeartbeats 8000000 in
/-- The weighted total: the two results above weighted and added, whatever they hold. -/
theorem after_v30 :
    after (ops (F := Ideal)) V (Proc.devRef .tc main_v30)
      = Cert.Spec.total
          (Cert.Spec.rDistill h (shapeCast _ (V (Proc.devRef .tc main_arg0)) shapeCasts_S4x1024x32000_S4096x32000)
            (shapeCast _ (V (Proc.devRef .tc main_arg1)) shapeCasts_S4x1024x32000_S4096x32000))
          (Cert.Spec.rTask h (shapeCast _ (V (Proc.devRef .tc main_arg0)) shapeCasts_S4x1024x32000_S4096x32000)
            (shapeCast _ (V (Proc.devRef .tc main_arg2)) shapeCasts_S4x1024_S4096)) := by
  rw [← after_v14 V h, ← after_v27 V h]
  unfold Cert.Spec.total
  dsimp only [ops]
  after_results_simp

set_option maxRecDepth 16384 in
set_option maxHeartbeats 8000000 in
/-- No operation writes the first argument. -/
theorem after_arg0 : after (ops (F := Ideal)) V (Proc.devRef .tc main_arg0) = V (Proc.devRef .tc main_arg0) := by
  dsimp only [ops]
  after_results_simp <;> rfl

set_option maxRecDepth 16384 in
set_option maxHeartbeats 8000000 in
/-- No operation writes the second argument. -/
theorem after_arg1 : after (ops (F := Ideal)) V (Proc.devRef .tc main_arg1) = V (Proc.devRef .tc main_arg1) := by
  dsimp only [ops]
  after_results_simp <;> rfl

set_option maxRecDepth 16384 in
set_option maxHeartbeats 8000000 in
/-- No operation writes the third argument. -/
theorem after_arg2 : after (ops (F := Ideal)) V (Proc.devRef .tc main_arg2) = V (Proc.devRef .tc main_arg2) := by
  dsimp only [ops]
  after_results_simp <;> rfl

/-! ## The run -/

open Cert.ReferenceIdeal.Side in
set_option maxRecDepth 16384 in
set_option maxHeartbeats 8000000 in
/-- On every device, from any memory with zero counters: every weakly fair execution of @main terminates with the
    three results at the specification's reference stages of the reshaped arguments and the arguments unchanged. -/
theorem run_spec (m : (ℓ : Loc nD τ sig) → Buf (Elt Ideal) ℓ) (ρ : Dev nD → PrngReg) (h : Cert.Spec.Facts) :
    θ_run defs (onTc (τ := τ) (main (F := Ideal))) ⟨m, fun _ => 0, ρ⟩ fun r => ∀ c : Dev nD,
      r.2.mem ((c.tc : Thread nD τ).loc main_v30)
          = Cert.Spec.total (Cert.Spec.rDistill h (S2 m c) (T2 m c)) (Cert.Spec.rTask h (S2 m c) (L1 m c))
      ∧ r.2.mem ((c.tc : Thread nD τ).loc main_v14) = Cert.Spec.rDistill h (S2 m c) (T2 m c)
      ∧ r.2.mem ((c.tc : Thread nD τ).loc main_v27) = Cert.Spec.rTask h (S2 m c) (L1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c => ⟨(hr c main_v30).trans (after_v30 _ h),
      (hr c main_v14).trans (after_v14 _ h),
      (hr c main_v27).trans (after_v27 _ h),
      (hr c main_arg0).trans (after_arg0 _),
      (hr c main_arg1).trans (after_arg1 _),
      (hr c main_arg2).trans (after_arg2 _)⟩)
    (run_seq scopedRefs_eq scopedSems_eq defs main (fun _ => ops) main_eq (fun _ => ops_sub) m ρ)

/-- The same run with the results named as the generated text names them: the operations' composed terms of the
    arguments, which are those stages. -/
theorem run (m : (ℓ : Loc nD τ sig) → Buf (Elt Ideal) ℓ) (ρ : Dev nD → PrngReg) (h : Cert.Spec.Facts) :
    θ_run defs (onTc (τ := τ) (main (F := Ideal))) ⟨m, fun _ => 0, ρ⟩ fun r => ∀ c : Dev nD,
      r.2.mem ((c.tc : Thread nD τ).loc main_v30) = Cert.ReferenceIdeal.ValueP.res_main_v30 m c
      ∧ r.2.mem ((c.tc : Thread nD τ).loc main_v14) = Cert.ReferenceIdeal.ValueP.res_main_v14 m c
      ∧ r.2.mem ((c.tc : Thread nD τ).loc main_v27) = Cert.ReferenceIdeal.ValueP.res_main_v27 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c => ⟨(hr c).1.trans (Cert.ReferenceIdeal.Side.ref_total m c h).symm,
      (hr c).2.1.trans (Cert.ReferenceIdeal.Side.ref_distill m c h).symm,
      (hr c).2.2.1.trans (Cert.ReferenceIdeal.Side.ref_task m c h).symm,
      (hr c).2.2.2⟩) (run_spec m ρ h)

end Cert.ReferenceIdeal.ValueH

end
-- ==== Proof.Pieces.lean ====
/-
  What each control case of the kernel body leaves in the seven per-row columns it carries from one grid point to the
  next and, at a row block's last tile, in the two output columns: each is one whole-column store whose value is the
  body's arithmetic (a payload) of the tile's two blocks and of the columns as the point found them. At a row
  block's first tile the columns are first reset (minus infinity for the two running maxima, zero for the sums), so
  there the payloads take the reset values; at its last tile the outputs are computed from the columns just stored.
-/
import proofs.«163586_j52982716564146_2_alg».proof.Proof.FrameKernelIdealP1
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.GenP Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- Middle tiles: the running maximum of the student row after the point, from the tile and the row's quantities before it. -/
theorem sB_0 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_0 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay16 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Middle tiles: the running denominator of the student row after the point, from the tile and the row's quantities before it. -/
theorem sB_1 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_1 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay15 x0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Middle tiles: the running denominator of the scaled student row after the point, from the tile and the row's quantities before it. -/
theorem sB_2 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay20 (k0_pay17 x0) (k0_pay18 x0 xs0) (k0_pay19 x0 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Middle tiles: the running maximum of the scaled teacher row after the point, from the tile and the row's quantities before it. -/
theorem sB_3 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay2 (k0_pay22 (k0_pay13 x1) xs3) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Middle tiles: the running denominator of the scaled teacher row after the point, from the tile and the row's quantities before it. -/
theorem sB_4 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay25 (k0_pay13 x1) xs3 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Middle tiles: the running sum of the teacher weights times the scaled teacher scores after the point, from the tile and the row's quantities before it. -/
theorem sB_5 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_5 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay26 (k0_pay13 x1) xs3 xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Middle tiles: the running sum of the teacher weights times the scaled student scores after the point, from the tile and the row's quantities before it. -/
theorem sB_6 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : ¬cond0_1 i)
    (x0 x1 : Vec F S256x3200 .f32) (xs0 xs1 xs2 xs3 xs4 xs5 xs6 : Vec F S256x1 .f32) :
    sout0_B_6 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay1 (k0_pay17 x0) (k0_pay23 (k0_pay13 x1) xs3) (k0_pay24 (k0_pay13 x1) xs3) xs6 := by
  unfold sout0_B_6
  rw [View.read_writes_eq_canon _ _ _ (scover0_B_6 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_B
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running maximum of the student row after the point, from the tile and the reset values. -/
theorem sA_0 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_0 c i arg2 harg2 arg3 harg3 arg4 harg4 arg5 harg5 arg6 harg6 arg7 harg7 arg8 harg8 arg9 harg9 arg10 harg10 arg11 harg11 arg12 harg12 hc0 hc1 x0 x1 = k0_pay16 x0 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running denominator of the student row after the point, from the tile and the reset values. -/
theorem sA_1 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_1 c i arg2 harg2 arg3 harg3 arg4 harg4 arg5 harg5 arg6 harg6 arg7 harg7 arg8 harg8 arg9 harg9 arg10 harg10 arg11 harg11 arg12 harg12 hc0 hc1 x0 x1 = k0_pay15 x0 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running denominator of the scaled student row after the point, from the tile and the reset values. -/
theorem sA_2 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_2 c i arg2 harg2 arg3 harg3 arg4 harg4 arg5 harg5 arg6 harg6 arg7 harg7 arg8 harg8 arg9 harg9 arg10 harg10 arg11 harg11 arg12 harg12 hc0 hc1 x0 x1 = k0_pay20 (k0_pay17 x0) (k0_pay18 x0 k0_pay5) (k0_pay19 x0 k0_pay5) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running maximum of the scaled teacher row after the point, from the tile and the reset values. -/
theorem sA_3 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_3 c i arg2 harg2 arg3 harg3 arg4 harg4 arg5 harg5 arg6 harg6 arg7 harg7 arg8 harg8 arg9 harg9 arg10 harg10 arg11 harg11 arg12 harg12 hc0 hc1 x0 x1 = k0_pay2 (k0_pay22 (k0_pay13 x1) k0_pay8) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running denominator of the scaled teacher row after the point, from the tile and the reset values. -/
theorem sA_4 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_4 c i arg2 harg2 arg3 harg3 arg4 harg4 arg5 harg5 arg6 harg6 arg7 harg7 arg8 harg8 arg9 harg9 arg10 harg10 arg11 harg11 arg12 harg12 hc0 hc1 x0 x1 = k0_pay25 (k0_pay13 x1) k0_pay8 k0_pay9 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running sum of the teacher weights times the scaled teacher scores after the point, from the tile and the reset values. -/
theorem sA_5 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_5 c i arg2 harg2 arg3 harg3 arg4 harg4 arg5 harg5 arg6 harg6 arg7 harg7 arg8 harg8 arg9 harg9 arg10 harg10 arg11 harg11 arg12 harg12 hc0 hc1 x0 x1 = k0_pay26 (k0_pay13 x1) k0_pay8 k0_pay10 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- First tile: the running sum of the teacher weights times the scaled student scores after the point, from the tile and the reset values. -/
theorem sA_6 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : cond0_0 i) (hc1 : ¬cond0_1 i)
    (x0 x1 : Vec F S256x3200 .f32) :
    sout0_A_6 c i arg2 harg2 arg3 harg3 arg4 harg4 arg5 harg5 arg6 harg6 arg7 harg7 arg8 harg8 arg9 harg9 arg10 harg10 arg11 harg11 arg12 harg12 hc0 hc1 x0 x1 = k0_pay1 (k0_pay17 x0) (k0_pay23 (k0_pay13 x1) k0_pay8) (k0_pay24 (k0_pay13 x1) k0_pay8) k0_pay11 := by
  unfold sout0_A_6
  rw [View.read_writes_eq_canon _ _ _ (scover0_A_6 c i arg2 harg2 arg3 harg3 arg4 harg4 arg5 harg5 arg6 harg6 arg7 harg7 arg8 harg8 arg9 harg9 arg10 harg10 arg11 harg11 arg12 harg12 hc0 hc1 x0 x1)]
  unfold kernelRun0_A
  dsimp only
  (try sl_unfold_words)
  rw [View.canon_cons_unit_zero (S := S256x1) hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running maximum of the student row after the point, as at a middle tile. -/
theorem sC_0 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_0 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay16 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running denominator of the student row after the point, as at a middle tile. -/
theorem sC_1 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_1 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay15 x0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running denominator of the scaled student row after the point, as at a middle tile. -/
theorem sC_2 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay20 (k0_pay17 x0) (k0_pay18 x0 xs0) (k0_pay19 x0 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running maximum of the scaled teacher row after the point, as at a middle tile. -/
theorem sC_3 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay2 (k0_pay22 (k0_pay13 x1) xs3) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running denominator of the scaled teacher row after the point, as at a middle tile. -/
theorem sC_4 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay25 (k0_pay13 x1) xs3 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running sum of the teacher weights times the scaled teacher scores after the point, as at a middle tile. -/
theorem sC_5 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_5 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay26 (k0_pay13 x1) xs3 xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the running sum of the teacher weights times the scaled student scores after the point, as at a middle tile. -/
theorem sC_6 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    sout0_C_6 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay1 (k0_pay17 x0) (k0_pay23 (k0_pay13 x1) xs3) (k0_pay24 (k0_pay13 x1) xs3) xs6 := by
  unfold sout0_C_6
  rw [View.read_writes_eq_canon _ _ _ (scover0_C_6 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the Kullback-Leibler column the kernel writes, from the seven quantities just stored. -/
theorem oC_2 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    out0_C_2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay4 (k0_pay16 x0 xs0) (k0_pay20 (k0_pay17 x0) (k0_pay18 x0 xs0) (k0_pay19 x0 xs0) xs2) (k0_pay2 (k0_pay22 (k0_pay13 x1) xs3)) (k0_pay25 (k0_pay13 x1) xs3 xs4) (k0_pay26 (k0_pay13 x1) xs3 xs5) (k0_pay25 (k0_pay13 x1) xs3 xs4) (k0_pay1 (k0_pay17 x0) (k0_pay23 (k0_pay13 x1) xs3) (k0_pay24 (k0_pay13 x1) xs3) xs6) (k0_pay25 (k0_pay13 x1) xs3 xs4) := by
  unfold out0_C_2
  rw [View.read_writes_eq_canon _ _ _ (cover0_C_2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

/-- Last tile: the log-sum-exp column the kernel writes, from the seven quantities just stored. -/
theorem oC_3 (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (hc0 : ¬cond0_0 i) (hc1 : cond0_1 i)
    (x0 x1 : Vec F S256x3200 .f32) (xs0 xs1 xs2 xs3 xs4 xs5 xs6 : Vec F S256x1 .f32) :
    out0_C_3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 = k0_pay3 (k0_pay16 x0 xs0) (k0_pay15 x0 xs0 xs1) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6)]
  unfold kernelRun0_C
  dsimp only
  (try sl_unfold_words)
  rw [View.canon_unit_zero hz]
  (try simp only [View.readCov_unit_zero (S := S256x1) _ hz, View.readAt_eq_ld, harg2.read_unread, harg3.read_unread, harg6.read_unread, harg7.read_unread, harg8.read_unread, harg9.read_unread, harg10.read_unread, harg11.read_unread, harg12.read_unread, View.ld_unit_zero (S := S256x1) hz, View.ld_unit_zero (S := S256x3200) hz])

end Cert.KernelIdeal.Pieces

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.Payloads.lean ====
/-
  The kernel body's arithmetic, read row by row on the extended reals.

  A grid point holds a tile of 256 rows by 3200 lanes of each logit matrix and, per row, seven running quantities kept
  as [256, 1] columns. Each quantity after the point is a function of the row's lanes and of that row's quantities
  before the point: the running maximum joins the tile's maximum; each running sum is rescaled by the exponential of
  (old maximum − new maximum) and gains the tile's sum of exponentials (weighted, for the two weighted sums).
-/
import proofs.«163586_j52982716564146_2_alg».proof.Proof.Gen.KernelIdeal.Skeleton
import proofs.«163586_j52982716564146_2_alg».proof.Proof.LibColumn
import proofs.«163586_j52982716564146_2_alg».proof.Proof.LibLastAxis
import proofs.«163586_j52982716564146_2_alg».proof.Proof.Spec
import Idealize.ShloMosaic.Lib.Pipeline.Value

noncomputable section

namespace Cert.KernelIdeal.Pay

open Cert.KernelIdeal Cert.KernelIdeal.Gen Idealize.ShloMosaic Idealize.ShloMosaic.ValueIdx
open Cert.LibColumn Cert.LibLastAxis

/-- The maximum of row `r` of a tile, from minus infinity. -/
def rmax (x : FVec Ideal S256x3200 .f32) (r : Fin 256) : EReal :=
  (Finset.univ : Finset (Fin 3200)).fold max (Ideal.ofBits .f32 0xFF800000#32) fun k => x (ix2 r k)

/-- The new running maximum of a row: the old one joined with the tile's. -/
theorem pay14_apply (x : FVec Ideal S256x3200 .f32) (s0 : FVec Ideal S256x1 .f32) (r : Fin 256) (u : Fin 1) :
    k0_pay14 (F := Ideal) x s0 (ix2 r u) = max (s0 (ix2 r u)) (rmax x r) := by
  unfold k0_pay14 k0_pay12 rmax
  show max (s0 (ix2 r u)) (shapeCast S256x1 _ shapeCasts_S256_S256x1 (ix2 r u)) = _
  rw [shapeCast_a_a1_apply]
  refine congrArg (max (s0 (ix2 r u))) ((max_last_apply _ _ _ _ _ r).trans ?_)
  simp only [shapeCast_self]

open Cert.Spec (qE)

theorem pay16_apply (x : FVec Ideal S256x3200 .f32) (s0 : FVec Ideal S256x1 .f32) (r : Fin 256) (u : Fin 1) :
    k0_pay16 (F := Ideal) x s0 (ix2 r u) = max (s0 (ix2 r u)) (rmax x r) := by
  unfold k0_pay16
  simp only [shapeCast_self]
  exact pay14_apply x s0 r u

/-- The new running denominator: the old one rescaled, plus the tile's exponentials at the new maximum. -/
theorem pay15_apply (x : FVec Ideal S256x3200 .f32) (s0 s1 : FVec Ideal S256x1 .f32) (r : Fin 256) :
    k0_pay15 (F := Ideal) x s0 s1 (ix2 r 0)
      = Ideal.exp (s0 (ix2 r 0) - max (s0 (ix2 r 0)) (rmax x r)) * s1 (ix2 r 0)
        + ∑ k : Fin 3200, Ideal.exp (x (ix2 r k) - max (s0 (ix2 r 0)) (rmax x r)) := by
  unfold k0_pay15
  simp only [shapeCast_self]
  show Ideal.exp (s0 (ix2 r 0) - k0_pay14 (F := Ideal) x s0 (ix2 r 0)) * s1 (ix2 r 0)
      + shapeCast S256x1 _ shapeCasts_S256_S256x1 (ix2 r 0) = _
  rw [shapeCast_a_a1_apply, pay14_apply]
  refine congrArg (_ + ·) ((sum_last_apply _ _ _ _ r).trans (Finset.sum_congr rfl fun k _ => ?_))
  show Ideal.exp (k0_pay12 (F := Ideal) x (ix2 r k) - broadcastTo S256x3200 (k0_pay14 (F := Ideal) x s0) _ (ix2 r k)) = _
  rw [broadcastTo_a1_ab_apply, pay14_apply]
  simp only [k0_pay12, shapeCast_self]

/-- A tile scaled by one quarter. -/
theorem pay17_apply (x : FVec Ideal S256x3200 .f32) (j : S256x3200.Idx) : k0_pay17 (F := Ideal) x j = x j * qE := by
  unfold k0_pay17 k0_pay12
  simp only [shapeCast_self]
  rfl

theorem pay21_apply (x : FVec Ideal S256x3200 .f32) (j : S256x3200.Idx) : k0_pay21 (F := Ideal) x j = x j * qE := rfl

theorem pay13_eq (x : FVec Ideal S256x3200 .f32) : k0_pay13 (F := Ideal) x = x := by
  unfold k0_pay13
  simp only [shapeCast_self]

/-- The rescaling factor of the scaled student denominator: the exponential of (old − new maximum) times one quarter. -/
theorem pay18_apply (x : FVec Ideal S256x3200 .f32) (s0 : FVec Ideal S256x1 .f32) (r : Fin 256) :
    k0_pay18 (F := Ideal) x s0 (ix2 r 0) = Ideal.exp ((s0 (ix2 r 0) - max (s0 (ix2 r 0)) (rmax x r)) * qE) := by
  unfold k0_pay18
  show Ideal.exp ((s0 (ix2 r 0) - k0_pay14 (F := Ideal) x s0 (ix2 r 0)) * qE) = _
  rw [pay14_apply]

/-- The scaled new maximum, spread over the lanes. -/
theorem pay19_apply (x : FVec Ideal S256x3200 .f32) (s0 : FVec Ideal S256x1 .f32) (r : Fin 256) (k : Fin 3200) :
    k0_pay19 (F := Ideal) x s0 (ix2 r k) = max (s0 (ix2 r 0)) (rmax x r) * qE := by
  unfold k0_pay19
  show broadcastTo S256x3200 _ _ (ix2 r k) = _
  rw [broadcastTo_a1_ab_apply]
  show k0_pay14 (F := Ideal) x s0 (ix2 r 0) * qE = _
  rw [pay14_apply]

/-- A denominator update over given shifted scores: factor times old value plus the lanes' exponentials. -/
theorem pay20_apply (v28 v35 : FVec Ideal S256x3200 .f32) (v34 v38 : FVec Ideal S256x1 .f32) (r : Fin 256) :
    k0_pay20 (F := Ideal) v28 v34 v35 v38 (ix2 r 0)
      = v34 (ix2 r 0) * v38 (ix2 r 0) + ∑ k : Fin 3200, Ideal.exp (v28 (ix2 r k) - v35 (ix2 r k)) := by
  unfold k0_pay20
  simp only [shapeCast_self]
  show v34 (ix2 r 0) * v38 (ix2 r 0) + shapeCast S256x1 _ shapeCasts_S256_S256x1 (ix2 r 0) = _
  rw [shapeCast_a_a1_apply]
  exact congrArg (_ + ·) ((sum_last_apply _ _ _ _ r).trans (Finset.sum_congr rfl fun k _ => rfl))

/-- The teacher's new running maximum: the old one joined with the scaled tile's. -/
theorem pay22_apply (x : FVec Ideal S256x3200 .f32) (s3 : FVec Ideal S256x1 .f32) (r : Fin 256) (u : Fin 1) :
    k0_pay22 (F := Ideal) x s3 (ix2 r u) = max (s3 (ix2 r u)) (rmax (fun j => x j * qE) r) := by
  unfold k0_pay22 rmax
  show max (s3 (ix2 r u)) (shapeCast S256x1 _ shapeCasts_S256_S256x1 (ix2 r u)) = _
  rw [shapeCast_a_a1_apply]
  exact congrArg (max (s3 (ix2 r u))) (max_last_apply _ _ _ _ _ r)

theorem pay2_eq (v : FVec Ideal S256x1 .f32) : k0_pay2 (F := Ideal) v = v := by
  unfold k0_pay2
  simp only [shapeCast_self]

theorem pay23_apply (x : FVec Ideal S256x3200 .f32) (s3 : FVec Ideal S256x1 .f32) (r : Fin 256) :
    k0_pay23 (F := Ideal) x s3 (ix2 r 0)
      = Ideal.exp (s3 (ix2 r 0) - max (s3 (ix2 r 0)) (rmax (fun j => x j * qE) r)) := by
  unfold k0_pay23
  show Ideal.exp (s3 (ix2 r 0) - k0_pay22 (F := Ideal) x s3 (ix2 r 0)) = _
  rw [pay22_apply]

theorem pay24_apply (x : FVec Ideal S256x3200 .f32) (s3 : FVec Ideal S256x1 .f32) (r : Fin 256) (k : Fin 3200) :
    k0_pay24 (F := Ideal) x s3 (ix2 r k)
      = Ideal.exp (x (ix2 r k) * qE - max (s3 (ix2 r 0)) (rmax (fun j => x j * qE) r)) := by
  unfold k0_pay24
  show Ideal.exp (k0_pay21 (F := Ideal) x (ix2 r k) - broadcastTo S256x3200 (k0_pay22 (F := Ideal) x s3) _ (ix2 r k)) = _
  rw [broadcastTo_a1_ab_apply, pay22_apply]
  rfl

/-- The teacher's new running denominator. -/
theorem pay25_apply (x : FVec Ideal S256x3200 .f32) (s3 s4 : FVec Ideal S256x1 .f32) (r : Fin 256) :
    k0_pay25 (F := Ideal) x s3 s4 (ix2 r 0)
      = Ideal.exp (s3 (ix2 r 0) - max (s3 (ix2 r 0)) (rmax (fun j => x j * qE) r)) * s4 (ix2 r 0)
        + ∑ k : Fin 3200, Ideal.exp (x (ix2 r k) * qE - max (s3 (ix2 r 0)) (rmax (fun j => x j * qE) r)) := by
  unfold k0_pay25
  simp only [shapeCast_self]
  show k0_pay23 (F := Ideal) x s3 (ix2 r 0) * s4 (ix2 r 0) + shapeCast S256x1 _ shapeCasts_S256_S256x1 (ix2 r 0) = _
  rw [shapeCast_a_a1_apply, pay23_apply]
  exact congrArg (_ + ·) ((sum_last_apply _ _ _ _ r).trans (Finset.sum_congr rfl fun k _ => pay24_apply x s3 r k))

/-- The teacher-weighted sum of the scaled teacher scores. -/
theorem pay26_apply (x : FVec Ideal S256x3200 .f32) (s3 s5 : FVec Ideal S256x1 .f32) (r : Fin 256) :
    k0_pay26 (F := Ideal) x s3 s5 (ix2 r 0)
      = Ideal.exp (s3 (ix2 r 0) - max (s3 (ix2 r 0)) (rmax (fun j => x j * qE) r)) * s5 (ix2 r 0)
        + ∑ k : Fin 3200, Ideal.exp (x (ix2 r k) * qE - max (s3 (ix2 r 0)) (rmax (fun j => x j * qE) r))
            * (x (ix2 r k) * qE) := by
  unfold k0_pay26
  simp only [shapeCast_self]
  show k0_pay23 (F := Ideal) x s3 (ix2 r 0) * s5 (ix2 r 0) + shapeCast S256x1 _ shapeCasts_S256_S256x1 (ix2 r 0) = _
  rw [shapeCast_a_a1_apply, pay23_apply]
  refine congrArg (_ + ·) ((sum_last_apply _ _ _ _ r).trans (Finset.sum_congr rfl fun k _ => ?_))
  show k0_pay24 (F := Ideal) x s3 (ix2 r k) * k0_pay21 (F := Ideal) x (ix2 r k) = _
  rw [pay24_apply]
  rfl

/-- A weighted-sum update over given weights and values. -/
theorem pay1_apply (v28 v56 : FVec Ideal S256x3200 .f32) (v53 v74 : FVec Ideal S256x1 .f32) (r : Fin 256) :
    k0_pay1 (F := Ideal) v28 v53 v56 v74 (ix2 r 0)
      = v53 (ix2 r 0) * v74 (ix2 r 0) + ∑ k : Fin 3200, v56 (ix2 r k) * v28 (ix2 r k) := by
  unfold k0_pay1
  simp only [shapeCast_self]
  show v53 (ix2 r 0) * v74 (ix2 r 0) + shapeCast S256x1 _ shapeCasts_S256_S256x1 (ix2 r 0) = _
  rw [shapeCast_a_a1_apply]
  exact congrArg (_ + ·) ((sum_last_apply _ _ _ _ r).trans (Finset.sum_congr rfl fun k _ => rfl))

/-- The row's log-sum-exp from its maximum and denominator. -/
theorem pay3_apply (a b : FVec Ideal S256x1 .f32) (j : S256x1.Idx) :
    k0_pay3 (F := Ideal) a b j = a j + Ideal.log (b j) := rfl

/-- The row's Kullback-Leibler term from its seven quantities. -/
theorem pay4_apply (v93 v96 v99 v100 v103 v104 v106 v107 : FVec Ideal S256x1 .f32) (j : S256x1.Idx) :
    k0_pay4 (F := Ideal) v93 v96 v99 v100 v103 v104 v106 v107 j
      = (Ideal.div (v103 j) (v104 j) - (v99 j + Ideal.log (v100 j)))
        - (Ideal.div (v106 j) (v107 j) - (v93 j * qE + Ideal.log (v96 j))) := rfl

/-- The reset values: minus infinity for the maxima, zero for the sums. -/
theorem pay5_apply (j : S256x1.Idx) : k0_pay5 (F := Ideal) j = Ideal.ofBits .f32 0xFF800000#32 := by
  unfold k0_pay5; simp only [shapeCast_self]; rfl
theorem pay8_apply (j : S256x1.Idx) : k0_pay8 (F := Ideal) j = Ideal.ofBits .f32 0xFF800000#32 := by
  unfold k0_pay8; simp only [shapeCast_self]; rfl
theorem pay6_apply (j : S256x1.Idx) : k0_pay6 (F := Ideal) j = Ideal.ofBits .f32 0x00000000#32 := by
  unfold k0_pay6; simp only [shapeCast_self]; rfl
theorem pay7_apply (j : S256x1.Idx) : k0_pay7 (F := Ideal) j = Ideal.ofBits .f32 0x00000000#32 := by
  unfold k0_pay7; simp only [shapeCast_self]; rfl
theorem pay9_apply (j : S256x1.Idx) : k0_pay9 (F := Ideal) j = Ideal.ofBits .f32 0x00000000#32 := by
  unfold k0_pay9; simp only [shapeCast_self]; rfl
theorem pay10_apply (j : S256x1.Idx) : k0_pay10 (F := Ideal) j = Ideal.ofBits .f32 0x00000000#32 := by
  unfold k0_pay10; simp only [shapeCast_self]; rfl
theorem pay11_apply (j : S256x1.Idx) : k0_pay11 (F := Ideal) j = Ideal.ofBits .f32 0x00000000#32 := by
  unfold k0_pay11; simp only [shapeCast_self]; rfl

end Cert.KernelIdeal.Pay

end
-- ==== Proof.Steps.lean ====
/-
  One grid point, one row: the kernel's seven per-row quantities after the point are the online-softmax recurrence's
  next terms. The running maximum of the student row joins the tile's maximum; its denominator is rescaled by the
  exponential of (old − new maximum) and gains the tile's exponentials; the scaled student denominator does the same with
  every shift multiplied by one quarter; the teacher's maximum, denominator and two weighted sums follow the scaled
  teacher tile. After the tenth tile the two outputs are the row's log-sum-exp and its Kullback-Leibler term.
-/
import proofs.«163586_j52982716564146_2_alg».proof.Proof.Payloads

noncomputable section

namespace Cert.KernelIdeal.Steps

open Cert.KernelIdeal Cert.KernelIdeal.Gen Cert.KernelIdeal.Pay Idealize.ShloMosaic Idealize.ShloMosaic.ValueIdx
open Cert.Spec (qE tmax scl lQ mS lS lSq mT lT aTT aTS lseRow klRow)

variable (x0 x1 : FVec Ideal S256x3200 .f32) (s0 s1 s2 s3 s4 s5 s6 : FVec Ideal S256x1 .f32) (r : Fin 256)
variable (xs xt : ℕ → Fin 3200 → EReal) (j : ℕ)

/-- The tile's row maximum is the recurrence's tile shift. -/
theorem rmax_eq (hx0 : ∀ k, x0 (ix2 r k) = xs j k) : rmax x0 r = tmax xs j := by
  unfold rmax tmax
  exact congrArg (fun f => Finset.fold max (Ideal.ofBits .f32 0xFF800000#32) f Finset.univ) (funext hx0)

theorem rmax_scl_eq (hx1 : ∀ k, x1 (ix2 r k) = xt j k) : rmax (fun i => x1 i * qE) r = tmax (scl xt) j := by
  unfold rmax tmax scl
  exact congrArg (fun f => Finset.fold max (Ideal.ofBits .f32 0xFF800000#32) f Finset.univ)
    (funext fun k => by show x1 (ix2 r k) * qE = xt j k * qE; rw [hx1 k])

theorem step0 (hx0 : ∀ k, x0 (ix2 r k) = xs j k) (h0 : s0 (ix2 r 0) = mS xs j) :
    k0_pay16 (F := Ideal) x0 s0 (ix2 r 0) = mS xs (j + 1) := by
  rw [pay16_apply, h0, rmax_eq x0 r xs j hx0]
  rfl

theorem step1 (hx0 : ∀ k, x0 (ix2 r k) = xs j k) (h0 : s0 (ix2 r 0) = mS xs j) (h1 : s1 (ix2 r 0) = lS xs j) :
    k0_pay15 (F := Ideal) x0 s0 s1 (ix2 r 0) = lS xs (j + 1) := by
  rw [pay15_apply, h0, h1, rmax_eq x0 r xs j hx0]
  simp only [hx0]
  rfl

theorem step2 (hx0 : ∀ k, x0 (ix2 r k) = xs j k) (h0 : s0 (ix2 r 0) = mS xs j) (h2 : s2 (ix2 r 0) = lSq xs j) :
    k0_pay20 (F := Ideal) (k0_pay17 x0) (k0_pay18 x0 s0) (k0_pay19 x0 s0) s2 (ix2 r 0) = lSq xs (j + 1) := by
  rw [pay20_apply, pay18_apply, h0, h2, rmax_eq x0 r xs j hx0]
  simp only [pay17_apply, pay19_apply, h0, rmax_eq x0 r xs j hx0, hx0]
  rfl

theorem step3 (hx1 : ∀ k, x1 (ix2 r k) = xt j k) (h3 : s3 (ix2 r 0) = mT xt j) :
    k0_pay2 (F := Ideal) (k0_pay22 (k0_pay13 x1) s3) (ix2 r 0) = mT xt (j + 1) := by
  rw [pay2_eq, pay13_eq, pay22_apply, h3, rmax_scl_eq x1 r xt j hx1]
  rfl

theorem step4 (hx1 : ∀ k, x1 (ix2 r k) = xt j k) (h3 : s3 (ix2 r 0) = mT xt j) (h4 : s4 (ix2 r 0) = lT xt j) :
    k0_pay25 (F := Ideal) (k0_pay13 x1) s3 s4 (ix2 r 0) = lT xt (j + 1) := by
  rw [pay13_eq, pay25_apply, h3, h4, rmax_scl_eq x1 r xt j hx1]
  simp only [hx1]
  rfl

theorem step5 (hx1 : ∀ k, x1 (ix2 r k) = xt j k) (h3 : s3 (ix2 r 0) = mT xt j) (h5 : s5 (ix2 r 0) = aTT xt j) :
    k0_pay26 (F := Ideal) (k0_pay13 x1) s3 s5 (ix2 r 0) = aTT xt (j + 1) := by
  rw [pay13_eq, pay26_apply, h3, h5, rmax_scl_eq x1 r xt j hx1]
  simp only [hx1]
  rfl

theorem step6 (hx0 : ∀ k, x0 (ix2 r k) = xs j k) (hx1 : ∀ k, x1 (ix2 r k) = xt j k)
    (h3 : s3 (ix2 r 0) = mT xt j) (h6 : s6 (ix2 r 0) = aTS xs xt j) :
    k0_pay1 (F := Ideal) (k0_pay17 x0) (k0_pay23 (k0_pay13 x1) s3) (k0_pay24 (k0_pay13 x1) s3) s6 (ix2 r 0)
      = aTS xs xt (j + 1) := by
  rw [pay1_apply, pay13_eq, pay23_apply, h3, h6, rmax_scl_eq x1 r xt j hx1]
  simp only [pay24_apply, pay17_apply, h3, rmax_scl_eq x1 r xt j hx1, hx0, hx1]
  rfl

/-- The row's log-sum-exp, from the quantities after the tenth tile. -/
theorem outLSE (a0 a1 : FVec Ideal S256x1 .f32) (h0 : a0 (ix2 r 0) = mS xs 10) (h1 : a1 (ix2 r 0) = lS xs 10) :
    k0_pay3 (F := Ideal) a0 a1 (ix2 r 0) = lseRow xs := by
  rw [pay3_apply, h0, h1]
  rfl

/-- The row's Kullback-Leibler term, from the quantities after the tenth tile. -/
theorem outKL (a0 a2 a3 a4 a5 a6 : FVec Ideal S256x1 .f32) (h0 : a0 (ix2 r 0) = mS xs 10)
    (h2 : a2 (ix2 r 0) = lSq xs 10) (h3 : a3 (ix2 r 0) = mT xt 10) (h4 : a4 (ix2 r 0) = lT xt 10)
    (h5 : a5 (ix2 r 0) = aTT xt 10) (h6 : a6 (ix2 r 0) = aTS xs xt 10) :
    k0_pay4 (F := Ideal) a0 a2 a3 a4 a5 a4 a6 a4 (ix2 r 0) = klRow xs xt := by
  rw [pay4_apply, h0, h2, h3, h4, h5, h6]
  rfl

end Cert.KernelIdeal.Steps

end
-- ==== Proof.Consts.lean ====
/-
  The float constants the two programs spell, as the extended reals their bit patterns denote: the scale one
  quarter and the divisor four (reciprocal to each other, which is what joins the kernel's product with the
  reference's quotient), minus infinity (the starting value of every running maximum), zero, one, the row count
  4096 and the squared temperature 16, and the quiet-NaN pattern a gather out of range is filled with, which
  denotes minus infinity.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_nan : Ideal.ofBits .f32 0x7FC00000#32 = ⊥ := by
  simp [Ideal.ofBits, Ideal.ieee]

end Cert.Consts

end
-- ==== Proof.Rows.lean ====
/-
  Names shared by the kernel's value lemmas: the two logit matrices as the kernel's region finds them, and the matrix
  row that a block's local row is at a given grid point (the grid walks 16 row blocks of 256 rows, ten tiles each, so
  point n works on row block n div 10).
-/
import proofs.«163586_j52982716564146_2_alg».proof.Proof.Gen.KernelIdeal.Frame.Runs
import proofs.«163586_j52982716564146_2_alg».proof.Proof.Spec

noncomputable section

namespace Cert.KernelIdeal.Rows

open Cert.KernelIdeal Cert.KernelIdeal.Gen Idealize.ShloMosaic Idealize.ShloMosaic.TcCoe Idealize.SL.Sem

variable (m : (ℓ : Loc nD τ sig) → Buf (Elt Ideal) ℓ) (c : Dev nD)

/-- The student logits as the region finds them. -/
abbrev SA : FVec Ideal Cert.Spec.SNV .f32 := V m c main_v0
/-- The teacher logits as the region finds them. -/
abbrev TA : FVec Ideal Cert.Spec.SNV .f32 := V m c main_v1

/-- The matrix row that local row `r` of point `n`'s block is. -/
def grow (n : ℕ) (r : Fin 256) : Fin 4096 := ⟨(256 * (n / 10) + r.val) % 4096, Nat.mod_lt _ (by norm_num)⟩

end Cert.KernelIdeal.Rows

end
-- ==== Proof.Invariant.lean ====
/-
  The kernel's seven per-row columns after every grid point. The grid is 16 row blocks by 10 tiles, walked row block
  by row block; point n works on tile n mod 10 of row block n div 10. At a row block's first tile the columns are
  reset and updated once; at every later tile they are updated from what the point before left. So after point n each
  row's columns are the online-softmax recurrence of that row after (n mod 10) + 1 tiles, and at a last tile the two
  output columns hold the row's Kullback-Leibler term and log-sum-exp.
-/
import proofs.«163586_j52982716564146_2_alg».proof.Proof.FrameKernelIdealP1
import proofs.«163586_j52982716564146_2_alg».proof.Proof.Pieces
import proofs.«163586_j52982716564146_2_alg».proof.Proof.Steps
import proofs.«163586_j52982716564146_2_alg».proof.Proof.Consts
import proofs.«163586_j52982716564146_2_alg».proof.Proof.Rows
import Idealize.ShloMosaic.Lib.Pipeline.Value

set_option maxRecDepth 16384

noncomputable section

namespace Cert.KernelIdeal.Inv

open Cert.KernelIdeal Cert.KernelIdeal.Gen Cert.KernelIdeal.GenP Cert.KernelIdeal.Pieces Cert.KernelIdeal.Steps Cert.KernelIdeal.Pay
open Idealize.ShloMosaic Idealize.ShloMosaic.TcCoe Idealize.SL.Sem Idealize.ShloMosaic.ValueIdx
open Cert.Spec (tile mS lS lSq mT lT aTT aTS lseRow klRow)
open Cert.KernelIdeal.Rows

variable (m : (ℓ : Loc nD τ sig) → Buf (Elt Ideal) ℓ) (c : Dev nD)

/-- Both input windows' block index at point `t`: row block t div 10, tile t mod 10. -/
theorem idx0 : ∀ t : Fin cfg0.N, win0_0.index t (0 : Fin 2) = t.val / 10 ∧ win0_0.index t (1 : Fin 2) = t.val % 10 :=
  (by decide +kernel : ∀ t : Fin grid0.N, win0_0.index t (0 : Fin 2) = t.val / 10 ∧ win0_0.index t (1 : Fin 2) = t.val % 10)
theorem idx1 : ∀ t : Fin cfg0.N, win0_1.index t (0 : Fin 2) = t.val / 10 ∧ win0_1.index t (1 : Fin 2) = t.val % 10 :=
  (by decide +kernel : ∀ t : Fin grid0.N, win0_1.index t (0 : Fin 2) = t.val / 10 ∧ win0_1.index t (1 : Fin 2) = t.val % 10)

/-- The student block at point `t`, lane by lane: tile t mod 10 of the matrix row. -/
theorem iblk0_apply (t : Fin cfg0.N) (r : Fin 256) (k : Fin 3200) :
    (iblk m c 0 t : FVec Ideal S256x3200 .f32) (ix2 r k) = tile (SA m c) (grow t.val r) (t.val % 10) k := by
  have hN : t.val < 160 := lt_of_lt_of_eq t.isLt (show cfg0.N = 160 from N_0)
  unfold iblk tile
  rw [View.read_apply]
  show V m c main_v0 _ = V m c main_v0 _
  refine congrArg (V m c main_v0) (funext fun a => Fin.ext ?_)
  match a with
  | ⟨0, _⟩ =>
    show win0_0.index t 0 * 256 + 1 * r.val = (256 * (t.val / 10) + r.val) % 4096
    rw [(idx0 t).1]; have := r.isLt; omega
  | ⟨1, _⟩ =>
    show win0_0.index t 1 * 3200 + 1 * k.val = (3200 * (t.val % 10) + k.val) % 32000
    rw [(idx0 t).2]; have := k.isLt; omega

/-- The teacher block likewise. -/
theorem iblk1_apply (t : Fin cfg0.N) (r : Fin 256) (k : Fin 3200) :
    (iblk m c 1 t : FVec Ideal S256x3200 .f32) (ix2 r k) = tile (TA m c) (grow t.val r) (t.val % 10) k := by
  have hN : t.val < 160 := lt_of_lt_of_eq t.isLt (show cfg0.N = 160 from N_0)
  unfold iblk tile
  rw [View.read_apply]
  show V m c main_v1 _ = V m c main_v1 _
  refine congrArg (V m c main_v1) (funext fun a => Fin.ext ?_)
  match a with
  | ⟨0, _⟩ =>
    show win0_1.index t 0 * 256 + 1 * r.val = (256 * (t.val / 10) + r.val) % 4096
    rw [(idx1 t).1]; have := r.isLt; omega
  | ⟨1, _⟩ =>
    show win0_1.index t 1 * 3200 + 1 * k.val = (3200 * (t.val % 10) + k.val) % 32000
    rw [(idx1 t).2]; have := k.isLt; omega

/-! ## The columns after a point, as the body's arithmetic of the blocks and of what the point before left -/

set_option maxHeartbeats 4000000 in
/-- First tile of a row block: the reset values go in. -/
theorem compsA (t : Fin cfg0.N) (h0 : t.val % 10 = 0) (h1 : ¬t.val % 10 = 9) :
    (outsAt0 m c t.val t.isLt).2.2.1 = k0_pay16 (F := Ideal) (iblk m c 0 t) (k0_pay5 (F := Ideal))
      ∧ (outsAt0 m c t.val t.isLt).2.2.2.1 = k0_pay15 (F := Ideal) (iblk m c 0 t) (k0_pay5 (F := Ideal)) (k0_pay6 (F := Ideal))
      ∧ (outsAt0 m c t.val t.isLt).2.2.2.2.1 = k0_pay20 (F := Ideal) (k0_pay17 (F := Ideal) (iblk m c 0 t)) (k0_pay18 (F := Ideal) (iblk m c 0 t) (k0_pay5 (F := Ideal))) (k0_pay19 (F := Ideal) (iblk m c 0 t) (k0_pay5 (F := Ideal))) (k0_pay7 (F := Ideal))
      ∧ (outsAt0 m c t.val t.isLt).2.2.2.2.2.1 = k0_pay2 (F := Ideal) (k0_pay22 (F := Ideal) (k0_pay13 (F := Ideal) (iblk m c 1 t)) (k0_pay8 (F := Ideal)))
      ∧ (outsAt0 m c t.val t.isLt).2.2.2.2.2.2.1 = k0_pay25 (F := Ideal) (k0_pay13 (F := Ideal) (iblk m c 1 t)) (k0_pay8 (F := Ideal)) (k0_pay9 (F := Ideal))
      ∧ (outsAt0 m c t.val t.isLt).2.2.2.2.2.2.2.1 = k0_pay26 (F := Ideal) (k0_pay13 (F := Ideal) (iblk m c 1 t)) (k0_pay8 (F := Ideal)) (k0_pay10 (F := Ideal))
      ∧ (outsAt0 m c t.val t.isLt).2.2.2.2.2.2.2.2 = k0_pay1 (F := Ideal) (k0_pay17 (F := Ideal) (iblk m c 0 t)) (k0_pay23 (F := Ideal) (k0_pay13 (F := Ideal) (iblk m c 1 t)) (k0_pay8 (F := Ideal))) (k0_pay24 (F := Ideal) (k0_pay13 (F := Ideal) (iblk m c 1 t)) (k0_pay8 (F := Ideal))) (k0_pay11 (F := Ideal)) := by
  rw [outsAt0_A m c t h0 h1]
  dsimp only
  exact ⟨sA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t),
    sA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t),
    sA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t),
    sA_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t),
    sA_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t),
    sA_5 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t),
    sA_6 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t)⟩

set_option maxHeartbeats 4000000 in
/-- A middle tile: what the point before left goes in. -/
theorem compsB (t : Fin cfg0.N) (h0 : ¬t.val % 10 = 0) (h1 : ¬t.val % 10 = 9) :
    (outsAt0 m c t.val t.isLt).2.2.1 = k0_pay16 (F := Ideal) (iblk m c 0 t) (outsAt0 m c (t.val - 1) (Nat.lt_of_le_of_lt (Nat.sub_le _ _) t.isLt)).2.2.1
      ∧ (outsAt0 m c t.val t.isLt).2.2.2.1 = k0_pay15 (F := Ideal) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2.1
      ∧ (outsAt0 m c t.val t.isLt).2.2.2.2.1 = k0_pay20 (F := Ideal) (k0_pay17 (F := Ideal) (iblk m c 0 t)) (k0_pay18 (F := Ideal) (iblk m c 0 t) (outsAt0 m c (t.val - 1) (Nat.lt_of_le_of_lt (Nat.sub_le _ _) t.isLt)).2.2.1) (k0_pay19 (F := Ideal) (iblk m c 0 t) (outsAt0 m c (t.val - 1) (Nat.lt_of_le_of_lt (Nat.sub_le _ _) t.isLt)).2.2.1) (outsAt0 m c (t.val - 1) (Nat.lt_of_le_of_lt (Nat.sub_le _ _) t.isLt)).2.2.2.2.1
      ∧ (outsAt0 m c t.val t.isLt).2.2.2.2.2.1 = k0_pay2 (F := Ideal) (k0_pay22 (F := Ideal) (k0_pay13 (F := Ideal) (iblk m c 1 t)) (outsAt0 m c (t.val - 1) (Nat.lt_of_le_of_lt (Nat.sub_le _ _) t.isLt)).2.2.2.2.2.1)
      ∧ (outsAt0 m c t.val t.isLt).2.2.2.2.2.2.1 = k0_pay25 (F := Ideal) (k0_pay13 (F := Ideal) (iblk m c 1 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1
      ∧ (outsAt0 m c t.val t.isLt).2.2.2.2.2.2.2.1 = k0_pay26 (F := Ideal) (k0_pay13 (F := Ideal) (iblk m c 1 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.1
      ∧ (outsAt0 m c t.val t.isLt).2.2.2.2.2.2.2.2 = k0_pay1 (F := Ideal) (k0_pay17 (F := Ideal) (iblk m c 0 t)) (k0_pay23 (F := Ideal) (k0_pay13 (F := Ideal) (iblk m c 1 t)) (outsAt0 m c (t.val - 1) (Nat.lt_of_le_of_lt (Nat.sub_le _ _) t.isLt)).2.2.2.2.2.1) (k0_pay24 (F := Ideal) (k0_pay13 (F := Ideal) (iblk m c 1 t)) (outsAt0 m c (t.val - 1) (Nat.lt_of_le_of_lt (Nat.sub_le _ _) t.isLt)).2.2.2.2.2.1) (outsAt0 m c (t.val - 1) (Nat.lt_of_le_of_lt (Nat.sub_le _ _) t.isLt)).2.2.2.2.2.2.2.2 := by
  rw [outsAt0_B m c t h0 h1]
  dsimp only
  exact ⟨sB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sB_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sB_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sB_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sB_5 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sB_6 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2⟩

set_option maxHeartbeats 4000000 in
/-- The last tile: the same updates, -/
theorem compsC (t : Fin cfg0.N) (h0 : ¬t.val % 10 = 0) (h1 : t.val % 10 = 9) :
    (outsAt0 m c t.val t.isLt).2.2.1 = k0_pay16 (F := Ideal) (iblk m c 0 t) (outsAt0 m c (t.val - 1) (Nat.lt_of_le_of_lt (Nat.sub_le _ _) t.isLt)).2.2.1
      ∧ (outsAt0 m c t.val t.isLt).2.2.2.1 = k0_pay15 (F := Ideal) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2.1
      ∧ (outsAt0 m c t.val t.isLt).2.2.2.2.1 = k0_pay20 (F := Ideal) (k0_pay17 (F := Ideal) (iblk m c 0 t)) (k0_pay18 (F := Ideal) (iblk m c 0 t) (outsAt0 m c (t.val - 1) (Nat.lt_of_le_of_lt (Nat.sub_le _ _) t.isLt)).2.2.1) (k0_pay19 (F := Ideal) (iblk m c 0 t) (outsAt0 m c (t.val - 1) (Nat.lt_of_le_of_lt (Nat.sub_le _ _) t.isLt)).2.2.1) (outsAt0 m c (t.val - 1) (Nat.lt_of_le_of_lt (Nat.sub_le _ _) t.isLt)).2.2.2.2.1
      ∧ (outsAt0 m c t.val t.isLt).2.2.2.2.2.1 = k0_pay2 (F := Ideal) (k0_pay22 (F := Ideal) (k0_pay13 (F := Ideal) (iblk m c 1 t)) (outsAt0 m c (t.val - 1) (Nat.lt_of_le_of_lt (Nat.sub_le _ _) t.isLt)).2.2.2.2.2.1)
      ∧ (outsAt0 m c t.val t.isLt).2.2.2.2.2.2.1 = k0_pay25 (F := Ideal) (k0_pay13 (F := Ideal) (iblk m c 1 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1
      ∧ (outsAt0 m c t.val t.isLt).2.2.2.2.2.2.2.1 = k0_pay26 (F := Ideal) (k0_pay13 (F := Ideal) (iblk m c 1 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.1
      ∧ (outsAt0 m c t.val t.isLt).2.2.2.2.2.2.2.2 = k0_pay1 (F := Ideal) (k0_pay17 (F := Ideal) (iblk m c 0 t)) (k0_pay23 (F := Ideal) (k0_pay13 (F := Ideal) (iblk m c 1 t)) (outsAt0 m c (t.val - 1) (Nat.lt_of_le_of_lt (Nat.sub_le _ _) t.isLt)).2.2.2.2.2.1) (k0_pay24 (F := Ideal) (k0_pay13 (F := Ideal) (iblk m c 1 t)) (outsAt0 m c (t.val - 1) (Nat.lt_of_le_of_lt (Nat.sub_le _ _) t.isLt)).2.2.2.2.2.1) (outsAt0 m c (t.val - 1) (Nat.lt_of_le_of_lt (Nat.sub_le _ _) t.isLt)).2.2.2.2.2.2.2.2 := by
  rw [outsAt0_C m c t h0 h1]
  dsimp only
  exact ⟨sC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sC_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sC_5 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    sC_6 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2⟩

set_option maxHeartbeats 4000000 in
/-- and the two output columns from the columns just stored. -/
theorem outsC (t : Fin cfg0.N) (h0 : ¬t.val % 10 = 0) (h1 : t.val % 10 = 9) :
    (outsAt0 m c t.val t.isLt).1 = k0_pay4 (F := Ideal) (outsAt0 m c t.val t.isLt).2.2.1 (outsAt0 m c t.val t.isLt).2.2.2.2.1
        (outsAt0 m c t.val t.isLt).2.2.2.2.2.1 (outsAt0 m c t.val t.isLt).2.2.2.2.2.2.1 (outsAt0 m c t.val t.isLt).2.2.2.2.2.2.2.1
        (outsAt0 m c t.val t.isLt).2.2.2.2.2.2.1 (outsAt0 m c t.val t.isLt).2.2.2.2.2.2.2.2 (outsAt0 m c t.val t.isLt).2.2.2.2.2.2.1
      ∧ (outsAt0 m c t.val t.isLt).2.1 = k0_pay3 (F := Ideal) (outsAt0 m c t.val t.isLt).2.2.1 (outsAt0 m c t.val t.isLt).2.2.2.1 := by
  obtain ⟨e0, e1, e2, e3, e4, e5, e6⟩ := compsC m c t h0 h1
  rw [e0, e1, e2, e3, e4, e5, e6]
  rw [outsAt0_C m c t h0 h1]
  dsimp only
  exact ⟨oC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    oC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2⟩

/-! ## The columns after every point -/

/-- The seven columns of local row `r` after point `n`: the row's recurrence after (n mod 10) + 1 tiles. -/
def St (n : ℕ) (hn : n < cfg0.N) (r : Fin 256) : Prop :=
  (outsAt0 m c n hn).2.2.1 (ix2 r 0) = mS (tile (SA m c) (grow n r)) (n % 10 + 1)
  ∧ (outsAt0 m c n hn).2.2.2.1 (ix2 r 0) = lS (tile (SA m c) (grow n r)) (n % 10 + 1)
  ∧ (outsAt0 m c n hn).2.2.2.2.1 (ix2 r 0) = lSq (tile (SA m c) (grow n r)) (n % 10 + 1)
  ∧ (outsAt0 m c n hn).2.2.2.2.2.1 (ix2 r 0) = mT (tile (TA m c) (grow n r)) (n % 10 + 1)
  ∧ (outsAt0 m c n hn).2.2.2.2.2.2.1 (ix2 r 0) = lT (tile (TA m c) (grow n r)) (n % 10 + 1)
  ∧ (outsAt0 m c n hn).2.2.2.2.2.2.2.1 (ix2 r 0) = aTT (tile (TA m c) (grow n r)) (n % 10 + 1)
  ∧ (outsAt0 m c n hn).2.2.2.2.2.2.2.2 (ix2 r 0) = aTS (tile (SA m c) (grow n r)) (tile (TA m c) (grow n r)) (n % 10 + 1)

/-- At a row block's first tile. -/
theorem first_tile (t : Fin cfg0.N) (h0 : t.val % 10 = 0) (r : Fin 256) : St m c t.val t.isLt r := by
  have h1 : ¬t.val % 10 = 9 := by omega
  obtain ⟨e0, e1, e2, e3, e4, e5, e6⟩ := compsA m c t h0 h1
  have hx0 : ∀ k, (iblk m c 0 t : FVec Ideal S256x3200 .f32) (ix2 r k) = tile (SA m c) (grow t.val r) 0 k := fun k => by
    rw [iblk0_apply, h0]
  have hx1 : ∀ k, (iblk m c 1 t : FVec Ideal S256x3200 .f32) (ix2 r k) = tile (TA m c) (grow t.val r) 0 k := fun k => by
    rw [iblk1_apply, h0]
  have z0 : (k0_pay5 (F := Ideal)) (ix2 r 0) = mS (tile (SA m c) (grow t.val r)) 0 := (pay5_apply _).trans Cert.Consts.ofBits_neg_inf
  have z1 : (k0_pay6 (F := Ideal)) (ix2 r 0) = lS (tile (SA m c) (grow t.val r)) 0 := (pay6_apply _).trans Cert.Consts.ofBits_zero
  have z2 : (k0_pay7 (F := Ideal)) (ix2 r 0) = lSq (tile (SA m c) (grow t.val r)) 0 := (pay7_apply _).trans Cert.Consts.ofBits_zero
  have z3 : (k0_pay8 (F := Ideal)) (ix2 r 0) = mT (tile (TA m c) (grow t.val r)) 0 := (pay8_apply _).trans Cert.Consts.ofBits_neg_inf
  have z4 : (k0_pay9 (F := Ideal)) (ix2 r 0) = lT (tile (TA m c) (grow t.val r)) 0 := (pay9_apply _).trans Cert.Consts.ofBits_zero
  have z5 : (k0_pay10 (F := Ideal)) (ix2 r 0) = aTT (tile (TA m c) (grow t.val r)) 0 := (pay10_apply _).trans Cert.Consts.ofBits_zero
  have z6 : (k0_pay11 (F := Ideal)) (ix2 r 0) = aTS (tile (SA m c) (grow t.val r)) (tile (TA m c) (grow t.val r)) 0 := (pay11_apply _).trans Cert.Consts.ofBits_zero
  unfold St
  rw [h0, e0, e1, e2, e3, e4, e5, e6]
  exact ⟨step0 _ _ r _ 0 hx0 z0, step1 _ _ _ r _ 0 hx0 z0 z1, step2 _ _ _ r _ 0 hx0 z0 z2,
    step3 _ _ r _ 0 hx1 z3, step4 _ _ _ r _ 0 hx1 z3 z4, step5 _ _ _ r _ 0 hx1 z3 z5,
    step6 _ _ _ _ r _ _ 0 hx0 hx1 z3 z6⟩

/-- At every later tile, from the point before. -/
theorem later_tile (t : Fin cfg0.N) (h0 : ¬t.val % 10 = 0) (r : Fin 256)
    (ih : St m c (t.val - 1) (Nat.lt_of_le_of_lt (Nat.sub_le _ _) t.isLt) r) : St m c t.val t.isLt r := by
  have hg : grow (t.val - 1) r = grow t.val r := by
    unfold grow
    exact Fin.ext (by
      show (256 * ((t.val - 1) / 10) + r.val) % 4096 = (256 * (t.val / 10) + r.val) % 4096
      have hd : (t.val - 1) / 10 = t.val / 10 := by omega
      rw [hd])
  have hj : (t.val - 1) % 10 + 1 = t.val % 10 := by omega
  unfold St at ih
  rw [hg, hj] at ih
  obtain ⟨i0, i1, i2, i3, i4, i5, i6⟩ := ih
  have hx0 : ∀ k, (iblk m c 0 t : FVec Ideal S256x3200 .f32) (ix2 r k) = tile (SA m c) (grow t.val r) (t.val % 10) k :=
    fun k => iblk0_apply m c t r k
  have hx1 : ∀ k, (iblk m c 1 t : FVec Ideal S256x3200 .f32) (ix2 r k) = tile (TA m c) (grow t.val r) (t.val % 10) k :=
    fun k => iblk1_apply m c t r k
  unfold St
  by_cases h1 : t.val % 10 = 9
  · obtain ⟨e0, e1, e2, e3, e4, e5, e6⟩ := compsC m c t h0 h1
    rw [e0, e1, e2, e3, e4, e5, e6]
    exact ⟨step0 _ _ r _ _ hx0 i0, step1 _ _ _ r _ _ hx0 i0 i1, step2 _ _ _ r _ _ hx0 i0 i2,
      step3 _ _ r _ _ hx1 i3, step4 _ _ _ r _ _ hx1 i3 i4, step5 _ _ _ r _ _ hx1 i3 i5,
      step6 _ _ _ _ r _ _ _ hx0 hx1 i3 i6⟩
  · obtain ⟨e0, e1, e2, e3, e4, e5, e6⟩ := compsB m c t h0 h1
    rw [e0, e1, e2, e3, e4, e5, e6]
    exact ⟨step0 _ _ r _ _ hx0 i0, step1 _ _ _ r _ _ hx0 i0 i1, step2 _ _ _ r _ _ hx0 i0 i2,
      step3 _ _ r _ _ hx1 i3, step4 _ _ _ r _ _ hx1 i3 i4, step5 _ _ _ r _ _ hx1 i3 i5,
      step6 _ _ _ _ r _ _ _ hx0 hx1 i3 i6⟩

/-- After every point, by induction along the grid's walk. -/
theorem inv (n : ℕ) : ∀ (hn : n < cfg0.N) (r : Fin 256), St m c n hn r := by
  induction n with
  | zero => intro hn r; exact first_tile m c ⟨0, hn⟩ (Nat.zero_mod 10) r
  | succ n ih =>
    intro hn r
    by_cases h0 : (n + 1) % 10 = 0
    · exact first_tile m c ⟨n + 1, hn⟩ h0 r
    · exact later_tile m c ⟨n + 1, hn⟩ h0 r (ih (Nat.lt_of_succ_lt hn) r)

/-- At a last tile the two output columns hold the row's Kullback-Leibler term and log-sum-exp. -/
theorem out_at_last (t : Fin cfg0.N) (h1 : t.val % 10 = 9) (r : Fin 256) :
    (outsAt0 m c t.val t.isLt).1 (ix2 r 0) = klRow (tile (SA m c) (grow t.val r)) (tile (TA m c) (grow t.val r))
    ∧ (outsAt0 m c t.val t.isLt).2.1 (ix2 r 0) = lseRow (tile (SA m c) (grow t.val r)) := by
  have h0 : ¬t.val % 10 = 0 := by omega
  obtain ⟨o2, o3⟩ := outsC m c t h0 h1
  have hs := inv m c t.val t.isLt r
  unfold St at hs
  rw [h1] at hs
  obtain ⟨i0, i1, i2, i3, i4, i5, i6⟩ := hs
  rw [o2, o3]
  exact ⟨outKL r _ _ _ _ _ _ _ _ i0 i2 i3 i4 i5 i6, outLSE r _ _ _ i0 i1⟩

end Cert.KernelIdeal.Inv

end
-- ==== Proof.Flush.lean ====
/-
  From what each last-tile grid point writes back to the two whole [4096, 1] arrays the kernel leaves.

  The grid walks 16 row blocks of 256 rows, ten tiles each; the two output windows are written back only at a row
  block's last tile (points ≡ 9 mod 10), block index (point div 10, 0), block shape [256, 1]. Element (r, 0) of the
  block written at point t sits at array row 256·(t div 10) + r, and array row i is covered by the point
  10·(i div 256) + 9. So if every last-tile point leaves, at each local row, the row's Kullback-Leibler term and
  log-sum-exp, the arrays end holding them row by row.
-/
import proofs.«163586_j52982716564146_2_alg».proof.Proof.FrameKernelIdealP1
import proofs.«163586_j52982716564146_2_alg».proof.Proof.Rows
import proofs.«163586_j52982716564146_2_alg».proof.Proof.Spec
import Idealize.ShloMosaic.Lib.Pipeline.Value

noncomputable section

namespace Cert.KernelIdeal.Flush

open Cert.KernelIdeal Cert.KernelIdeal.Gen Cert.KernelIdeal.GenP Cert.KernelIdeal.Rows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- What the last-tile points leave in the two output blocks: at local row `r`, the Kullback-Leibler term and the
    log-sum-exp of the matrix row that `r` is at that point. -/
def LastTile : Prop := ∀ (t : Fin cfg0.N), t.val % 10 = 9 → ∀ r : Fin 256,
    (outsAt0 m c t.val t.isLt).1 (ix2 r 0)
        = Cert.Spec.klRow (Cert.Spec.tile (SA m c) (grow t.val r)) (Cert.Spec.tile (TA m c) (grow t.val r))
      ∧ (outsAt0 m c t.val t.isLt).2.1 (ix2 r 0) = Cert.Spec.lseRow (Cert.Spec.tile (SA m c) (grow t.val r))

/-- The two output windows' block index at point `t` is (t div 10, 0), decided over the grid. -/
theorem idx_out : ∀ t : Fin cfg0.N, (win0_2.index t (0 : Fin 2) = t.val / 10 ∧ win0_2.index t (1 : Fin 2) = 0)
    ∧ (win0_3.index t (0 : Fin 2) = t.val / 10 ∧ win0_3.index t (1 : Fin 2) = 0) :=
  (by decide +kernel : ∀ t : Fin grid0.N, _)

/-- The grid has 160 points. -/
theorem lt_160 (t : Fin cfg0.N) : t.val < 160 := Nat.lt_of_lt_of_eq t.isLt N_0

/-- The last-tile point of the row block that array row `i` lies in. -/
def ptOf (i : S4096x1.Idx) : Fin cfg0.N :=
  ⟨10 * ((i 0).val / 256) + 9,
    Nat.lt_of_lt_of_eq (by have hi : (i 0).val < 4096 := (i 0).isLt; omega : 10 * ((i 0).val / 256) + 9 < 160)
      N_0.symm⟩

theorem ptOf_val (i : S4096x1.Idx) : (ptOf i).val = 10 * ((i 0).val / 256) + 9 := rfl

/-! ## Output window 2: the Kullback-Leibler column -/

/-- What a last-tile point leaves in window 2's block, element by element, is the column of Kullback-Leibler terms under the block. -/
theorem out2_apply (hlast : LastTile m c) (t : Fin cfg0.N) (ht : t.val % 10 = 9) (j : S256x1.Idx) :
    (outsAt0 m c t.val t.isLt).1 j = Cert.Spec.KL (SA m c) (TA m c) (((cfg0.win 2).blk t).view.emb j) := by
  obtain ⟨e0, e1⟩ := (idx_out t).1
  have h160 := lt_160 t
  have hr : (j 0).val < 256 := (j 0).isLt
  have h1 : (j 1).val < 1 := (j 1).isLt
  have hj : j = ix2 (⟨(j 0).val, hr⟩ : Fin 256) (0 : Fin 1) := by
    funext a
    match a with
    | ⟨0, _⟩ => rfl
    | ⟨1, _⟩ => exact Fin.ext (by show (j 1).val = 0; omega)
  have hrow : grow t.val ⟨(j 0).val, hr⟩ = ⟨((((cfg0.win 2).blk t).view.emb j) 0).val, idx2_lt0 _⟩ := by
    apply Fin.ext
    show (256 * (t.val / 10) + (j 0).val) % 4096 = win0_2.index t (0 : Fin 2) * 256 + 1 * (j 0).val
    rw [e0]
    omega
  have hl := (hlast t ht ⟨(j 0).val, hr⟩).1
  rw [← hj, hrow] at hl
  exact hl

/-- WHAT A LAST-TILE POINT WRITES BACK to window 2's array is its block of the column of Kullback-Leibler terms. -/
theorem flushed2_eq (hlast : LastTile m c) (t : Fin cfg0.N) (ht : t.val % 10 = 9) :
    (dats m 0 c).flushed 2 t = ((cfg0.win 2).blk t).view.read (Elt Ideal) (Cert.Spec.KL (SA m c) (TA m c)) := by
  show (cfg0.win 2).cut (grid0.coords t) ((dats m 0 c).after 2 t) = _
  rw [after0_2]
  funext j
  exact out2_apply m c hlast t ht j

/-- An index of the array is in point `t`'s block iff each coordinate is in the block's range on its axis. -/
theorem mem_blk2 (t : Fin cfg0.N) (i : S4096x1.Idx) :
    i ∈ ((cfg0.win 2).blk t).view.set
      ↔ ∀ a : Fin 2, win0_2.index t a * S256x1.size a ≤ (i a).val
          ∧ (i a).val < win0_2.index t a * S256x1.size a + S256x1.size a := by
  show i ∈ ((View.whole main_v3_0).slice (win0_2.rect t)).set ↔ _
  rw [View.set_slice_whole, Rect.mem_set_unit]
  exact Iff.rfl

/-- Every index of window 2's array is in the block some last-tile point writes back. -/
theorem cover2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hv := ptOf_val i
  obtain ⟨e0, e1⟩ := (idx_out (ptOf i)).1
  refine ⟨ptOf i, (flush0_2 (ptOf i)).mpr (by rw [hv]; omega), ?_⟩
  rw [mem_blk2]
  intro a
  match a with
  | ⟨0, _⟩ =>
    show win0_2.index (ptOf i) (0 : Fin 2) * 256 ≤ (i 0).val
      ∧ (i 0).val < win0_2.index (ptOf i) (0 : Fin 2) * 256 + 256
    rw [e0, hv]
    omega
  | ⟨1, _⟩ =>
    show win0_2.index (ptOf i) (1 : Fin 2) * 1 ≤ (i 1).val
      ∧ (i 1).val < win0_2.index (ptOf i) (1 : Fin 2) * 1 + 1
    rw [e1]
    omega

/-- THE KULLBACK-LEIBLER COLUMN the kernel leaves: at every matrix row, that row's term. -/
theorem final_kl (hlast : LastTile m c) : (dats m 0 c).arrAt 2 cfg0.N = Cert.Spec.KL (SA m c) (TA m c) :=
  (dats m 0 c).arrAt_eq_of_cover 2 (Cert.Spec.KL (SA m c) (TA m c))
    (fun t hf => flushed2_eq m c hlast t ((flush0_2 t).mp hf)) cover2

/-! ## Output window 3: the log-sum-exp column -/

/-- What a last-tile point leaves in window 3's block, element by element, is the column of log-sum-exps under the block. -/
theorem out3_apply (hlast : LastTile m c) (t : Fin cfg0.N) (ht : t.val % 10 = 9) (j : S256x1.Idx) :
    (outsAt0 m c t.val t.isLt).2.1 j = Cert.Spec.LSE (SA m c) (((cfg0.win 3).blk t).view.emb j) := by
  obtain ⟨e0, e1⟩ := (idx_out t).2
  have h160 := lt_160 t
  have hr : (j 0).val < 256 := (j 0).isLt
  have h1 : (j 1).val < 1 := (j 1).isLt
  have hj : j = ix2 (⟨(j 0).val, hr⟩ : Fin 256) (0 : Fin 1) := by
    funext a
    match a with
    | ⟨0, _⟩ => rfl
    | ⟨1, _⟩ => exact Fin.ext (by show (j 1).val = 0; omega)
  have hrow : grow t.val ⟨(j 0).val, hr⟩ = ⟨((((cfg0.win 3).blk t).view.emb j) 0).val, idx2_lt0 _⟩ := by
    apply Fin.ext
    show (256 * (t.val / 10) + (j 0).val) % 4096 = win0_3.index t (0 : Fin 2) * 256 + 1 * (j 0).val
    rw [e0]
    omega
  have hl := (hlast t ht ⟨(j 0).val, hr⟩).2
  rw [← hj, hrow] at hl
  exact hl

/-- WHAT A LAST-TILE POINT WRITES BACK to window 3's array is its block of the column of log-sum-exps. -/
theorem flushed3_eq (hlast : LastTile m c) (t : Fin cfg0.N) (ht : t.val % 10 = 9) :
    (dats m 0 c).flushed 3 t = ((cfg0.win 3).blk t).view.read (Elt Ideal) (Cert.Spec.LSE (SA m c)) := by
  show (cfg0.win 3).cut (grid0.coords t) ((dats m 0 c).after 3 t) = _
  rw [after0_3]
  funext j
  exact out3_apply m c hlast t ht j

/-- An index of the array is in point `t`'s block iff each coordinate is in the block's range on its axis. -/
theorem mem_blk3 (t : Fin cfg0.N) (i : S4096x1.Idx) :
    i ∈ ((cfg0.win 3).blk t).view.set
      ↔ ∀ a : Fin 2, win0_3.index t a * S256x1.size a ≤ (i a).val
          ∧ (i a).val < win0_3.index t a * S256x1.size a + S256x1.size a := by
  show i ∈ ((View.whole main_v3_1).slice (win0_3.rect t)).set ↔ _
  rw [View.set_slice_whole, Rect.mem_set_unit]
  exact Iff.rfl

/-- Every index of window 3's array is in the block some last-tile point writes back. -/
theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hv := ptOf_val i
  obtain ⟨e0, e1⟩ := (idx_out (ptOf i)).2
  refine ⟨ptOf i, (flush0_3 (ptOf i)).mpr (by rw [hv]; omega), ?_⟩
  rw [mem_blk3]
  intro a
  match a with
  | ⟨0, _⟩ =>
    show win0_3.index (ptOf i) (0 : Fin 2) * 256 ≤ (i 0).val
      ∧ (i 0).val < win0_3.index (ptOf i) (0 : Fin 2) * 256 + 256
    rw [e0, hv]
    omega
  | ⟨1, _⟩ =>
    show win0_3.index (ptOf i) (1 : Fin 2) * 1 ≤ (i 1).val
      ∧ (i 1).val < win0_3.index (ptOf i) (1 : Fin 2) * 1 + 1
    rw [e1]
    omega

/-- THE LOG-SUM-EXP COLUMN the kernel leaves: at every matrix row, that row's log-sum-exp. -/
theorem final_lse (hlast : LastTile m c) : (dats m 0 c).arrAt 3 cfg0.N = Cert.Spec.LSE (SA m c) :=
  (dats m 0 c).arrAt_eq_of_cover 3 (Cert.Spec.LSE (SA m c))
    (fun t hf => flushed3_eq m c hlast t ((flush0_3 t).mp hf)) cover3

end Cert.KernelIdeal.Flush

end
-- ==== Proof.KernelTail.lean ====
/-
  The host lines after the kernel, read back: what the three scalars the program returns hold once the lines have run
  from the buffers the kernel leaves. Each is the corresponding term of the specification applied to the kernel's two
  output columns and to the program's inputs as the kernel finds them.
-/
import proofs.«163586_j52982716564146_2_alg».proof.Proof.FrameKernelIdealP1
import proofs.«163586_j52982716564146_2_alg».proof.Proof.Spec
import proofs.«163586_j52982716564146_2_alg».proof.Proof.LibStretch
import Idealize.ShloMosaic.Lib.StableHlo.Run
import Idealize.ShloMosaic.Lib.Pipeline.Value
import Idealize.ShloMosaic.Lib.Pipeline.FrameSuffix

noncomputable section

namespace Cert.KernelIdeal.Tail

open Idealize.ShloMosaic Idealize.ShloMosaic.TcCoe
open Cert.KernelIdeal Cert.KernelIdeal.Gen Cert.KernelIdeal.GenP

variable (m : (ℓ : Loc nD τ sig) → Buf (Elt Ideal) ℓ) (c : Dev nD) (h : Cert.Spec.Facts)

/-- The mean of the kernel's Kullback-Leibler column times the squared temperature: lines %11 to %13 read back. -/
theorem tail_distill : Pipeline.afterTail₀ cfgs (dats m) 0 (V0 m) [hostOps1, hostOps1_1, hostOps1_2] c main_v13
      = Cert.Spec.kDistill h ((dats m 0 c).arrAt 2 cfg0.N) := by
  unfold Pipeline.afterTail₀
  simp only [hostOps1, hostOps1_1, hostOps1_2, List.flatten_cons, List.flatten_nil, List.append_nil, List.cons_append, List.nil_append]
  show StableHlo.after _ _ (Proc.devRef .tc main_v13) = _
  after_results
  have e : Pipeline.withArrays (cfgs 0).spec c (V0 m c) (fun w => (dats m 0 c).arrAt w (cfgs 0).N) (Proc.devRef .tc main_v3_0)
      = (dats m 0 c).arrAt 2 (cfgs 0).N := Pipeline.withArrays_arr (cfgs 0).spec launch0.win.arr_inj c _ _ 2
  rw [e]
  rfl

set_option maxHeartbeats 2000000 in
/-- The cross-entropy over the valid rows from the kernel's log-sum-exp column, the student logits and the labels:
    the label's logit gathered by the inlined call, then lines %6 to %18, read back. A value handed from one
    operation of the inlined call to the next passes a transport to its buffer's type and back, which is the
    identity; what is left computes to the specification's term. -/
theorem tail_task : Pipeline.afterTail₀ cfgs (dats m) 0 (V0 m) [hostOps1, hostOps1_1, hostOps1_2] c main_v18
      = Cert.Spec.kTask h ((dats m 0 c).arrAt 3 cfg0.N) (V m c main_v0) (V m c main_v2) := by
  unfold Pipeline.afterTail₀
  simp only [hostOps1, hostOps1_1, hostOps1_2, List.flatten_cons, List.flatten_nil, List.append_nil, List.cons_append, List.nil_append]
  show StableHlo.after _ _ (Proc.devRef .tc main_v18) = _
  after_results_simp
  simp only [Cert.LibStretch.ofBuf_toBuf]
  have e3 : Pipeline.withArrays (cfgs 0).spec c (V0 m c) (fun w => (dats m 0 c).arrAt w (cfgs 0).N) (Proc.devRef .tc main_v3_1)
      = (dats m 0 c).arrAt 3 (cfgs 0).N := Pipeline.withArrays_arr (cfgs 0).spec launch0.win.arr_inj c _ _ 3
  have e0 : Pipeline.withArrays (cfgs 0).spec c (V0 m c) (fun w => (dats m 0 c).arrAt w (cfgs 0).N) (Proc.devRef .tc main_v0)
      = V m c main_v0 :=
    (Pipeline.withArrays_arr (cfgs 0).spec launch0.win.arr_inj c _ _ 0).trans
      (((dats m 0 c).arrAt_in 0 rfl _).trans (A_eq m c 0))
  have e2 : Pipeline.withArrays (cfgs 0).spec c (V0 m c) (fun w => (dats m 0 c).arrAt w (cfgs 0).N) (Proc.devRef .tc main_v2)
      = V m c main_v2 := Pipeline.withArrays_of_ne _ c (V0 m c) _ main_v2 (by decide)
  rw [e3, e0, e2]
  rfl

set_option maxHeartbeats 2000000 in
/-- The weighted total, lines %19 to %21: the same two lines' results weighted and added, whatever they hold. -/
theorem tail_total : Pipeline.afterTail₀ cfgs (dats m) 0 (V0 m) [hostOps1, hostOps1_1, hostOps1_2] c main_v21
      = Cert.Spec.total (Cert.Spec.kDistill h ((dats m 0 c).arrAt 2 cfg0.N))
          (Cert.Spec.kTask h ((dats m 0 c).arrAt 3 cfg0.N) (V m c main_v0) (V m c main_v2)) := by
  rw [← tail_distill m c h, ← tail_task m c h]
  unfold Pipeline.afterTail₀ Cert.Spec.total
  simp only [hostOps1, hostOps1_1, hostOps1_2, List.flatten_cons, List.flatten_nil, List.append_nil, List.cons_append, List.nil_append]
  show StableHlo.after _ _ (Proc.devRef .tc main_v21) = _
  after_results_simp

/-- The three scalars' buffers are unscoped and no window's array. -/
theorem v13_mem : main_v13 ∈ Pipeline.restRefs sig (cfgs 0).spec := Pipeline.mem_restRefs_of main_v13 (by decide) (by decide)
theorem v18_mem : main_v18 ∈ Pipeline.restRefs sig (cfgs 0).spec := Pipeline.mem_restRefs_of main_v18 (by decide) (by decide)
theorem v21_mem : main_v21 ∈ Pipeline.restRefs sig (cfgs 0).spec := Pipeline.mem_restRefs_of main_v21 (by decide) (by decide)

end Cert.KernelIdeal.Tail

end
-- ==== Proof.KernelEntry.lean ====
/-
  The three arrays the kernel's region finds when it is entered are the arguments reshaped: the two
  [4, 1024, 32000] float arrays as [4096, 32000] matrices and the [4, 1024] integer array as a vector of 4096
  words. The only host operations before the region are these three reshapes, each writing its own buffer.
-/
import proofs.«163586_j52982716564146_2_alg».proof.Proof.Gen.KernelIdeal.Frame.Runs
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (c : Dev nD)

/-- The first matrix the region reads is the first argument reshaped. -/
theorem V_v0 : (V m c main_v0 : FVec Ideal S4096x32000 .f32)
    = shapeCast _ (m ((c.tc : Thread nD τ).loc main_arg0)) shapeCasts_S4x1024x32000_S4096x32000 := by
  show StableHlo.after hostOps0 (fun b => m (c, b)) (Proc.devRef .tc main_v0) = _
  after_results
  rfl

/-- The second matrix the region reads is the second argument reshaped. -/
theorem V_v1 : (V m c main_v1 : FVec Ideal S4096x32000 .f32)
    = shapeCast _ (m ((c.tc : Thread nD τ).loc main_arg1)) shapeCasts_S4x1024x32000_S4096x32000 := by
  show StableHlo.after hostOps0 (fun b => m (c, b)) (Proc.devRef .tc main_v1) = _
  after_results
  rfl

/-- The vector of words the host lines read is the third argument reshaped. -/
theorem V_v2 : (V m c main_v2 : IVec S4096 32)
    = shapeCast _ (m ((c.tc : Thread nD τ).loc main_arg2)) shapeCasts_S4x1024_S4096 := by
  show StableHlo.after hostOps0 (fun b => m (c, b)) (Proc.devRef .tc main_v2) = _
  after_results
  rfl

end Cert.KernelIdeal.Entry

end
-- ==== Proof.LibDistanceLoss.lean ====
/-
  Extended-real algebra behind a "negative Euclidean distance" score and a cross-entropy loss over such scores.

  * `coe_sum`: the coercion of a finite real sum is the sum of the coercions.
  * `sq_expand`, `neg_dist_eq`: for REAL data, the squared distance Σ_d (x_d - w_d + e)² is
    Σ_d (x_d+e)² - 2 Σ_d (x_d+e) w_d + Σ_d w_d², it is nonnegative, so clamping it at zero changes nothing, and
    `0 - √(max (…) 0)` in the expanded spelling is `-√(…)` in the direct one.
  * `fold_max_coe`, `lse_real`: the running maximum of finitely many reals from minus infinity over a nonempty
    range is a real, and so is the logarithm of the sum of the exponentials shifted by it (the sum is positive).
  * `lse_sub_real`, `lse_sub_bot`: with m the row maximum and l = log Σ exp(s - m), (m + l) - s_q = -((s_q - m) - l),
    and (m + l) - ⊥ = -⊥ = ⊤ — a row's loss term in the two spellings, the second at an entry that was replaced by ⊥.
  * `sum_ne_top`, `neg_sum`: a finite sum of extended reals none of which is ⊤ is not ⊤, and its negation is the sum
    of the negations (⊥ summands allowed: -(⊥ + r) = ⊤ = ⊤ - r).
  * `mean_neg`: hence (0 + Σ_j a_j) / c = -((0 + Σ_j b_j) / c) for a real c ≠ 0 whenever a_j = -b_j and no b_j is ⊤.
-/
import Idealize.ShloMosaic.PureOps.Ideal.Laws

noncomputable section

namespace Cert.LibDistanceLoss

open Idealize.ShloMosaic

/-- The coercion of a finite real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Σ (a - w)² = Σ a² - 2 Σ a w + Σ w². -/
theorem sq_expand {ι : Type} (s : Finset ι) (a w : ι → ℝ) :
    ∑ d ∈ s, (a d - w d) * (a d - w d) = (∑ d ∈ s, a d * a d - 2 * ∑ d ∈ s, a d * w d) + ∑ d ∈ s, w d * w d := by
  rw [Finset.mul_sum, ← Finset.sum_sub_distrib, ← Finset.sum_add_distrib]
  exact Finset.sum_congr rfl fun d _ => by ring

/-- The expanded, clamped spelling of minus the distance is the direct one, on real data. -/
theorem neg_dist_eq {ι : Type} [Fintype ι] (x w : ι → ℝ) (e : ℝ) :
    (0 : EReal) - Ideal.sqrt (max (((∑ d, ((x d : EReal) + (e : EReal)) * ((x d : EReal) + (e : EReal)))
        - ((2 : ℝ) : EReal) * ∑ d, ((x d : EReal) + (e : EReal)) * (w d : EReal)) + (0 + ∑ d, (w d : EReal) * (w d : EReal))) 0)
      = -(Ideal.sqrt (0 + ∑ d, (((x d : EReal) - (w d : EReal)) + (e : EReal)) * (((x d : EReal) - (w d : EReal)) + (e : EReal)))) := by
  have hA : (∑ d, ((x d : EReal) + (e : EReal)) * ((x d : EReal) + (e : EReal))) = ((∑ d, (x d + e) * (x d + e) : ℝ) : EReal) := by
    rw [coe_sum]; exact Finset.sum_congr rfl fun d _ => by norm_cast
  have hC : (∑ d, ((x d : EReal) + (e : EReal)) * (w d : EReal)) = ((∑ d, (x d + e) * w d : ℝ) : EReal) := by
    rw [coe_sum]; exact Finset.sum_congr rfl fun d _ => by norm_cast
  have hB : (∑ d, (w d : EReal) * (w d : EReal)) = ((∑ d, w d * w d : ℝ) : EReal) := by
    rw [coe_sum]; exact Finset.sum_congr rfl fun d _ => by norm_cast
  have hR : (∑ d, (((x d : EReal) - (w d : EReal)) + (e : EReal)) * (((x d : EReal) - (w d : EReal)) + (e : EReal)))
      = ((∑ d, ((x d + e) - w d) * ((x d + e) - w d) : ℝ) : EReal) := by
    rw [coe_sum]; refine Finset.sum_congr rfl fun d _ => ?_
    have : ((x d : EReal) - (w d : EReal)) + (e : EReal) = (((x d + e) - w d : ℝ) : EReal) := by
      rw [← EReal.coe_sub, ← EReal.coe_add]; exact congrArg _ (by ring)
    rw [this, ← EReal.coe_mul]
  have h0 : 0 ≤ ∑ d, ((x d + e) - w d) * ((x d + e) - w d) := Finset.sum_nonneg fun d _ => mul_self_nonneg _
  rw [hA, hC, hB, hR, zero_add, zero_add, ← EReal.coe_mul, ← EReal.coe_sub, ← EReal.coe_add,
    ← sq_expand Finset.univ (fun d => x d + e) w, max_eq_left (by exact_mod_cast h0), sub_eq_add_neg, zero_add]

/-- Minus the distance of real data is a real number. -/
theorem neg_dist_real {ι : Type} [Fintype ι] (x w : ι → ℝ) (e : ℝ) :
    ∃ r : ℝ, -(Ideal.sqrt (0 + ∑ d, (((x d : EReal) - (w d : EReal)) + (e : EReal)) * (((x d : EReal) - (w d : EReal)) + (e : EReal))))
      = (r : EReal) := by
  have hR : (∑ d, (((x d : EReal) - (w d : EReal)) + (e : EReal)) * (((x d : EReal) - (w d : EReal)) + (e : EReal)))
      = ((∑ d, ((x d - w d) + e) * ((x d - w d) + e) : ℝ) : EReal) := by
    rw [coe_sum]; exact Finset.sum_congr rfl fun d _ => by norm_cast
  have h0 : 0 ≤ ∑ d, ((x d - w d) + e) * ((x d - w d) + e) := Finset.sum_nonneg fun d _ => mul_self_nonneg _
  exact ⟨-Real.sqrt (∑ d, ((x d - w d) + e) * ((x d - w d) + e)), by
    rw [hR, zero_add, Ideal.sqrt_coe, if_neg (not_lt.mpr h0), EReal.coe_neg]⟩

/-- The running maximum from minus infinity of finitely many reals, over a nonempty range, is a real. -/
theorem fold_max_coe {ι : Type} (t : Finset ι) (ht : t.Nonempty) (s : ι → ℝ) :
    ∃ r : ℝ, t.fold max (⊥ : EReal) (fun k => (s k : EReal)) = (r : EReal) := by
  classical
  induction ht using Finset.Nonempty.cons_induction with
  | singleton a => exact ⟨s a, by simp⟩
  | cons a t ha ht ih =>
    obtain ⟨r, hr⟩ := ih
    exact ⟨max (s a) r, by rw [Finset.fold_cons, hr]; exact (Monotone.map_max EReal.coe_strictMono.monotone).symm⟩

/-- The row maximum and the logarithm of the shifted exponentials' sum are reals. -/
theorem lse_real {b : ℕ} (hb : 0 < b) (s : Fin b → ℝ) :
    ∃ mr lr : ℝ, (Finset.univ.fold max (⊥ : EReal) fun k => (s k : EReal)) = (mr : EReal) ∧
      Ideal.log (∑ k, Ideal.exp ((s k : EReal) - (Finset.univ.fold max (⊥ : EReal) fun k => (s k : EReal)))) = (lr : EReal) := by
  obtain ⟨mr, hm⟩ := fold_max_coe Finset.univ ⟨⟨0, hb⟩, Finset.mem_univ _⟩ s
  refine ⟨mr, Real.log (∑ k, Real.exp (s k - mr)), hm, ?_⟩
  rw [hm]
  have hs : (∑ k, Ideal.exp ((s k : EReal) - (mr : EReal))) = ((∑ k, Real.exp (s k - mr) : ℝ) : EReal) := by
    rw [coe_sum]; exact Finset.sum_congr rfl fun k _ => by rw [← EReal.coe_sub]; rfl
  have hpos : 0 < ∑ k, Real.exp (s k - mr) :=
    Finset.sum_pos (fun k _ => Real.exp_pos _) ⟨⟨0, hb⟩, Finset.mem_univ _⟩
  rw [hs, Ideal.log_coe, if_neg (not_le.mpr hpos)]

/-- A row's loss term at a kept entry, in the two spellings. -/
theorem lse_sub_real (mr lr sq : ℝ) :
    ((mr : EReal) + (lr : EReal)) - (sq : EReal) = -(((sq : EReal) - (mr : EReal)) - (lr : EReal)) := by
  rw [← EReal.coe_add, ← EReal.coe_sub, ← EReal.coe_sub, ← EReal.coe_sub, ← EReal.coe_neg]
  exact congrArg _ (by ring)

/-- A row's loss term at an entry replaced by ⊥. -/
theorem lse_sub_bot (mr lr : ℝ) : ((mr : EReal) + (lr : EReal)) - (⊥ : EReal) = -(⊥ : EReal) := by
  rw [← EReal.coe_add, EReal.coe_sub_bot, EReal.neg_bot]

/-- A finite sum with no ⊤ summand is not ⊤. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- The negation of a finite sum with no ⊤ summand is the sum of the negations. -/
theorem neg_sum {ι : Type} (s : Finset ι) (f : ι → EReal) (h : ∀ i ∈ s, f i ≠ ⊤) : -(∑ i ∈ s, f i) = ∑ i ∈ s, -f i := by
  classical
  induction s using Finset.induction_on with
  | empty => simp
  | insert a s ha ih =>
    have hs : ∀ i ∈ s, f i ≠ ⊤ := fun i hi => h i (Finset.mem_insert_of_mem hi)
    rw [Finset.sum_insert ha, Finset.sum_insert ha,
      EReal.neg_add (Or.inr (sum_ne_top s f hs)) (Or.inl (h a (Finset.mem_insert_self a s))), sub_eq_add_neg, ih hs]

/-- The mean of the negated terms is minus the mean. -/
theorem mean_neg {ι : Type} [Fintype ι] (tK tR : ι → EReal) (h : ∀ j, tK j = -tR j) (hR : ∀ j, tR j ≠ ⊤) {c : ℝ}
    (hc : c ≠ 0) : Ideal.div (0 + ∑ j, tK j) (c : EReal) = -(Ideal.div (0 + ∑ j, tR j) (c : EReal)) := by
  rw [zero_add, zero_add, Ideal.div_coe hc, Ideal.div_coe hc, ← EReal.neg_mul, neg_sum _ _ fun j _ => hR j]
  exact congrArg (· * _) (Finset.sum_congr rfl fun j _ => h j)

end Cert.LibDistanceLoss

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«163586_j52982716564146_2_alg».proof.Proof.LibColumn
import proofs.«163586_j52982716564146_2_alg».proof.Proof.LibLastAxis
import proofs.«163586_j52982716564146_2_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.BridgeKL.lean ====
/-
  The distillation term of the two programs agrees on real logits.

  Per row, with a = (teacher row)/4 and b = (student row)/4, the kernel holds, after its tenth tile, the real numbers

      A_a = Σ e^(a-μ) a,   A_b = Σ e^(a-μ) b,   Z_a = Σ e^(a-μ),   Z_b = Σ e^(b-ν)

  for the real shifts μ (its running maximum of the scaled teacher tiles) and ν (its running maximum of the student
  tiles, scaled), and writes  (A_a / Z_a - (μ + log Z_a)) - (A_b / Z_a - (ν + log Z_b)).  The reference forms the two
  log-softmax rows  tlp = (a - M) - log Σ e^(a-M),  slp = (b - N) - log Σ e^(b-N)  at its own real shifts and sums
  e^tlp (tlp - slp) over the row.  Neither expression depends on its shifts: μ + log Σ e^(x-μ) is the same real for
  every real μ.  With L_a, L_b these two log-sum-exps,  e^tlp = e^(a-μ)/Z_a,  and the row's sum is
  A_a / Z_a - A_b / Z_a - (L_a - L_b), the kernel's value.  The ten tiles of 3200 lanes are the row's 32000 lanes
  read in order, lane k of tile j being lane 3200 j + k.
-/
import Mathlib
import Idealize.ShloMosaic.PureOps.Ideal
import Idealize.ShloMosaic.PureOps.Ideal.Laws
import Idealize.ShloMosaic.PureOps
import Idealize.ShloMosaic.Lib.ValueIdx
import Idealize.ShloMosaic.Lib.Pipeline.Value
import proofs.«163586_j52982716564146_2_alg».proof.Proof.Spec
import proofs.«163586_j52982716564146_2_alg».proof.Proof.Consts
import proofs.«163586_j52982716564146_2_alg».proof.Proof.LibOnlineSoftmax
import proofs.«163586_j52982716564146_2_alg».proof.Proof.LibOnlineE
import proofs.«163586_j52982716564146_2_alg».proof.Proof.LibDistanceLoss
import proofs.«163586_j52982716564146_2_alg».proof.Proof.LibLogSoftmax
import proofs.«163586_j52982716564146_2_alg».proof.Proof.LibBlockSum

noncomputable section

namespace Cert.BridgeKL

open Idealize.ShloMosaic Idealize.ShloMosaic.ValueIdx

/-! ## Real identities over a finite nonempty index set -/

section Real

variable {ι : Type} [Fintype ι] [Nonempty ι]

theorem sumexp_pos (x : ι → ℝ) (μ : ℝ) : 0 < ∑ d, Real.exp (x d - μ) :=
  Finset.sum_pos (fun d _ => Real.exp_pos _) Finset.univ_nonempty

/-- Moving the shift of an exponential sum: Σ e^(x-M) c = e^(μ-M) Σ e^(x-μ) c. -/
theorem sumexp_shift (x c : ι → ℝ) (μ M : ℝ) :
    ∑ d, Real.exp (x d - M) * c d = Real.exp (μ - M) * ∑ d, Real.exp (x d - μ) * c d := by
  rw [Finset.mul_sum]
  refine Finset.sum_congr rfl fun d _ => ?_
  rw [← mul_assoc, ← Real.exp_add]
  have h : μ - M + (x d - μ) = x d - M := by ring
  rw [h]

/-- The log-sum-exp does not depend on the shift. -/
theorem lse_shift (x : ι → ℝ) (μ M : ℝ) :
    M + Real.log (∑ d, Real.exp (x d - M)) = μ + Real.log (∑ d, Real.exp (x d - μ)) := by
  have h := sumexp_shift x (fun _ => 1) μ M
  simp only [mul_one] at h
  rw [h, Real.log_mul (Real.exp_pos _).ne' (sumexp_pos x μ).ne', Real.log_exp]
  ring

/-- The row identity: the sum over the row of e^tlp (tlp - slp), the two log-softmax rows taken at any real shifts
    M, N, is the value assembled from the sums at any other real shifts μ, ν. -/
theorem row_identity (a b : ι → ℝ) (μ ν M N : ℝ) :
    ((∑ d, Real.exp (a d - μ) * a d) * (1 / ∑ d, Real.exp (a d - μ)) - (μ + Real.log (∑ d, Real.exp (a d - μ))))
      - ((∑ d, Real.exp (a d - μ) * b d) * (1 / ∑ d, Real.exp (a d - μ)) - (ν + Real.log (∑ d, Real.exp (b d - ν))))
    = ∑ d, Real.exp ((a d - M) - Real.log (∑ e, Real.exp (a e - M)))
        * (((a d - M) - Real.log (∑ e, Real.exp (a e - M))) - ((b d - N) - Real.log (∑ e, Real.exp (b e - N)))) := by
  have hZ : 0 < ∑ d, Real.exp (a d - μ) := sumexp_pos a μ
  have hLa := lse_shift a μ M
  have hLb := lse_shift b ν N
  set Z := ∑ d, Real.exp (a d - μ) with hZdef
  set La := μ + Real.log Z with hLadef
  set Lb := ν + Real.log (∑ d, Real.exp (b d - ν)) with hLbdef
  have e1 : ∀ d, (a d - M) - Real.log (∑ e, Real.exp (a e - M)) = a d - La := fun d => by rw [← hLa]; ring
  have e2 : ∀ d, (b d - N) - Real.log (∑ e, Real.exp (b e - N)) = b d - Lb := fun d => by rw [← hLb]; ring
  have e3 : ∀ d, Real.exp (a d - La) = Real.exp (a d - μ) * (1 / Z) := fun d => by
    have : a d - La = (a d - μ) - Real.log Z := by rw [hLadef]; ring
    rw [this, Real.exp_sub, Real.exp_log hZ]; ring
  have hR : ∑ d, Real.exp ((a d - M) - Real.log (∑ e, Real.exp (a e - M)))
        * (((a d - M) - Real.log (∑ e, Real.exp (a e - M))) - ((b d - N) - Real.log (∑ e, Real.exp (b e - N))))
      = ∑ d, ((Real.exp (a d - μ) * a d) * (1 / Z) - (Real.exp (a d - μ) * b d) * (1 / Z)
          - Real.exp (a d - μ) * ((1 / Z) * (La - Lb))) :=
    Finset.sum_congr rfl fun d _ => by rw [e1 d, e2 d, e3 d]; ring
  rw [hR, Finset.sum_sub_distrib, Finset.sum_sub_distrib, ← Finset.sum_mul, ← Finset.sum_mul, ← Finset.sum_mul, ← hZdef]
  field_simp
  ring

end Real

/-! ## The ten tiles of a row are the row -/

/-- Lane `k` of tile `j`, as a lane of the row. -/
def lane (j : ℕ) (k : Fin 3200) : Fin 32000 := ⟨(3200 * j + k.val) % 32000, Nat.mod_lt _ (by norm_num)⟩

/-- A sum over the ten tiles' lanes is the sum over the row. -/
theorem sum_tiles {M : Type*} [AddCommMonoid M] (f : Fin 32000 → M) :
    ∑ j ∈ Finset.range 10, ∑ k : Fin 3200, f (lane j k) = ∑ d : Fin 32000, f d := by
  rw [Finset.sum_range]
  have h := Cert.Lib.BlockSum.sum_fin_mul_fin 10 3200 (f : Fin (10 * 3200) → M)
  refine Eq.trans ?_ h.symm
  refine Finset.sum_congr rfl fun s _ => Finset.sum_congr rfl fun k _ => congrArg f (Fin.ext ?_)
  show (3200 * s.val + k.val) % 32000 = k.val + 3200 * s.val
  have h1 := s.isLt
  have h2 := k.isLt
  rw [Nat.mod_eq_of_lt (by omega)]
  omega

/-! ## The kernel's running quantities after the tenth tile, on real rows -/

/-- The weighted sum after ten tiles, the running shift being the real `μ`. -/
theorem aE_real (xE vE : ℕ → Fin 3200 → EReal) (bmE : ℕ → EReal) (x v : Fin 32000 → ℝ) (β : ℕ → ℝ) (μ : ℝ)
    (hx : ∀ j k, xE j k = ((x (lane j k) : ℝ) : EReal)) (hv : ∀ j k, vE j k = ((v (lane j k) : ℝ) : EReal))
    (hb : ∀ j, bmE j = ((β j : ℝ) : EReal)) (hμ : OnlineSoftmax.m β (9 + 1) = (μ : EReal)) :
    OnlineE.aE xE vE bmE 10 = ((∑ d, Real.exp (x d - μ) * v d : ℝ) : EReal) := by
  have h1 : OnlineE.aE xE vE bmE 10
      = OnlineSoftmax.a (fun j k => x (lane j k)) (fun j k => v (lane j k)) β (9 + 1) :=
    OnlineE.aE_eq _ _ β xE vE bmE 10 (fun j _ k => hx j k) (fun j _ k => hv j k) (fun j _ => hb j)
  rw [h1, OnlineSoftmax.a_closed _ _ β 9 μ hμ]
  exact congrArg _ (sum_tiles (fun d => Real.exp (x d - μ) * v d))

/-- The denominator after ten tiles. -/
theorem lE_real (xE : ℕ → Fin 3200 → EReal) (bmE : ℕ → EReal) (x : Fin 32000 → ℝ) (β : ℕ → ℝ) (μ : ℝ)
    (hx : ∀ j k, xE j k = ((x (lane j k) : ℝ) : EReal))
    (hb : ∀ j, bmE j = ((β j : ℝ) : EReal)) (hμ : OnlineSoftmax.m β (9 + 1) = (μ : EReal)) :
    OnlineE.lE xE bmE 10 = ((∑ d, Real.exp (x d - μ) : ℝ) : EReal) := by
  have h1 : OnlineE.lE xE bmE 10 = OnlineSoftmax.l (fun j k => x (lane j k)) β (9 + 1) :=
    OnlineE.lE_eq _ β xE bmE 10 (fun j _ k => hx j k) (fun j _ => hb j)
  rw [h1, OnlineSoftmax.l_eq_a, OnlineSoftmax.a_closed _ _ β 9 μ hμ]
  refine congrArg _ ?_
  simp only [mul_one]
  exact sum_tiles (fun d => Real.exp (x d - μ))

/-- The scale one quarter. -/
theorem qE_eq : Cert.Spec.qE = ((1 / 4 : ℝ) : EReal) := Cert.Consts.ofBits_quarter

/-- A scaled real tile entry. -/
theorem scl_coe (x : ℕ → Fin 3200 → EReal) (g : Fin 32000 → ℝ) (hx : ∀ j k, x j k = ((g (lane j k) : ℝ) : EReal))
    (j : ℕ) (k : Fin 3200) : Cert.Spec.scl x j k = ((g (lane j k) * (1 / 4) : ℝ) : EReal) := by
  show x j k * Cert.Spec.qE = _
  rw [hx, qE_eq, ← EReal.coe_mul]

/-- A real tile's own maximum is real. -/
theorem tmax_real (x : ℕ → Fin 3200 → EReal) (r : ℕ → Fin 3200 → ℝ) (hx : ∀ j k, x j k = ((r j k : ℝ) : EReal)) (j : ℕ) :
    ∃ β : ℝ, Cert.Spec.tmax x j = (β : EReal) := by
  obtain ⟨β, hβ⟩ := Cert.LibDistanceLoss.fold_max_coe (Finset.univ : Finset (Fin 3200)) ⟨0, Finset.mem_univ _⟩ (r j)
  refine ⟨β, ?_⟩
  show (Finset.univ : Finset (Fin 3200)).fold max (Ideal.ofBits .f32 0xFF800000#32) (fun k => x j k) = _
  rw [Cert.Consts.ofBits_neg_inf, ← hβ]
  exact congrArg (fun f => Finset.fold max (⊥ : EReal) f Finset.univ) (funext fun k => hx j k)

/-- The denominator of the scaled scores whose shift is the scaled running maximum of the unscaled ones: after
    `j + 1` tiles, that running maximum being the real `ν`, it is the real Σ e^(r/4 - ν/4) over the tiles met. -/
theorem lQ_closed (x : ℕ → Fin 3200 → EReal) (bm : ℕ → EReal) (r : ℕ → Fin 3200 → ℝ) (β : ℕ → ℝ)
    (hx : ∀ j k, x j k = ((r j k : ℝ) : EReal)) (hb : ∀ j, bm j = ((β j : ℝ) : EReal)) (j : ℕ) :
    ∀ ν : ℝ, OnlineE.mE bm (j + 1) = (ν : EReal) →
      Cert.Spec.lQ x bm (j + 1)
        = ((∑ i ∈ Finset.range (j + 1), ∑ k : Fin 3200, Real.exp (r i k * (1 / 4) - ν * (1 / 4)) * 1 : ℝ) : EReal) := by
  induction j with
  | zero =>
    intro ν hν
    show Ideal.exp ((OnlineE.mE bm 0 - OnlineE.mE bm 1) * Cert.Spec.qE) * (0 : EReal)
        + ∑ k : Fin 3200, Ideal.exp (x 0 k * Cert.Spec.qE - OnlineE.mE bm 1 * Cert.Spec.qE) = _
    rw [hν, mul_zero, zero_add, Finset.sum_range_one, OnlineSoftmax.coe_sum]
    refine Finset.sum_congr rfl fun k _ => ?_
    rw [hx, qE_eq, ← EReal.coe_mul, ← EReal.coe_mul, ← EReal.coe_sub, Ideal.exp_coe, mul_one]
  | succ j ih =>
    intro ν' hν'
    have hm : OnlineE.mE bm (j + 1) = OnlineSoftmax.m β (j + 1) := OnlineE.mE_eq β bm (j + 1) fun i _ => hb i
    obtain ⟨ν, hν0⟩ := OnlineSoftmax.m_real β j
    have hν : OnlineE.mE bm (j + 1) = (ν : EReal) := hm.trans hν0
    show Ideal.exp ((OnlineE.mE bm (j + 1) - OnlineE.mE bm (j + 1 + 1)) * Cert.Spec.qE) * Cert.Spec.lQ x bm (j + 1)
        + ∑ k : Fin 3200, Ideal.exp (x (j + 1) k * Cert.Spec.qE - OnlineE.mE bm (j + 1 + 1) * Cert.Spec.qE) = _
    have hblock : ∑ k : Fin 3200, Ideal.exp (x (j + 1) k * Cert.Spec.qE - OnlineE.mE bm (j + 1 + 1) * Cert.Spec.qE)
        = ((∑ k : Fin 3200, Real.exp (r (j + 1) k * (1 / 4) - ν' * (1 / 4)) * 1 : ℝ) : EReal) := by
      rw [OnlineSoftmax.coe_sum]
      refine Finset.sum_congr rfl fun k _ => ?_
      rw [hx, hν', qE_eq, ← EReal.coe_mul, ← EReal.coe_mul, ← EReal.coe_sub, Ideal.exp_coe, mul_one]
    rw [hblock, ih ν hν, hν, hν', qE_eq, ← EReal.coe_sub, ← EReal.coe_mul, Ideal.exp_coe, ← EReal.coe_mul, ← EReal.coe_add]
    have hresc := OnlineSoftmax.rescale (fun i k => r i k * (1 / 4)) (fun _ _ => 1) (Finset.range (j + 1))
      (ν * (1 / 4)) (ν' * (1 / 4))
    have hexp : (ν - ν') * (1 / 4) = ν * (1 / 4) - ν' * (1 / 4) := by ring
    rw [hexp, hresc, Finset.sum_range_succ _ (j + 1)]

/-- The kernel's value for a row from its four sums at the shifts μ, ν. -/
def kernelRow (a b : Fin 32000 → ℝ) (μ ν : ℝ) : ℝ :=
  ((∑ d, Real.exp (a d - μ) * a d) * (1 / ∑ d, Real.exp (a d - μ)) - (μ + Real.log (∑ d, Real.exp (a d - μ))))
    - ((∑ d, Real.exp (a d - μ) * b d) * (1 / ∑ d, Real.exp (a d - μ)) - (ν + Real.log (∑ d, Real.exp (b d - ν))))

/-- A row's Kullback-Leibler term as the kernel writes it, on real rows. -/
theorem klRow_real (xs xt : ℕ → Fin 3200 → EReal) (s t : Fin 32000 → ℝ)
    (hs : ∀ j k, xs j k = ((s (lane j k) : ℝ) : EReal)) (ht : ∀ j k, xt j k = ((t (lane j k) : ℝ) : EReal)) :
    ∃ μ ν : ℝ, Cert.Spec.klRow xs xt
      = ((kernelRow (fun d => t d * (1 / 4)) (fun d => s d * (1 / 4)) μ ν : ℝ) : EReal) := by
  have hsclT : ∀ j k, Cert.Spec.scl xt j k = (((fun d => t d * (1 / 4)) (lane j k) : ℝ) : EReal) := scl_coe xt t ht
  have hsclS : ∀ j k, Cert.Spec.scl xs j k = (((fun d => s d * (1 / 4)) (lane j k) : ℝ) : EReal) := scl_coe xs s hs
  choose βT hβT using tmax_real (Cert.Spec.scl xt) (fun j k => t (lane j k) * (1 / 4)) (scl_coe xt t ht)
  choose βS hβS using tmax_real xs (fun j k => s (lane j k)) hs
  obtain ⟨μ, hμ⟩ := OnlineSoftmax.m_real βT 9
  obtain ⟨ν, hν⟩ := OnlineSoftmax.m_real βS 9
  have hmT : Cert.Spec.mT xt 10 = (μ : EReal) :=
    (OnlineE.mE_eq βT (Cert.Spec.tmax (Cert.Spec.scl xt)) 10 fun j _ => hβT j).trans hμ
  have hmS : Cert.Spec.mS xs 10 = (ν : EReal) := (OnlineE.mE_eq βS (Cert.Spec.tmax xs) 10 fun j _ => hβS j).trans hν
  have hlT : Cert.Spec.lT xt 10 = ((∑ d, Real.exp (t d * (1 / 4) - μ) : ℝ) : EReal) :=
    lE_real (Cert.Spec.scl xt) (Cert.Spec.tmax (Cert.Spec.scl xt)) (fun d => t d * (1 / 4)) βT μ hsclT hβT hμ
  have hATT : Cert.Spec.aTT xt 10 = ((∑ d, Real.exp (t d * (1 / 4) - μ) * (t d * (1 / 4)) : ℝ) : EReal) :=
    aE_real (Cert.Spec.scl xt) (Cert.Spec.scl xt) (Cert.Spec.tmax (Cert.Spec.scl xt)) (fun d => t d * (1 / 4))
      (fun d => t d * (1 / 4)) βT μ hsclT hsclT hβT hμ
  have hATS : Cert.Spec.aTS xs xt 10 = ((∑ d, Real.exp (t d * (1 / 4) - μ) * (s d * (1 / 4)) : ℝ) : EReal) :=
    aE_real (Cert.Spec.scl xt) (Cert.Spec.scl xs) (Cert.Spec.tmax (Cert.Spec.scl xt)) (fun d => t d * (1 / 4))
      (fun d => s d * (1 / 4)) βT μ hsclT hsclS hβT hμ
  have hlSq : Cert.Spec.lSq xs 10 = ((∑ d, Real.exp (s d * (1 / 4) - ν * (1 / 4)) : ℝ) : EReal) := by
    have h1 : Cert.Spec.lSq xs 10 = Cert.Spec.lQ xs (Cert.Spec.tmax xs) (9 + 1) := rfl
    rw [h1, lQ_closed xs (Cert.Spec.tmax xs) (fun j k => s (lane j k)) βS hs hβS 9 ν hmS]
    refine congrArg _ ?_
    simp only [mul_one]
    exact sum_tiles (fun d => Real.exp (s d * (1 / 4) - ν * (1 / 4)))
  have hZT : 0 < ∑ d, Real.exp (t d * (1 / 4) - μ) := sumexp_pos (fun d => t d * (1 / 4)) μ
  have hZS : 0 < ∑ d, Real.exp (s d * (1 / 4) - ν * (1 / 4)) := sumexp_pos (fun d => s d * (1 / 4)) (ν * (1 / 4))
  refine ⟨μ, ν * (1 / 4), ?_⟩
  show (Ideal.div (Cert.Spec.aTT xt 10) (Cert.Spec.lT xt 10) - (Cert.Spec.mT xt 10 + Ideal.log (Cert.Spec.lT xt 10)))
      - (Ideal.div (Cert.Spec.aTS xs xt 10) (Cert.Spec.lT xt 10)
        - (Cert.Spec.mS xs 10 * Cert.Spec.qE + Ideal.log (Cert.Spec.lSq xs 10))) = _
  rw [hATT, hATS, hlT, hmT, hmS, hlSq, qE_eq, Ideal.div_coe hZT.ne', Ideal.div_coe hZT.ne', Ideal.log_coe, Ideal.log_coe,
    if_neg (not_le.mpr hZT), if_neg (not_le.mpr hZS), ← EReal.coe_mul, ← EReal.coe_mul, ← EReal.coe_mul, ← EReal.coe_add,
    ← EReal.coe_add, ← EReal.coe_sub, ← EReal.coe_sub, ← EReal.coe_sub]
  rfl

/-! ## The reference's rows -/

/-- A log-softmax entry of a real row at the real shift `M`. -/
def lsm (x : Fin 32000 → ℝ) (M : ℝ) (q : Fin 32000) : ℝ := (x q - M) - Real.log (∑ d, Real.exp (x d - M))

/-- The host's log-softmax entry, the shift being the fold of `max` from minus infinity, on a real row: the real
    log-softmax entry at a real shift. -/
theorem lsm_coe (x : Fin 32000 → ℝ) :
    ∃ M : ℝ, ∀ q : Fin 32000,
      ((x q : EReal) - (Finset.univ : Finset (Fin 32000)).fold max (Ideal.ofBits .f32 0xFF800000#32) fun d => (x d : EReal))
        - Ideal.log (∑ d : Fin 32000, Ideal.exp ((x d : EReal)
            - (Finset.univ : Finset (Fin 32000)).fold max (Ideal.ofBits .f32 0xFF800000#32) fun d => (x d : EReal)))
      = ((lsm x M q : ℝ) : EReal) := by
  obtain ⟨M, hM⟩ := Cert.LibDistanceLoss.fold_max_coe (Finset.univ : Finset (Fin 32000)) ⟨0, Finset.mem_univ _⟩ x
  refine ⟨M, fun q => ?_⟩
  have hpos : 0 < ∑ d, Real.exp (x d - M) := sumexp_pos x M
  have hsum : (∑ d : Fin 32000, Ideal.exp ((x d : EReal) - (M : EReal))) = ((∑ d, Real.exp (x d - M) : ℝ) : EReal) := by
    rw [OnlineSoftmax.coe_sum]
    exact Finset.sum_congr rfl fun d _ => by rw [← EReal.coe_sub, Ideal.exp_coe]
  rw [Cert.Consts.ofBits_neg_inf, hM, hsum, Ideal.log_coe, if_neg (not_le.mpr hpos), ← EReal.coe_sub, ← EReal.coe_sub]
  rfl

variable (h : Cert.Spec.Facts)

/-- A real matrix divided by four, at an entry. -/
theorem byFour_apply (X : FVec Ideal Cert.Spec.SNV .f32) (x : Fin 4096 → Fin 32000 → ℝ)
    (hX : ∀ p q, X (ix2 p q) = ((x p q : ℝ) : EReal)) (p : Fin 4096) (q : Fin 32000) :
    Cert.Spec.byFour h X (ix2 p q) = ((x p q * (1 / 4) : ℝ) : EReal) := by
  show Ideal.div (X (ix2 p q))
    (broadcastInDim Cert.Spec.SNV ![] h.b0_NV (constant (F := Ideal) Cert.Spec.S0 .f32 0x40800000#32) (ix2 p q)) = _
  rw [broadcastInDim_apply _ h.b0_NV _ (ix2 p q) ix0 (fun ax => ax.elim0)]
  show Ideal.div _ (Ideal.ofBits .f32 0x40800000#32) = _
  rw [Cert.Consts.ofBits_four, Ideal.div_coe (by norm_num), hX, ← EReal.coe_mul]

/-- The host's log-softmax of a real matrix, along a row: the real log-softmax entries at one real shift. -/
theorem logSoftmax_real (X : FVec Ideal Cert.Spec.SNV .f32) (x : Fin 4096 → Fin 32000 → ℝ)
    (hX : ∀ p q, X (ix2 p q) = ((x p q : ℝ) : EReal)) (p : Fin 4096) :
    ∃ M : ℝ, ∀ q, Cert.Spec.logSoftmax h X (ix2 p q) = ((lsm (x p) M q : ℝ) : EReal) := by
  obtain ⟨M, hM⟩ := lsm_coe (x p)
  refine ⟨M, fun q => ?_⟩
  have hr : Cert.Spec.SNV.Reduces [1] Cert.Spec.SN := ⟨h.r_NV_N.1, Nat.one_pos, h.r_NV_N.2⟩
  have e := Cert.LibLogSoftmax.host_apply X h.r_NV_N hr h.h0 h.b0_N h.bN_N1 h.bN1_NV p q
  refine (e.trans ?_).trans (hM q)
  simp only [hX]

/-- The reference's value for a row: the sum over the row of e^tlp (tlp - slp). -/
def refRow (a b : Fin 32000 → ℝ) (M N : ℝ) : ℝ := ∑ d, Real.exp (lsm a M d) * (lsm a M d - lsm b N d)

/-- The kernel's value of a row is the reference's, whatever the four shifts. -/
theorem kernelRow_eq_refRow (a b : Fin 32000 → ℝ) (μ ν M N : ℝ) : kernelRow a b μ ν = refRow a b M N :=
  row_identity a b μ ν M N

/-- The reference's summands along a row of real matrices. -/
theorem ref_row_real (S T : FVec Ideal Cert.Spec.SNV .f32) (s t : Fin 4096 → Fin 32000 → ℝ)
    (hS : ∀ p q, S (ix2 p q) = ((s p q : ℝ) : EReal)) (hT : ∀ p q, T (ix2 p q) = ((t p q : ℝ) : EReal)) (p : Fin 4096) :
    ∃ M N : ℝ, ∑ q : Fin 32000,
        mulf (Host.exp (Cert.Spec.logSoftmax h (Cert.Spec.byFour h T)))
          (subf (Cert.Spec.logSoftmax h (Cert.Spec.byFour h T)) (Cert.Spec.logSoftmax h (Cert.Spec.byFour h S))) (ix2 p q)
      = ((refRow (fun d => t p d * (1 / 4)) (fun d => s p d * (1 / 4)) M N : ℝ) : EReal) := by
  obtain ⟨M, hM⟩ := logSoftmax_real h (Cert.Spec.byFour h T) (fun p q => t p q * (1 / 4)) (byFour_apply h T t hT) p
  obtain ⟨N, hN⟩ := logSoftmax_real h (Cert.Spec.byFour h S) (fun p q => s p q * (1 / 4)) (byFour_apply h S s hS) p
  refine ⟨M, N, ?_⟩
  unfold refRow
  rw [OnlineSoftmax.coe_sum]
  refine Finset.sum_congr rfl fun q _ => ?_
  show Ideal.exp (Cert.Spec.logSoftmax h (Cert.Spec.byFour h T) (ix2 p q))
      * (Cert.Spec.logSoftmax h (Cert.Spec.byFour h T) (ix2 p q) - Cert.Spec.logSoftmax h (Cert.Spec.byFour h S) (ix2 p q)) = _
  rw [hM q, hN q, Ideal.exp_coe, ← EReal.coe_sub, ← EReal.coe_mul]

/-! ## The two totals -/

/-- A row of the kernel's array is the reference's row sum. -/
theorem row_eq (S T : FVec Ideal Cert.Spec.SNV .f32) (s t : Fin 4096 → Fin 32000 → ℝ)
    (hS : ∀ p q, S (ix2 p q) = ((s p q : ℝ) : EReal)) (hT : ∀ p q, T (ix2 p q) = ((t p q : ℝ) : EReal)) (p : Fin 4096) :
    Cert.Spec.klRow (Cert.Spec.tile S p) (Cert.Spec.tile T p)
      = ∑ q : Fin 32000,
        mulf (Host.exp (Cert.Spec.logSoftmax h (Cert.Spec.byFour h T)))
          (subf (Cert.Spec.logSoftmax h (Cert.Spec.byFour h T)) (Cert.Spec.logSoftmax h (Cert.Spec.byFour h S))) (ix2 p q) := by
  obtain ⟨μ, ν, hK⟩ := klRow_real (Cert.Spec.tile S p) (Cert.Spec.tile T p) (s p) (t p)
    (fun j k => hS p (lane j k)) (fun j k => hT p (lane j k))
  obtain ⟨M, N, hR⟩ := ref_row_real h S T s t hS hT p
  rw [hK, hR, kernelRow_eq_refRow _ _ μ ν M N]

theorem distill_eq (S T : FVec Ideal Cert.Spec.SNV .f32)
    (hS : ∀ i, ∃ r : ℝ, S i = (r : EReal)) (hT : ∀ i, ∃ r : ℝ, T i = (r : EReal)) :
    Cert.Spec.kDistill h (Cert.Spec.KL S T) = Cert.Spec.rDistill h S T := by
  choose s0 hs0 using hS
  choose t0 ht0 using hT
  have hS' : ∀ p q, S (ix2 p q) = (((fun p q => s0 (ix2 p q)) p q : ℝ) : EReal) := fun p q => hs0 (ix2 p q)
  have hT' : ∀ p q, T (ix2 p q) = (((fun p q => t0 (ix2 p q)) p q : ℝ) : EReal) := fun p q => ht0 (ix2 p q)
  have key : Host.reduceAdd (Cert.Spec.KL S T) (constant (F := Ideal) Cert.Spec.S0 .f32 0x00000000#32) h.r_N1_0 h.h0
      = Host.reduceAdd
          (mulf (Host.exp (Cert.Spec.logSoftmax h (Cert.Spec.byFour h T)))
            (subf (Cert.Spec.logSoftmax h (Cert.Spec.byFour h T)) (Cert.Spec.logSoftmax h (Cert.Spec.byFour h S))))
          (constant (F := Ideal) Cert.Spec.S0 .f32 0x00000000#32) h.r_NV_0 h.h0 := by
    funext i
    simp only [Host.reduceAdd, Ideal.hostReduceAdd_def]
    rw [Ideal.hostReduceAdd_total h.r_N1_0 (fun b => b.elim0), Ideal.hostReduceAdd_total h.r_NV_0 (fun b => b.elim0),
      sum_idx2, sum_idx2]
    refine congrArg (_ + ·) (Finset.sum_congr rfl fun p _ => ?_)
    rw [Fin.sum_univ_one]
    exact row_eq h S T _ _ hS' hT' p
  unfold Cert.Spec.kDistill Cert.Spec.rDistill
  rw [key]

end Cert.BridgeKL

end
-- ==== Proof.BridgeCE.lean ====
/-
  The cross-entropy part of the two programs agrees: the kernel's per-row log-sum-exp, accumulated tile by tile with
  a running maximum, minus the label's logit, is minus the label's entry of the reference's row-wise log-softmax.

  Neither closed form depends on the shift: for a real row s and any real shift c,
      c + log Σ_d exp (s_d − c)
  is the same number. So the kernel's running maximum and the reference's row maximum are never compared; it is
  enough that both are real numbers. The ten tiles of 3200 lanes cover the 32000 entries of a row once each, entry
  3200·j + k being lane k of tile j.
-/
import Mathlib
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«163586_j52982716564146_2_alg».proof.Proof.Spec
import proofs.«163586_j52982716564146_2_alg».proof.Proof.Consts
import proofs.«163586_j52982716564146_2_alg».proof.Proof.LibOnlineSoftmax
import proofs.«163586_j52982716564146_2_alg».proof.Proof.LibOnlineE
import proofs.«163586_j52982716564146_2_alg».proof.Proof.LibDistanceLoss
import proofs.«163586_j52982716564146_2_alg».proof.Proof.LibAlongAxis
import proofs.«163586_j52982716564146_2_alg».proof.Proof.LibLogSoftmax
import proofs.«163586_j52982716564146_2_alg».proof.Proof.LibBlockSum

noncomputable section

namespace Cert.BridgeCE

open Idealize.ShloMosaic Idealize.ShloMosaic.ValueIdx

/-! ## Real rows: tiles, and the shift that does not matter -/

/-- Lane `k` of tile `j` of a real row of 32000 entries. -/
def rtile (s : Fin 32000 → ℝ) (j : ℕ) (k : Fin 3200) : ℝ :=
  s ⟨(3200 * j + k.val) % 32000, Nat.mod_lt _ (by norm_num)⟩

/-- A sum over ten tiles of 3200 lanes is the sum over the row. -/
theorem sum_tiles (s : Fin 32000 → ℝ) (g : ℝ → ℝ) :
    ∑ j ∈ Finset.range 10, ∑ k : Fin 3200, g (rtile s j k) = ∑ d : Fin 32000, g (s d) := by
  rw [Finset.sum_range]
  refine Eq.trans ?_ (Cert.Lib.BlockSum.sum_fin_mul_fin 10 3200 (fun d : Fin 32000 => g (s d))).symm
  refine Finset.sum_congr rfl fun j _ => Finset.sum_congr rfl fun k _ => ?_
  refine congrArg g (congrArg s (Fin.ext ?_))
  show (3200 * j.val + k.val) % 32000 = k.val + 3200 * j.val
  have hj := j.isLt
  have hk := k.isLt
  omega

/-- The log-sum-exp of a real row does not depend on the shift. -/
theorem lse_shift (s : Fin 32000 → ℝ) (c M : ℝ) :
    c + Real.log (∑ d, Real.exp (s d - c)) = M + Real.log (∑ d, Real.exp (s d - M)) := by
  have hpos : 0 < ∑ d : Fin 32000, Real.exp (s d - M) :=
    Finset.sum_pos (fun d _ => Real.exp_pos _) ⟨⟨0, by norm_num⟩, Finset.mem_univ _⟩
  have hsum : ∑ d, Real.exp (s d - c) = Real.exp (M - c) * ∑ d, Real.exp (s d - M) := by
    rw [Finset.mul_sum]
    refine Finset.sum_congr rfl fun d _ => ?_
    rw [← Real.exp_add]
    exact congrArg Real.exp (by ring)
  rw [hsum, Real.log_mul (Real.exp_pos _).ne' hpos.ne', Real.log_exp]
  ring

/-! ## A real row on the extended reals -/

/-- A tile's own maximum over real lanes is a real number. -/
theorem tmax_real (xs : ℕ → Fin 3200 → EReal) (sr : ℕ → Fin 3200 → ℝ)
    (hx : ∀ j k, xs j k = ((sr j k : ℝ) : EReal)) (j : ℕ) : ∃ b : ℝ, Cert.Spec.tmax xs j = (b : EReal) := by
  obtain ⟨b, hb⟩ := Cert.LibDistanceLoss.fold_max_coe (Finset.univ : Finset (Fin 3200))
    ⟨⟨0, by norm_num⟩, Finset.mem_univ _⟩ (sr j)
  refine ⟨b, ?_⟩
  unfold Cert.Spec.tmax
  rw [Cert.Consts.ofBits_neg_inf, ← hb]
  exact congrArg (Finset.fold max (⊥ : EReal) · Finset.univ) (funext fun k => hx j k)

/-- What the kernel leaves for a row of real scores: for some real shift `c` (its running maximum), the coercion of
    `c + log Σ exp (s − c)`, the sum over the ten tiles. -/
theorem lseRow_real (xs : ℕ → Fin 3200 → EReal) (sr : ℕ → Fin 3200 → ℝ)
    (hx : ∀ j k, xs j k = ((sr j k : ℝ) : EReal)) :
    ∃ c : ℝ, Cert.Spec.lseRow xs
      = ((c + Real.log (∑ j ∈ Finset.range 10, ∑ k : Fin 3200, Real.exp (sr j k - c)) : ℝ) : EReal) := by
  choose bm hbm using tmax_real xs sr hx
  obtain ⟨c, hc⟩ := OnlineSoftmax.m_real bm 9
  refine ⟨c, ?_⟩
  have hm : Cert.Spec.mS xs 10 = (c : EReal) := by
    unfold Cert.Spec.mS
    rw [OnlineE.mE_eq bm (Cert.Spec.tmax xs) 10 fun j _ => hbm j]
    exact hc
  have hpos : 0 < ∑ j ∈ Finset.range (9 + 1), ∑ k : Fin 3200, Real.exp (sr j k - c) :=
    OnlineSoftmax.sum_exp_pos sr 9 c
  have hl : Cert.Spec.lS xs 10
      = ((∑ j ∈ Finset.range 10, ∑ k : Fin 3200, Real.exp (sr j k - c) : ℝ) : EReal) := by
    unfold Cert.Spec.lS
    rw [OnlineE.lE_eq sr bm xs (Cert.Spec.tmax xs) 10 (fun j _ k => hx j k) (fun j _ => hbm j),
      OnlineSoftmax.l_eq_a, OnlineSoftmax.a_closed sr (fun _ _ => 1) bm 9 c hc]
    simp only [mul_one]
  unfold Cert.Spec.lseRow
  rw [hm, hl, Ideal.log_coe, if_neg (not_le.mpr hpos), ← EReal.coe_add]

/-- The reference's row maximum and log of the shifted exponentials' sum over a row of real scores: a real `M` and
    the coercion of `log Σ exp (s − M)`. -/
theorem ref_real (x : Fin 32000 → EReal) (s : Fin 32000 → ℝ) (hx : ∀ d, x d = ((s d : ℝ) : EReal)) :
    ∃ M : ℝ, ((Finset.univ : Finset (Fin 32000)).fold max (Ideal.ofBits .f32 0xFF800000#32) fun d => x d) = (M : EReal)
      ∧ Ideal.log (∑ d : Fin 32000, Ideal.exp (x d
          - (Finset.univ : Finset (Fin 32000)).fold max (Ideal.ofBits .f32 0xFF800000#32) fun d => x d))
        = ((Real.log (∑ d : Fin 32000, Real.exp (s d - M)) : ℝ) : EReal) := by
  obtain ⟨M, hM⟩ := Cert.LibDistanceLoss.fold_max_coe (Finset.univ : Finset (Fin 32000))
    ⟨⟨0, by norm_num⟩, Finset.mem_univ _⟩ s
  have hfold : ((Finset.univ : Finset (Fin 32000)).fold max (Ideal.ofBits .f32 0xFF800000#32) fun d => x d)
      = (M : EReal) := by
    rw [Cert.Consts.ofBits_neg_inf, ← hM]
    exact congrArg (Finset.fold max (⊥ : EReal) · Finset.univ) (funext fun d => hx d)
  refine ⟨M, hfold, ?_⟩
  have hpos : 0 < ∑ d : Fin 32000, Real.exp (s d - M) :=
    Finset.sum_pos (fun d _ => Real.exp_pos _) ⟨⟨0, by norm_num⟩, Finset.mem_univ _⟩
  have hsum : (∑ d : Fin 32000, Ideal.exp (x d - (M : EReal)))
      = ((∑ d : Fin 32000, Real.exp (s d - M) : ℝ) : EReal) := by
    rw [Cert.LibDistanceLoss.coe_sum]
    refine Finset.sum_congr rfl fun d _ => ?_
    rw [hx d, ← EReal.coe_sub, Ideal.exp_coe]
  rw [hfold, hsum, Ideal.log_coe, if_neg (not_le.mpr hpos)]

/-! ## One row -/

open Cert.Spec in
/-- A row whose label's column is `c`: the kernel's log-sum-exp minus the logit is minus the reference's
    log-softmax entry. -/
theorem row_inside (h : Facts) (S : FVec Ideal SNV .f32) (hS : ∀ i, ∃ r : ℝ, S i = (r : EReal))
    (r : Fin 4096) (c : Fin 32000) :
    lseRow (tile S r) - S (ix2 r c) = -(logSoftmax h S (ix2 r c)) := by
  choose sR hsR using hS
  obtain ⟨cc, hK⟩ := lseRow_real (tile S r) (rtile fun d => sR (ix2 r d)) fun j k => hsR _
  obtain ⟨M, hM, hL⟩ := ref_real (fun d => S (ix2 r d)) (fun d => sR (ix2 r d)) fun d => hsR _
  have hr : (⟨2, ![4096, 32000]⟩ : Shape).Reduces [1] ⟨1, ![4096]⟩ := ⟨h.r_NV_N.1, Nat.one_pos, h.r_NV_N.2⟩
  have hR : logSoftmax h S (ix2 r c)
      = (S (ix2 r c) - (Finset.univ : Finset (Fin 32000)).fold max (Ideal.ofBits .f32 0xFF800000#32) fun d => S (ix2 r d))
        - Ideal.log (∑ d : Fin 32000, Ideal.exp (S (ix2 r d)
            - (Finset.univ : Finset (Fin 32000)).fold max (Ideal.ofBits .f32 0xFF800000#32) fun d => S (ix2 r d))) :=
    Cert.LibLogSoftmax.host_apply S h.r_NV_N hr h.h0 h.b0_N h.bN_N1 h.bN1_NV r c
  rw [hK, hR, hL, hM, hsR (ix2 r c), sum_tiles (fun d => sR (ix2 r d)) fun t => Real.exp (t - cc),
    lse_shift (fun d => sR (ix2 r d)) cc M, EReal.coe_add]
  exact Cert.LibDistanceLoss.lse_sub_real M _ (sR (ix2 r c))

open Cert.Spec in
/-- The entry taken along the row at `(r, 0)`: the matrix entry of row `r` at the column the index word gives where
    the mask bit is set, minus infinity otherwise. -/
theorem takeAlong_apply (h : Facts) (Y : FVec Ideal SNV .f32) (idx : IVec SN1 32) (r : Fin 4096) :
    takeAlong h Y idx (ix2 r 0)
      = Scalar.select (taMask h idx (ix2 r 0))
          (Y (ix2 r (Cert.LibAlongAxis.alongCol h.wf (taIdx h idx) (ix2 r 0)))) (⊥ : EReal) := by
  show Scalar.select (taMask h idx (ix2 r 0))
      (Host.gather (Cert.LibAlongAxis.alongDims 4096 32000 h.wf) Y (taIdx h idx) (ix2 r 0))
      (broadcastInDim SN1 ![] h.b0_N1 (constant (F := Ideal) S0 .f32 0x7FC00000#32) (ix2 r 0)) = _
  rw [Cert.LibAlongAxis.along_apply h.wf Y (taIdx h idx) (ix2 r 0),
    broadcastInDim_apply _ h.b0_N1 _ (ix2 r 0) ix0 (fun ax => ax.elim0)]
  show Scalar.select _ _ (Ideal.ofBits .f32 0x7FC00000#32) = _
  rw [Cert.Consts.ofBits_nan]

open Cert.Spec in
/-- One row's loss term in the two spellings. -/
theorem row_eq (h : Facts) (S : FVec Ideal SNV .f32) (lab : IVec SN 32) (hS : ∀ i, ∃ r : ℝ, S i = (r : EReal))
    (r : Fin 4096) :
    LSE S (ix2 r 0) - takeAlong h S (labCol h lab) (ix2 r 0)
      = -(takeAlong h (logSoftmax h S) (labCol h lab) (ix2 r 0)) := by
  rw [takeAlong_apply, takeAlong_apply]
  show lseRow (tile S r) - _ = _
  by_cases hb : taMask h (labCol h lab) (ix2 r 0) = 1#1
  · rw [hb, select_one, select_one]
    exact row_inside h S hS r _
  · rw [eq_zero_of_ne_one hb, select_zero, select_zero]
    choose sR hsR using hS
    obtain ⟨cc, hK⟩ := lseRow_real (tile S r) (rtile fun d => sR (ix2 r d)) fun j k => hsR _
    rw [hK, EReal.coe_add]
    exact Cert.LibDistanceLoss.lse_sub_bot _ _

/-! ## The two reductions -/

/-- A vector's index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : ℕ} (g : (⟨1, ![n]⟩ : Shape).Idx → EReal) : ∑ j, g j = ∑ a : Fin n, g (ix1 a) := by
  rw [← Equiv.sum_comp (idxEquiv1 (n := n)).symm g]
  rfl

open Cert.Spec in
/-- A sum over the column `[4096, 1]` and a sum over the vector `[4096]` whose terms agree row by row. -/
theorem sum_col_eq_sum_vec (f : SN1.Idx → EReal) (g : SN.Idx → EReal)
    (hfg : ∀ r : Fin 4096, f (ix2 r 0) = g (ix1 r)) : ∑ i, f i = ∑ j, g j := by
  rw [sum_idx2 f, sum_idx1 g]
  refine Finset.sum_congr rfl fun r _ => ?_
  rw [Fin.sum_univ_one]
  exact hfg r

open Cert.Spec in
/-- The validity column at `(r, 0)` is the validity vector at `r`. -/
theorem validCol_apply (h : Facts) (lab : IVec SN 32) (r : Fin 4096) :
    validCol h lab (ix2 r 0) = valid h lab (ix1 r) :=
  Cert.LibLogSoftmax.broadcastInDim_a_a1_apply (valid h lab) h.bN_N1 r 0

open Cert.Spec in
/-- A column `[4096, 1]` cast to a vector `[4096]` reads, at `r`, the column at `(r, 0)`. -/
theorem cast_col_apply (h : Facts) (v : FVec Ideal SN1 .f32) (r : Fin 4096) :
    shapeCast SN v h.c_N1_N (ix1 r) = v (ix2 r 0) :=
  shapeCast_apply v h.c_N1_N (ix1 r) (ix2 r 0) (by
    rw [Shape.rowMajor_val_two, Shape.rowMajor_val_one]
    show r.val * 1 + 0 = r.val
    omega)

/-- A host quotient by a maximum, read at an index. -/
theorem divf_maximumf_apply {s : Shape} (A B C : FVec Ideal s .f32) (i : s.Idx) :
    Host.divf A (maximumf B C) i = Ideal.div (A i) (max (B i) (C i)) := rfl

open Cert.Spec in
/-- THE CROSS-ENTROPY PART: over real student logits the kernel's task loss is the reference's. -/
theorem task_eq (h : Facts) (S : FVec Ideal SNV .f32) (lab : IVec SN 32)
    (hS : ∀ i, ∃ r : ℝ, S i = (r : EReal)) :
    kTask h (LSE S) S lab = rTask h S lab := by
  funext i
  have hnum : Host.reduceAdd (mulf (subf (LSE S) (takeAlong h S (labCol h lab))) (validCol h lab))
        (constant (F := Ideal) S0 .f32 0x00000000#32) h.r_N1_0 h.h0 i
      = Host.reduceAdd
          (mulf (Host.negf (shapeCast SN (takeAlong h (logSoftmax h S) (labCol h lab)) h.c_N1_N)) (valid h lab))
          (constant (F := Ideal) S0 .f32 0x00000000#32) h.r_N_0 h.h0 i := by
    simp only [Host.reduceAdd, Ideal.hostReduceAdd_def]
    rw [Ideal.hostReduceAdd_total h.r_N1_0 (fun b => b.elim0), Ideal.hostReduceAdd_total h.r_N_0 (fun b => b.elim0)]
    refine congrArg (_ + ·) (sum_col_eq_sum_vec _ _ fun r => ?_)
    show (LSE S (ix2 r 0) - takeAlong h S (labCol h lab) (ix2 r 0)) * validCol h lab (ix2 r 0)
      = -(shapeCast SN (takeAlong h (logSoftmax h S) (labCol h lab)) h.c_N1_N (ix1 r)) * valid h lab (ix1 r)
    rw [validCol_apply h lab r, cast_col_apply h _ r, row_eq h S lab hS r]
  have hden : Host.reduceAdd (validCol h lab) (constant (F := Ideal) S0 .f32 0x00000000#32) h.r_N1_0 h.h0 i
      = Host.reduceAdd (valid h lab) (constant (F := Ideal) S0 .f32 0x00000000#32) h.r_N_0 h.h0 i := by
    simp only [Host.reduceAdd, Ideal.hostReduceAdd_def]
    rw [Ideal.hostReduceAdd_total h.r_N1_0 (fun b => b.elim0), Ideal.hostReduceAdd_total h.r_N_0 (fun b => b.elim0)]
    exact congrArg (_ + ·) (sum_col_eq_sum_vec _ _ fun r => validCol_apply h lab r)
  unfold kTask rTask
  rw [divf_maximumf_apply, divf_maximumf_apply, hnum, hden]

end Cert.BridgeCE

end
-- ==== Proof.Finite.lean ====
/-
  The precondition read back: where both "all entries have a finite absolute value" tests answer one, every entry
  of both float arrays is a real number; and a reshape, which only re-indexes, keeps that.

  On the extended reals the absolute value is max x (−x), the comparison is the order, and the pattern compared
  against denotes plus infinity. max x (−x) < ⊤ fails at ⊤ and at ⊥ (where −x = ⊤), so it leaves the reals.
-/
import proofs.«163586_j52982716564146_2_alg».proof.Pre_finite_inputs
import proofs.«163586_j52982716564146_2_alg».proof.Proof.Gen.Pre_finite_inputs
import proofs.«163586_j52982716564146_2_alg».proof.Proof.Spec
import proofs.«163586_j52982716564146_2_alg».proof.Proof.Consts
import Idealize.ShloMosaic.Lib.ReduceAll
import Idealize.ShloMosaic.Lib.Pipeline.Value
import Idealize.ShloMosaic.PureOps.Ideal.Laws

noncomputable section

namespace Cert.Finite

open Idealize.ShloMosaic Idealize.ShloMosaic.ValueIdx

/-- The pattern the entries are compared against denotes plus infinity. -/
theorem ofBits_pos_inf : Ideal.ofBits .f32 0x7F800000#32 = ⊤ := by
  simp [Ideal.ofBits, Ideal.ieee]

/-- An extended real whose absolute value is below plus infinity is a real number. -/
theorem real_of_abs_lt_top (x : EReal) (hx : max x (-x) < ⊤) : ∃ r : ℝ, x = (r : EReal) := by
  induction x using EReal.rec with
  | bot => exact absurd hx (by simp)
  | top => exact absurd hx (by simp)
  | coe r => exact ⟨r, rfl⟩

/-- The element test answering one says the entry is a real number. -/
theorem real_of_test (x : EReal)
    (hx : Ideal.cmp .olt (max x (-x)) (Ideal.ofBits .f32 0x7F800000#32) = 1#1) : ∃ r : ℝ, x = (r : EReal) := by
  rw [ofBits_pos_inf] at hx
  refine real_of_abs_lt_top x ?_
  by_contra hlt
  have h0 : Ideal.cmp .olt (max x (-x)) ⊤ = 0#1 := by
    show BitVec.ofBool (decide (max x (-x) < ⊤)) = 0#1
    rw [decide_eq_false hlt]
    rfl
  rw [h0] at hx
  exact absurd hx (by decide)

/-- The scalar shape has one index. -/
instance : Subsingleton Cert.Pre_finite_inputs.S_.Idx := ⟨fun _ _ => funext fun d => d.elim0⟩

/-- Where the precondition answers one, every entry of both float arrays is a real number. -/
theorem real_of_pre [Cert.Pre_finite_inputs.Facts]
    (x0 x1 : FVec Ideal Cert.Pre_finite_inputs.S4x1024x32000 .f32) (x2 : IVec Cert.Pre_finite_inputs.S4x1024 32)
    (hpre : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun hpre ix0
  dsimp only [Cert.Pre_finite_inputs.fn] at h0
  obtain ⟨ha, hb⟩ := IntOp.andi_eq_one.1 (show IntOp.andi _ _ = 1#1 from h0)
  refine ⟨fun i => ?_, fun i => ?_⟩
  · exact real_of_test (x0 i) (Host.reduce_andi_all _ _ _ _ ix0 ha i)
  · exact real_of_test (x1 i) (Host.reduce_andi_all _ _ _ _ ix0 hb i)

/-- A reshape only re-indexes: every entry of the reshaped array is an entry of the array. -/
theorem real_reshaped {s : Shape} (x : s.Idx → EReal) (hx : ∀ i, ∃ r : ℝ, x i = (r : EReal))
    (hc : s.ShapeCasts Cert.Spec.SNV) : ∀ i, ∃ r : ℝ, shapeCast Cert.Spec.SNV x hc i = (r : EReal) := by
  intro i
  unfold shapeCast
  exact hx _

end Cert.Finite

end
-- ==== Proof.Claims.lean ====
/-
  The claims. The three frames come from the programs' frame runs; the idealization rewrote nothing; and at the ideal
  instance both programs end with the same three losses.

  The kernel's run leaves its two [4096, 1] columns at the rows' Kullback-Leibler terms and log-sum-exps of the online
  recurrence (the induction along the grid, the write-backs at each row block's last tile), and its host lines reduce
  them; the reference's run ends at its composed host term. Under the precondition every logit is a real number, and
  on real rows the online recurrence's closed forms are the log-softmax expressions the reference spells: the
  softmax-weighted sums and the log-sum-exp do not depend on the shift used, and minus infinity stands for a label
  outside the row on both sides.
-/
import proofs.«163586_j52982716564146_2_alg».proof.Defs
import proofs.«163586_j52982716564146_2_alg».proof.Proof.FrameKernelP2
import proofs.«163586_j52982716564146_2_alg».proof.Proof.FrameKernelIdealP2
import proofs.«163586_j52982716564146_2_alg».proof.Proof.RefRunH
import proofs.«163586_j52982716564146_2_alg».proof.Proof.Invariant
import proofs.«163586_j52982716564146_2_alg».proof.Proof.Flush
import proofs.«163586_j52982716564146_2_alg».proof.Proof.KernelTail
import proofs.«163586_j52982716564146_2_alg».proof.Proof.KernelEntry
import proofs.«163586_j52982716564146_2_alg».proof.Proof.RefSide
import proofs.«163586_j52982716564146_2_alg».proof.Proof.BridgeKL
import proofs.«163586_j52982716564146_2_alg».proof.Proof.BridgeCE
import proofs.«163586_j52982716564146_2_alg».proof.Proof.Finite
import proofs.«163586_j52982716564146_2_alg».proof.Proof.Gen.Pre_finite_inputs

set_option maxRecDepth 16384

noncomputable section

open Idealize.ShloMosaic Idealize.ShloMosaic.TcCoe Idealize.SL.Sem

namespace Cert.Proof.Claims

/-- The shape relations the host stages take, from the programs' proved facts. -/
theorem specFacts : Cert.Spec.Facts where
  b0_N1 := Cert.ReferenceIdeal.Facts₀.bcast_S_S4096x1
  b0_N := Cert.ReferenceIdeal.Facts₀.bcast_S_S4096
  b0_NV := Cert.ReferenceIdeal.Facts₀.bcast_S_S4096x32000
  bN_N1 := Cert.ReferenceIdeal.Facts₀.bcast_S4096_S4096x1_0
  bN1_NV := Cert.ReferenceIdeal.Facts₀.bcast_S4096x1_S4096x32000_0_1
  c_N1_N11 := Cert.ReferenceIdeal.Facts₀.shapeCasts_S4096x1_S4096x1x1
  c_N1_N := Cert.ReferenceIdeal.Facts₀.shapeCasts_S4096x1_S4096
  b0_N11 := Cert.ReferenceIdeal.Facts₀.bcast_S_S4096x1x1
  b1_111 := Cert.ReferenceIdeal.Facts₀.bcast_S1_S1x1x1_2
  b111_N11 := Cert.ReferenceIdeal.Facts₀.bcast_S1x1x1_S4096x1x1_0_1_2
  r_N11_N1 := Cert.ReferenceIdeal.Facts₀.reducesTo_S4096x1x1_S4096x1_d2
  r_N1_0 := Cert.KernelIdeal.Facts₀.reducesTo_S4096x1_S_d0_1
  r_N_0 := Cert.ReferenceIdeal.Facts₀.reducesTo_S4096_S_d0
  r_NV_0 := Cert.ReferenceIdeal.Facts₀.reducesTo_S4096x32000_S_d0_1
  r_NV_N := Cert.ReferenceIdeal.Facts₀.reducesTo_S4096x32000_S4096_d1
  h0 := Cert.ReferenceIdeal.Facts₀.h_S_
  wf := Cert.ReferenceIdeal.Facts₀.gather_S4096x32000_S4096x1x1_S4096x1_n_1_0_0_1_2_11_wf

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2.2.2)
    (Cert.ReferenceIdeal.ValueH.run_spec m ρ specFacts)

theorem preserves : Cert.preserves_Kernel_KernelIdeal := trivial

section Kernel

open Cert.KernelIdeal Cert.KernelIdeal.Gen Cert.KernelIdeal.GenP Cert.KernelIdeal.Rows

variable (m : (ℓ : Loc nD τ sig) → Buf (Elt Ideal) ℓ) (ρ : Dev nD → PrngReg)

/-- The kernel's distillation loss and cross-entropy as functions of the matrices the region finds. -/
abbrev kD (c : Dev nD) : FVec Ideal Cert.Spec.S0 .f32 := Cert.Spec.kDistill specFacts (Cert.Spec.KL (SA m c) (TA m c))
abbrev kT (c : Dev nD) : FVec Ideal Cert.Spec.S0 .f32 :=
  Cert.Spec.kTask specFacts (Cert.Spec.LSE (SA m c)) (V m c main_v0) (V m c main_v2)

/-- The idealized kernel's run, read: its three results, its arguments unchanged. -/
theorem kernel_run : θ_run defs (onTc (τ := τ) (main (F := Ideal))) ⟨m, fun _ => 0, ρ⟩ fun r => ∀ c : Dev nD,
      r.2.mem ((c.tc : Thread nD τ).loc main_v21) = Cert.Spec.total (kD m c) (kT m c)
      ∧ r.2.mem ((c.tc : Thread nD τ).loc main_v13) = kD m c
      ∧ r.2.mem ((c.tc : Thread nD τ).loc main_v18) = kT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  by
    refine (θ_run defs _ _).mono (fun _ hp c => ?_) (run_main m ρ)
    · have hkl := Cert.KernelIdeal.Flush.final_kl m c (Cert.KernelIdeal.Inv.out_at_last m c)
      have hlse := Cert.KernelIdeal.Flush.final_lse m c (Cert.KernelIdeal.Inv.out_at_last m c)
      refine ⟨((hp c).2 main_v21 (Cert.KernelIdeal.Tail.v21_mem)).trans ?_,
        ((hp c).2 main_v13 (Cert.KernelIdeal.Tail.v13_mem)).trans ?_,
        ((hp c).2 main_v18 (Cert.KernelIdeal.Tail.v18_mem)).trans ?_,
        ((hp c).2 main_arg0 (Pipeline.mem_restRefs_of main_arg0 (by decide) (by decide))).trans (W_main_arg0 m (dats m) c),
        ((hp c).2 main_arg1 (Pipeline.mem_restRefs_of main_arg1 (by decide) (by decide))).trans (W_main_arg1 m (dats m) c),
        ((hp c).2 main_arg2 (Pipeline.mem_restRefs_of main_arg2 (by decide) (by decide))).trans (W_main_arg2 m (dats m) c)⟩
      · rw [Cert.KernelIdeal.Tail.tail_total m c specFacts, hkl, hlse]
      · rw [Cert.KernelIdeal.Tail.tail_distill m c specFacts, hkl]
      · rw [Cert.KernelIdeal.Tail.tail_task m c specFacts, hlse]

end Kernel

/-- Both idealized programs, from memories that agree on the arguments, end with the same three losses. -/
theorem algebraic : Cert.algebraic_KernelIdeal_ReferenceIdeal := by
  intro m ρ m' ρ' hpre hagree
  refine ⟨fun c => Cert.Spec.total (kD m c) (kT m c), fun c => kD m c, fun c => kT m c, kernel_run m ρ, ?_⟩
  refine (θ_run Cert.ReferenceIdeal.defs _ _).mono (fun _ h c => ?_) (Cert.ReferenceIdeal.ValueH.run_spec m' ρ' specFacts)
  obtain ⟨r30, r14, r27, ra0, ra1, ra2⟩ := h c
  -- every logit is a real number
  obtain ⟨hx0, hx1⟩ := Cert.Finite.real_of_pre _ _ _ (hpre c)
  have hS : ∀ i, ∃ r : ℝ, Cert.KernelIdeal.Rows.SA m c i = (r : EReal) := by
    rw [show Cert.KernelIdeal.Rows.SA m c = _ from Cert.KernelIdeal.Entry.V_v0 m c]
    exact Cert.Finite.real_reshaped _ hx0 _
  have hT : ∀ i, ∃ r : ℝ, Cert.KernelIdeal.Rows.TA m c i = (r : EReal) := by
    rw [show Cert.KernelIdeal.Rows.TA m c = _ from Cert.KernelIdeal.Entry.V_v1 m c]
    exact Cert.Finite.real_reshaped _ hx1 _
  -- the reference's matrices are the kernel's
  have eS : Cert.ReferenceIdeal.Side.S2 m' c = Cert.KernelIdeal.Rows.SA m c := by
    rw [show Cert.KernelIdeal.Rows.SA m c = _ from Cert.KernelIdeal.Entry.V_v0 m c]
    unfold Cert.ReferenceIdeal.Side.S2
    rw [(hagree c).1]
  have eT : Cert.ReferenceIdeal.Side.T2 m' c = Cert.KernelIdeal.Rows.TA m c := by
    rw [show Cert.KernelIdeal.Rows.TA m c = _ from Cert.KernelIdeal.Entry.V_v1 m c]
    unfold Cert.ReferenceIdeal.Side.T2
    rw [(hagree c).2.1]
  have eL : Cert.ReferenceIdeal.Side.L1 m' c = Cert.KernelIdeal.Gen.V m c Cert.KernelIdeal.main_v2 := by
    rw [Cert.KernelIdeal.Entry.V_v2 m c]
    unfold Cert.ReferenceIdeal.Side.L1
    rw [(hagree c).2.2]
  have eD : Cert.Spec.rDistill specFacts (Cert.ReferenceIdeal.Side.S2 m' c) (Cert.ReferenceIdeal.Side.T2 m' c) = kD m c := by
    rw [eS, eT]
    exact (Cert.BridgeKL.distill_eq specFacts _ _ hS hT).symm
  have eK : Cert.Spec.rTask specFacts (Cert.ReferenceIdeal.Side.S2 m' c) (Cert.ReferenceIdeal.Side.L1 m' c) = kT m c := by
    rw [eS, eL]
    exact (Cert.BridgeCE.task_eq specFacts _ _ hS).symm
  refine ⟨r30.trans ?_, r14.trans ?_, r27.trans ?_, ra0, ra1, ra2⟩
  · rw [eD, eK]
  · exact eD
  · exact eK

end Cert.Proof.Claims

end
-- ==== Proof.lean ====
/-
  The certificate: the five claims of Defs.lean under the programs' proved side conditions. The kernel keeps, per
  row of logits, online-softmax accumulators over ten tiles and ends with the row's log-sum-exp and its
  Kullback-Leibler term against the teacher at temperature four; the reference computes row-wise log-softmax
  directly. Proof/Claims.lean assembles the claims from the kernel's value (Proof/Invariant.lean, Proof/Flush.lean,
  Proof/KernelTail.lean), the reference's (Proof/RefSide.lean) and the two identities on real rows
  (Proof/BridgeKL.lean, Proof/BridgeCE.lean).
-/
import proofs.«163586_j52982716564146_2_alg».proof.Defs
import proofs.«163586_j52982716564146_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_reference,
    Cert.Proof.Claims.preserves, Cert.Proof.Claims.algebraic⟩

end Cert.Proof

end
